-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x75 : Shape := ⟨2, ![100000, 75]⟩
abbrev S2x400000 : Shape := ⟨2, ![2, 400000]⟩
abbrev S100000 : Shape := ⟨1, ![100000]⟩
abbrev S75x128 : Shape := ⟨2, ![75, 128]⟩
abbrev S128 : Shape := ⟨1, ![128]⟩
abbrev S5x128x128 : Shape := ⟨3, ![5, 128, 128]⟩
abbrev S5x128 : Shape := ⟨2, ![5, 128]⟩
abbrev S128x512 : Shape := ⟨2, ![128, 512]⟩
abbrev S512 : Shape := ⟨1, ![512]⟩
abbrev S512x128 : Shape := ⟨2, ![512, 128]⟩
abbrev S128x1 : Shape := ⟨2, ![128, 1]⟩
abbrev S1 : Shape := ⟨1, ![1]⟩
abbrev S_ : Shape := ⟨0, ![]⟩

class Facts : Prop where
  bcast_S_S100000x75 : S_.BroadcastsInDim S100000x75 (![] : Fin 0 → Fin S100000x75.rank)
  reducesTo_S100000x75_S_d0_1 : S100000x75.ReducesTo [0, 1] S_
  h_S_ : 0 < S_.numel
  bcast_S_S75x128 : S_.BroadcastsInDim S75x128 (![] : Fin 0 → Fin S75x128.rank)
  reducesTo_S75x128_S_d0_1 : S75x128.ReducesTo [0, 1] S_
  bcast_S_S128 : S_.BroadcastsInDim S128 (![] : Fin 0 → Fin S128.rank)
  reducesTo_S128_S_d0 : S128.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x512 .f32) (main_arg10 : FVec F S512 .f32) (main_arg11 : FVec F S512x128 .f32) (main_arg12 : FVec F S128 .f32) (main_arg13 : FVec F S128x1 .f32) (main_arg14 : FVec F S1 .f32) (main_v33 : IVec S_ 1) : IVec S_ 1 :=
  let main_v34 : FVec F S128x512 .f32 := Host.absf main_arg9
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg11
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S5x128 .f32) (main_arg7 : FVec F S5x128x128 .f32) (main_arg8 : FVec F S5x128 .f32) (main_arg9 : FVec F S128x512 .f32) (main_arg10 : FVec F S512 .f32) (main_arg11 : FVec F S512x128 .f32) (main_arg12 : FVec F S128 .f32) (main_arg13 : FVec F S128x1 .f32) (main_arg14 : FVec F S1 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128x128 .f32 := Host.absf main_arg7
  let main_cst_8 : FVec F S_ .f32 := constant S_ .f32 0x7F800000#32
  let main_v25 : FVec F S5x128x128 .f32 := broadcastInDim S5x128x128 ![] bcast_S_S5x128x128 main_cst_8
  let main_v26 : IVec S5x128x128 1 := cmpf .olt main_v24 main_v25
  let main_c_9 : IVec S_ 1 := constantI S_ 1 1#1
  let main_v27 : IVec S_ 1 := (fun x v => Host.reduce IntOp.andi x v reducesTo_S5x128x128_S_d0_1_2 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x75 .f32) (main_arg1 : IVec S2x400000 32) (main_arg2 : IVec S100000 32) (main_arg3 : FVec F S75x128 .f32) (main_arg4 : FVec F S128 .f32) (main_arg5 : FVec F S5x128x128 .f32) (main_arg6 : FVec F S5x128 .f32) (main_arg7 : FVec F S5x128x128 .f32) (main_arg8 : FVec F S5x128 .f32) (main_arg9 : FVec F S128x512 .f32) (main_arg10 : FVec F S512 .f32) (main_arg11 : FVec F S512x128 .f32) (main_arg12 : FVec F S128 .f32) (main_arg13 : FVec F S128x1 .f32) (main_arg14 : FVec F S1 .f32) : IVec S_ 1 :=
  let main_v0 : FVec F S100000x75 .f32 := Host.absf main_arg0
  let main_cst : FVec F S_ .f32 := constant S_ .f32 0x7F800000#32
  let main_v1 : FVec F S100000x75 .f32 := broadcastInDim S100000x75 ![] bcast_S_S100000x75 main_cst
  let main_v2 : IVec S100000x75 1 := cmpf .olt main_v0 main_v1
  let main_c : IVec S_ 1 := constantI S_ 1 1#1
  let main_v3 : IVec S_ 1 := (fun x v => Host.reduce IntOp.andi x v reducesTo_S100000x75_S_d0_1 h_S_) main_v2 main_c
  let main_v4 : FVec F S75x128 .f32 := Host.absf main_arg3
  let main_cst_0 : FVec F S_ .f32 := constant S_ .f32 0x7F800000#32
  let main_v5 : FVec F S75x128 .f32 := broadcastInDim S75x128 ![] bcast_S_S75x128 main_cst_0
  let main_v6 : IVec S75x128 1 := cmpf .olt main_v4 main_v5
  let main_c_1 : IVec S_ 1 := constantI S_ 1 1#1
  let main_v7 : IVec S_ 1 := (fun x v => Host.reduce IntOp.andi x v reducesTo_S75x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S5x128x128 .f32 := Host.absf main_arg5
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg6 main_arg7 main_arg8 main_arg9 main_arg10 main_arg11 main_arg12 main_arg13 main_arg14 main_v13 main_v16
-- ==== Kernel.lean ====
abbrev S100000x75 : Shape := ⟨2, ![100000, 75]⟩
abbrev S2x400000 : Shape := ⟨2, ![2, 400000]⟩
abbrev S100000 : Shape := ⟨1, ![100000]⟩
abbrev S75x128 : Shape := ⟨2, ![75, 128]⟩
abbrev S128 : Shape := ⟨1, ![128]⟩
abbrev S5x128x128 : Shape := ⟨3, ![5, 128, 128]⟩
abbrev S5x128 : Shape := ⟨2, ![5, 128]⟩
abbrev S128x512 : Shape := ⟨2, ![128, 512]⟩
abbrev S512 : Shape := ⟨1, ![512]⟩
abbrev S512x128 : Shape := ⟨2, ![512, 128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S1x128 : Shape := ⟨2, ![1, 128]⟩
abbrev S100000x128 : Shape := ⟨2, ![100000, 128]⟩
abbrev S4000x75 : Shape := ⟨2, ![4000, 75]⟩
abbrev S4000x128 : Shape := ⟨2, ![4000, 128]⟩
abbrev S_ : Shape := ⟨0, ![]⟩
abbrev S400000x1 : Shape := ⟨2, ![400000, 1]⟩
abbrev S400000x128 : Shape := ⟨2, ![400000, 128]⟩
abbrev S1x128x128 : Shape := ⟨3, ![1, 128, 128]⟩
abbrev S128x128 : Shape := ⟨2, ![128, 128]⟩
abbrev S100000x1 : Shape := ⟨2, ![100000, 1]⟩
abbrev S1x512 : Shape := ⟨2, ![1, 512]⟩
abbrev S1x1 : Shape := ⟨2, ![1, 1]⟩
abbrev S4000x1 : Shape := ⟨2, ![4000, 1]⟩
abbrev S1000x128 : Shape := ⟨2, ![1000, 128]⟩
abbrev S1000x1 : Shape := ⟨2, ![1000, 1]⟩
abbrev S1000x512 : Shape := ⟨2, ![1000, 512]⟩

abbrev nBuf : Space → Nat
  | .hbm => 149
  | .vmem => 66
  | .smem => 0
  | _ => 0

abbrev hbmTy0_0 (i : Nat) : BufTy := match i % 128 with
  | 0 => ⟨S100000x75, .f32⟩
  | 1 => ⟨S2x400000, .i32⟩
  | 2 => ⟨S100000, .i32⟩
  | 3 => ⟨S75x128, .f32⟩
  | 4 => ⟨S128, .f32⟩
  | 5 => ⟨S5x128x128, .f32⟩
  | 6 => ⟨S5x128, .f32⟩
  | 7 => ⟨S5x128x128, .f32⟩
  | 8 => ⟨S5x128, .f32⟩
  | 9 => ⟨S128x512, .f32⟩
  | 10 => ⟨S512, .f32⟩
  | 11 => ⟨S512x128, .f32⟩
  | 12 => ⟨S128, .f32⟩
  | 13 => ⟨S128x1, .f32⟩
  | 14 => ⟨S1, .f32⟩
  | 15 => ⟨S1x400000, .i32⟩
  | 16 => ⟨S400000, .i32⟩
  | 17 => ⟨S1x400000, .i32⟩
  | 18 => ⟨S400000, .i32⟩
  | 19 => ⟨S1x128, .f32⟩
  | 20 => ⟨S100000x128, .f32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x128, .f32⟩
  | 30 => ⟨S_, .f32⟩
  | 31 => ⟨S100000x128, .f32⟩
  | 32 => ⟨S400000x1, .i32⟩
  | 33 => ⟨S100000x128, .f32⟩
  | 34 => ⟨S1x128x128, .f32⟩
  | 35 => ⟨S128x128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S100000x128, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x128, .f32⟩
  | 54 => ⟨S_, .f32⟩
  | 55 => ⟨S100000x128, .f32⟩
  | 56 => ⟨S400000x1, .i32⟩
  | 57 => ⟨S100000x128, .f32⟩
  | 58 => ⟨S1x128x128, .f32⟩
  | 59 => ⟨S128x128, .f32⟩
  | 60 => ⟨S1x128, .f32⟩
  | 61 => ⟨S128, .f32⟩
  | 62 => ⟨S1x128x128, .f32⟩
  | 63 => ⟨S128x128, .f32⟩
  | 64 => ⟨S1x128, .f32⟩
  | 65 => ⟨S128, .f32⟩
  | 66 => ⟨S1x128, .f32⟩
  | 67 => ⟨S1x128, .f32⟩
  | 68 => ⟨S100000x128, .f32⟩
  | 69 => ⟨S_, .i32⟩
  | 70 => ⟨S400000, .i32⟩
  | 71 => ⟨S400000, .i1⟩
  | 72 => ⟨S_, .i32⟩
  | 73 => ⟨S400000, .i32⟩
  | 74 => ⟨S400000, .i32⟩
  | 75 => ⟨S400000, .i32⟩
  | 76 => ⟨S400000x1, .i32⟩
  | 77 => ⟨S400000x128, .f32⟩
  | 78 => ⟨S_, .f32⟩
  | 79 => ⟨S100000x128, .f32⟩
  | 80 => ⟨S400000x1, .i32⟩
  | 81 => ⟨S100000x128, .f32⟩
  | 82 => ⟨S1x128x128, .f32⟩
  | 83 => ⟨S128x128, .f32⟩
  | 84 => ⟨S1x128, .f32⟩
  | 85 => ⟨S128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S1x128, .f32⟩
  | 92 => ⟨S100000x128, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x128, .f32⟩
  | 102 => ⟨S_, .f32⟩
  | 103 => ⟨S100000x128, .f32⟩
  | 104 => ⟨S400000x1, .i32⟩
  | 105 => ⟨S100000x128, .f32⟩
  | 106 => ⟨S1x128x128, .f32⟩
  | 107 => ⟨S128x128, .f32⟩
  | 108 => ⟨S1x128, .f32⟩
  | 109 => ⟨S128, .f32⟩
  | 110 => ⟨S1x128x128, .f32⟩
  | 111 => ⟨S128x128, .f32⟩
  | 112 => ⟨S1x128, .f32⟩
  | 113 => ⟨S128, .f32⟩
  | 114 => ⟨S1x128, .f32⟩
  | 115 => ⟨S1x128, .f32⟩
  | 116 => ⟨S100000x128, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S_, .f32⟩
  | 127 => ⟨S100000x128, .f32⟩
  | _ => ⟨S100000x75, .f32⟩

abbrev hbmTy0_1 (i : Nat) : BufTy := match i % 128 with
  | 0 => ⟨S400000x1, .i32⟩
  | 1 => ⟨S100000x128, .f32⟩
  | 2 => ⟨S1x128x128, .f32⟩
  | 3 => ⟨S128x128, .f32⟩
  | 4 => ⟨S1x128, .f32⟩
  | 5 => ⟨S128, .f32⟩
  | 6 => ⟨S1x128x128, .f32⟩
  | 7 => ⟨S128x128, .f32⟩
  | 8 => ⟨S1x128, .f32⟩
  | 9 => ⟨S128, .f32⟩
  | 10 => ⟨S1x128, .f32⟩
  | 11 => ⟨S1x128, .f32⟩
  | 12 => ⟨S100000x128, .f32⟩
  | 13 => ⟨S_, .f32⟩
  | 14 => ⟨S4000x128, .f32⟩
  | 15 => ⟨S100000x1, .i32⟩
  | 16 => ⟨S4000x128, .f32⟩
  | 17 => ⟨S1x512, .f32⟩
  | 18 => ⟨S1x128, .f32⟩
  | 19 => ⟨S1x1, .f32⟩
  | 20 => ⟨S4000x1, .f32⟩
  | _ => ⟨S100000x75, .f32⟩

abbrev hbmTy (i : Nat) : BufTy := match i / 128 with
  | 0 => hbmTy0_0 i
  | 1 => hbmTy0_1 i
  | _ => ⟨S100000x75, .f32⟩

abbrev bufTy : (tb : Table) → Fin (tcTables nBuf tb) → BufTy
  | .hbm, ⟨i, _⟩ => hbmTy i
  | .local _ .vmem, ⟨0, _⟩ => ⟨S4000x75, .f32⟩
  | .local _ .vmem, ⟨1, _⟩ => ⟨S4000x75, .f32⟩
  | .local _ .vmem, ⟨2, _⟩ => ⟨S75x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S128x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S4000x128, .f32⟩
  | .local _ .vmem, ⟨55, _⟩ => ⟨S4000x128, .f32⟩
  | .local _ .vmem, ⟨56, _⟩ => ⟨S1000x128, .f32⟩
  | .local _ .vmem, ⟨57, _⟩ => ⟨S1000x128, .f32⟩
  | .local _ .vmem, ⟨58, _⟩ => ⟨S128x512, .f32⟩
  | .local _ .vmem, ⟨59, _⟩ => ⟨S1x512, .f32⟩
  | .local _ .vmem, ⟨60, _⟩ => ⟨S512x128, .f32⟩
  | .local _ .vmem, ⟨61, _⟩ => ⟨S1x128, .f32⟩
  | .local _ .vmem, ⟨62, _⟩ => ⟨S128x1, .f32⟩
  | .local _ .vmem, ⟨63, _⟩ => ⟨S1x1, .f32⟩
  | .local _ .vmem, ⟨64, _⟩ => ⟨S1000x1, .f32⟩
  | .local _ .vmem, ⟨65, _⟩ => ⟨S1000x1, .f32⟩
  | _, _ => ⟨S100000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_1 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_4 : Ref sig .tc := ⟨.hbm, 69, rfl⟩
abbrev main_v48 : Ref sig .tc := ⟨.hbm, 70, rfl⟩
abbrev main_v49 : Ref sig .tc := ⟨.hbm, 71, rfl⟩
abbrev main_c_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_7 : Ref sig .tc := ⟨.hbm, 93, rfl⟩
abbrev main_v69 : Ref sig .tc := ⟨.hbm, 94, rfl⟩
abbrev main_v70 : Ref sig .tc := ⟨.hbm, 95, rfl⟩
abbrev main_c_8 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_9 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_10 : Ref sig .tc := ⟨.hbm, 117, rfl⟩
abbrev main_v90 : Ref sig .tc := ⟨.hbm, 118, rfl⟩
abbrev main_v91 : Ref sig .tc := ⟨.hbm, 119, rfl⟩
abbrev main_c_11 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_12 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_13 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg6_0 : Ref sig .tc := ⟨.vmem, 63, rfl⟩
abbrev cc6_stg7_0 : Ref sig .tc := ⟨.vmem, 64, rfl⟩
abbrev cc6_stg7_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem6_0 : DmaSem sig := 63
abbrev cc6_sem7_0 : DmaSem sig := 64
abbrev cc6_sem7_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S1000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  shapeCasts_S128_S1x128 : S128.ShapeCasts S1x128
  inb_S4000x75_S4000x75_0_0 : ∀ a, (![0, 0] : Fin 2 → Nat) a + S4000x75.size a ≤ S4000x75.size a
  h_S4000x75 : 0 < S4000x75.numel
  bitsLt_bf16_f32 : FTy.bits .bf16 < FTy.bits .f32
  inb_S75x128_S75x128_0_0 : ∀ a, (![0, 0] : Fin 2 → Nat) a + S75x128.size a ≤ S75x128.size a
  h_S75x128 : 0 < S75x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S4000x128 : S_.BroadcastsInDim S4000x128 (![] : Fin 0 → Fin S4000x128.rank)
  bcast_S100000_S100000x1_0 : S100000.BroadcastsInDim S100000x1 (![0] : Fin 1 → Fin S100000x1.rank)
  shapeCasts_S512_S1x512 : S512.ShapeCasts S1x512
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x128_S512x128_0_0 : ∀ a, (![0, 0] : Fin 2 → Nat) a + S512x128.size a ≤ S512x128.size a
  h_S512x128 : 0 < S512x128.numel
  broadcasts_S1x128_S1000x128 : S1x128.Broadcasts S1000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  dot_S4000x75_S75x128_S4000x128_1_0_0_1_n_n_wf : DotDims.WF S4000x75 S75x128 S4000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S4000x128_S128x128_S4000x128_1_0_0_1_n_n_wf : DotDims.WF S4000x128 S128x128 S4000x128 [1] [0] [0] [1] [] []
  scatter_S4000x128_S100000x1_S100000x128_1_0_0_1_wf : ScatterDims.WF S4000x128 S100000x1 S100000x128 [1] [0] [0] 1
  dot_S1000x128_S128x512_S1000x512_1_0_0_1_n_n_wf : DotDims.WF S1000x128 S128x512 S1000x512 [1] [0] [0] [1] [] []
  dot_S1000x512_S512x128_S1000x128_1_0_0_1_n_n_wf : DotDims.WF S1000x512 S512x128 S1000x128 [1] [0] [0] [1] [] []
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x75.size a ≤ S100000x75.size a
  hwx0_0 : ∀ i : grid0.Coords, EltTy.bits .f32 = 32 ∨ (Rect.block (s := S100000x75) S4000x75.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S75x128.size a ≤ S75x128.size a
  hwx0_1 : ∀ i : grid0.Coords, EltTy.bits .f32 = 32 ∨ (Rect.block (s := S75x128) S75x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S100000x128.size a
  hwx4_6 : ∀ i : grid4.Coords, EltTy.bits .f32 = 32 ∨ (Rect.block (s := S100000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S100000x128.size a
  hwx5_6 : ∀ i : grid5.Coords, EltTy.bits .f32 = 32 ∨ (Rect.block (s := S100000x128) S4000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S4000x128.size a
  hwx6_0 : ∀ i : grid6.Coords, EltTy.bits .f32 = 32 ∨ (Rect.block (s := S4000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x512.size a ≤ S128x512.size a
  hwx6_1 : ∀ i : grid6.Coords, EltTy.bits .f32 = 32 ∨ (Rect.block (s := S128x512) S128x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x128.size a ≤ S512x128.size a
  hwx6_3 : ∀ i : grid6.Coords, EltTy.bits .f32 = 32 ∨ (Rect.block (s := S512x128) S512x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x1.size a ≤ S128x1.size a
  hwx6_5 : ∀ i : grid6.Coords, EltTy.bits .f32 = 32 ∨ (Rect.block (s := S128x1) S128x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1000x1.size a ≤ S4000x1.size a
  hwx6_7 : ∀ i : grid6.Coords, EltTy.bits .f32 = 32 ∨ (Rect.block (s := S4000x1) S1000x1.size (cc6_transform_7 i) (hinb6_7 i)).WholeWords (EltTy.packing .f32)

variable [Facts₀]

def dot_S4000x75_S75x128_S4000x128_1_0_0_1_n_n : DotDims S4000x75 S75x128 S4000x128 where
  lhsContracting := [1]
  rhsContracting := [0]
  lhsNonContracting := [0]
  rhsNonContracting := [1]
  lhsBatch := []
  rhsBatch := []
  wf := dot_S4000x75_S75x128_S4000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S4000x128_S100000x1_S100000x128_1_0_0_1 : ScatterDims S4000x128 S100000x1 S100000x128 where
  updateWindowDims := [1]
  insertedWindowDims := [0]
  scatterDimsToOperandDims := [0]
  indexVectorDim := 1
  wf := scatter_S4000x128_S100000x1_S100000x128_1_0_0_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S4000x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S75x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v89) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v101) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v108) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v109) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v110) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v113) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v114) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S512x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v115) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S128x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v116) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v117) S1000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x75 : Shape := ⟨2, ![100000, 75]⟩
abbrev S2x400000 : Shape := ⟨2, ![2, 400000]⟩
abbrev S100000 : Shape := ⟨1, ![100000]⟩
abbrev S75x128 : Shape := ⟨2, ![75, 128]⟩
abbrev S128 : Shape := ⟨1, ![128]⟩
abbrev S5x128x128 : Shape := ⟨3, ![5, 128, 128]⟩
abbrev S5x128 : Shape := ⟨2, ![5, 128]⟩
abbrev S128x512 : Shape := ⟨2, ![128, 512]⟩
abbrev S512 : Shape := ⟨1, ![512]⟩
abbrev S512x128 : Shape := ⟨2, ![512, 128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S100000x128 : Shape := ⟨2, ![100000, 128]⟩
abbrev S1x128 : Shape := ⟨2, ![1, 128]⟩
abbrev S_ : Shape := ⟨0, ![]⟩
abbrev S400000x1 : Shape := ⟨2, ![400000, 1]⟩
abbrev S400000x128 : Shape := ⟨2, ![400000, 128]⟩
abbrev S1x128x128 : Shape := ⟨3, ![1, 128, 128]⟩
abbrev S128x128 : Shape := ⟨2, ![128, 128]⟩
abbrev S4000x128 : Shape := ⟨2, ![4000, 128]⟩
abbrev S100000x1 : Shape := ⟨2, ![100000, 1]⟩
abbrev S4000x512 : Shape := ⟨2, ![4000, 512]⟩
abbrev S1x512 : Shape := ⟨2, ![1, 512]⟩
abbrev S4000x1 : Shape := ⟨2, ![4000, 1]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S100000x75, .f32⟩
  | 1 => ⟨S2x400000, .i32⟩
  | 2 => ⟨S100000, .i32⟩
  | 3 => ⟨S75x128, .f32⟩
  | 4 => ⟨S128, .f32⟩
  | 5 => ⟨S5x128x128, .f32⟩
  | 6 => ⟨S5x128, .f32⟩
  | 7 => ⟨S5x128x128, .f32⟩
  | 8 => ⟨S5x128, .f32⟩
  | 9 => ⟨S128x512, .f32⟩
  | 10 => ⟨S512, .f32⟩
  | 11 => ⟨S512x128, .f32⟩
  | 12 => ⟨S128, .f32⟩
  | 13 => ⟨S128x1, .f32⟩
  | 14 => ⟨S1, .f32⟩
  | 15 => ⟨S1x400000, .i32⟩
  | 16 => ⟨S400000, .i32⟩
  | 17 => ⟨S1x400000, .i32⟩
  | 18 => ⟨S400000, .i32⟩
  | 19 => ⟨S100000x128, .f32⟩
  | 20 => ⟨S1x128, .f32⟩
  | 21 => ⟨S100000x128, .f32⟩
  | 22 => ⟨S100000x128, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x128, .f32⟩
  | 32 => ⟨S_, .f32⟩
  | 33 => ⟨S100000x128, .f32⟩
  | 34 => ⟨S400000x1, .i32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x128x128, .f32⟩
  | 52 => ⟨S128x128, .f32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x128, .f32⟩
  | 71 => ⟨S_, .f32⟩
  | 72 => ⟨S100000x128, .f32⟩
  | 73 => ⟨S400000x1, .i32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S1x128x128, .f32⟩
  | 80 => ⟨S128x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x128, .f32⟩
  | 110 => ⟨S_, .f32⟩
  | 111 => ⟨S100000x128, .f32⟩
  | 112 => ⟨S400000x1, .i32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S1x128x128, .f32⟩
  | 119 => ⟨S128x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x75, .f32⟩

abbrev hbmTy0_1 (i : Nat) : BufTy := match i % 128 with
  | 0 => ⟨S100000x128, .f32⟩
  | 1 => ⟨S1x128x128, .f32⟩
  | 2 => ⟨S128x128, .f32⟩
  | 3 => ⟨S100000x128, .f32⟩
  | 4 => ⟨S1x128, .f32⟩
  | 5 => ⟨S128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x128, .f32⟩
  | 21 => ⟨S_, .f32⟩
  | 22 => ⟨S100000x128, .f32⟩
  | 23 => ⟨S400000x1, .i32⟩
  | 24 => ⟨S100000x128, .f32⟩
  | 25 => ⟨S_, .f32⟩
  | 26 => ⟨S100000x128, .f32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S1x128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .f32⟩
  | 60 => ⟨S_, .f32⟩
  | 61 => ⟨S100000x128, .f32⟩
  | 62 => ⟨S400000x1, .i32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S1x128x128, .f32⟩
  | 69 => ⟨S128x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S1x128x128, .f32⟩
  | 80 => ⟨S128x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S_, .f32⟩
  | 88 => ⟨S4000x128, .f32⟩
  | 89 => ⟨S100000x1, .i32⟩
  | 90 => ⟨S4000x128, .f32⟩
  | 91 => ⟨S4000x512, .f32⟩
  | 92 => ⟨S1x512, .f32⟩
  | 93 => ⟨S4000x512, .f32⟩
  | 94 => ⟨S4000x512, .f32⟩
  | 95 => ⟨S_, .f32⟩
  | 96 => ⟨S4000x512, .f32⟩
  | 97 => ⟨S4000x512, .f32⟩
  | 98 => ⟨S4000x128, .f32⟩
  | 99 => ⟨S1x128, .f32⟩
  | 100 => ⟨S4000x128, .f32⟩
  | 101 => ⟨S4000x128, .f32⟩
  | 102 => ⟨S_, .f32⟩
  | 103 => ⟨S4000x128, .f32⟩
  | 104 => ⟨S4000x128, .f32⟩
  | 105 => ⟨S4000x1, .f32⟩
  | 106 => ⟨S1x1, .f32⟩
  | 107 => ⟨S4000x1, .f32⟩
  | 108 => ⟨S4000x1, .f32⟩
  | _ => ⟨S100000x75, .f32⟩

abbrev hbmTy (i : Nat) : BufTy := match i / 128 with
  | 0 => hbmTy0_0 i
  | 1 => hbmTy0_1 i
  | _ => ⟨S100000x75, .f32⟩

abbrev bufTy : (tb : Table) → Fin (tcTables nBuf tb) → BufTy
  | .hbm, ⟨i, _⟩ => hbmTy i
  | _, _ => ⟨S100000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_cst : Ref sig .tc := ⟨.hbm, 59, rfl⟩
abbrev main_call1_v0 : Ref sig .tc := ⟨.hbm, 60, rfl⟩
abbrev main_v38 : Ref sig .tc := ⟨.hbm, 61, rfl⟩
abbrev main_c_2 : Ref sig .tc := ⟨.hbm, 62, rfl⟩
abbrev main_v39 : Ref sig .tc := ⟨.hbm, 63, rfl⟩
abbrev main_v40 : Ref sig .tc := ⟨.hbm, 64, rfl⟩
abbrev main_c_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_cst : Ref sig .tc := ⟨.hbm, 87, rfl⟩
abbrev main_call2_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call3_cst : Ref sig .tc := ⟨.hbm, 98, rfl⟩
abbrev main_call3_v0 : Ref sig .tc := ⟨.hbm, 99, rfl⟩
abbrev main_v69 : Ref sig .tc := ⟨.hbm, 100, rfl⟩
abbrev main_c_6 : Ref sig .tc := ⟨.hbm, 101, rfl⟩
abbrev main_v70 : Ref sig .tc := ⟨.hbm, 102, rfl⟩
abbrev main_v71 : Ref sig .tc := ⟨.hbm, 103, rfl⟩
abbrev main_c_7 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_8 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_9 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call4_cst : Ref sig .tc := ⟨.hbm, 126, rfl⟩
abbrev main_call4_v0 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call5_cst : Ref sig .tc := ⟨.hbm, 137, rfl⟩
abbrev main_call5_v0 : Ref sig .tc := ⟨.hbm, 138, rfl⟩
abbrev main_v100 : Ref sig .tc := ⟨.hbm, 139, rfl⟩
abbrev main_c_10 : Ref sig .tc := ⟨.hbm, 140, rfl⟩
abbrev main_v101 : Ref sig .tc := ⟨.hbm, 141, rfl⟩
abbrev main_v102 : Ref sig .tc := ⟨.hbm, 142, rfl⟩
abbrev main_c_11 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_12 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_13 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_call6_cst : Ref sig .tc := ⟨.hbm, 165, rfl⟩
abbrev main_call6_v0 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_call7_cst : Ref sig .tc := ⟨.hbm, 176, rfl⟩
abbrev main_call7_v0 : Ref sig .tc := ⟨.hbm, 177, rfl⟩
abbrev main_v131 : Ref sig .tc := ⟨.hbm, 178, rfl⟩
abbrev main_c_14 : Ref sig .tc := ⟨.hbm, 179, rfl⟩
abbrev main_v132 : Ref sig .tc := ⟨.hbm, 180, rfl⟩
abbrev main_v133 : Ref sig .tc := ⟨.hbm, 181, rfl⟩
abbrev main_c_15 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_16 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_17 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_call8_cst : Ref sig .tc := ⟨.hbm, 204, rfl⟩
abbrev main_call8_v0 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_18 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_call9_cst : Ref sig .tc := ⟨.hbm, 223, rfl⟩
abbrev main_call9_v0 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_call10_cst : Ref sig .tc := ⟨.hbm, 230, rfl⟩
abbrev main_call10_v0 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S4000x128 : S_.BroadcastsInDim S4000x128 (![] : Fin 0 → Fin S4000x128.rank)
  bcast_S100000_S100000x1_0 : S100000.BroadcastsInDim S100000x1 (![0] : Fin 1 → Fin S100000x1.rank)
  bcast_S512_S1x512_1 : S512.BroadcastsInDim S1x512 (![1] : Fin 1 → Fin S1x512.rank)
  bcast_S1x512_S4000x512_0_1 : S1x512.BroadcastsInDim S4000x512 (![0, 1] : Fin 2 → Fin S4000x512.rank)
  bcast_S_S4000x512 : S_.BroadcastsInDim S4000x512 (![] : Fin 0 → Fin S4000x512.rank)
  bcast_S1x128_S4000x128_0_1 : S1x128.BroadcastsInDim S4000x128 (![0, 1] : Fin 2 → Fin S4000x128.rank)
  bcast_S1_S1x1_1 : S1.BroadcastsInDim S1x1 (![1] : Fin 1 → Fin S1x1.rank)
  bcast_S1x1_S4000x1_0_1 : S1x1.BroadcastsInDim S4000x1 (![0, 1] : Fin 2 → Fin S4000x1.rank)
  dot_S100000x75_S75x128_S100000x128_1_0_0_1_n_n_wf : DotDims.WF S100000x75 S75x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x128_S100000x128_1_0_0_1_n_n_wf : DotDims.WF S100000x128 S128x128 S100000x128 [1] [0] [0] [1] [] []
  scatter_S4000x128_S100000x1_S100000x128_1_0_0_1_wf : ScatterDims.WF S4000x128 S100000x1 S100000x128 [1] [0] [0] 1
  dot_S4000x128_S128x512_S4000x512_1_0_0_1_n_n_wf : DotDims.WF S4000x128 S128x512 S4000x512 [1] [0] [0] [1] [] []
  dot_S4000x512_S512x128_S4000x128_1_0_0_1_n_n_wf : DotDims.WF S4000x512 S512x128 S4000x128 [1] [0] [0] [1] [] []
  dot_S4000x128_S128x1_S4000x1_1_0_0_1_n_n_wf : DotDims.WF S4000x128 S128x1 S4000x1 [1] [0] [0] [1] [] []

variable [Facts₀]

def dot_S100000x75_S75x128_S100000x128_1_0_0_1_n_n : DotDims S100000x75 S75x128 S100000x128 where
  lhsContracting := [1]
  rhsContracting := [0]
  lhsNonContracting := [0]
  rhsNonContracting := [1]
  lhsBatch := []
  rhsBatch := []
  wf := dot_S100000x75_S75x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S4000x128_S100000x1_S100000x128_1_0_0_1 : ScatterDims S4000x128 S100000x1 S100000x128 where
  updateWindowDims := [1]
  insertedWindowDims := [0]
  scatterDimsToOperandDims := [0]
  indexVectorDim := 1
  wf := scatter_S4000x128_S100000x1_S100000x128_1_0_0_1_wf
def dot_S4000x128_S128x512_S4000x512_1_0_0_1_n_n : DotDims S4000x128 S128x512 S4000x512 where
  lhsContracting := [1]
  rhsContracting := [0]
  lhsNonContracting := [0]
  rhsNonContracting := [1]
  lhsBatch := []
  rhsBatch := []
  wf := dot_S4000x128_S128x512_S4000x512_1_0_0_1_n_n_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

class Facts : Prop extends Facts₀ where

variable [Facts]
-- ==== Proof.KernelRun.lean ====
/-
  The run of the idealized kernel program, with its result named.

  From any launch memory with zero counters, every weakly fair execution of the program's entry function on the
  TensorCores terminates without fault, and in every final state the result array holds what the last region's
  write-backs leave (the last boundary contents `Gen.W14`), while each argument array is as launched.
-/
import proofs.«180979_j42322607735316_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with the result array at the last boundary's contents and every argument array as launched: the
    segments' launch, the last thread state (every unscoped buffer at `Gen.W14`) read against the final state. -/
theorem run_result : θ_run defs (onTc (τ := τ) (main (F := F))) ⟨m, fun _ => 0, ρ⟩ (fun r => ∀ c : Dev nD,
      r.2.mem ((c.tc : Thread nD τ).loc main_v117) = Gen.W14 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v117 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

end Cert.KernelIdeal.Run

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«180979_j42322607735316_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«180979_j42322607735316_1_alg».proof.Proof.LibMatmulPlain
import proofs.«180979_j42322607735316_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibRowLayers.lean ====
/-
  Three row-local layers over the extended reals, read at one entry of a block of rows.

  Each of the three layers below produces row R of its result from row R of its first operand alone (and from the
  whole of its small second and third operands). So when a block `a` of `m` rows agrees with the rows of a whole
  array `A` of `M` rows it was cut from — row `r` of the block is row `R` of the array —, the layer applied to the
  block, read at row `r`, is the layer applied to the whole array, read at row `R`:

  * the product with a matrix: the matrix unit's product into a zero accumulator (its operands narrowed to a shorter
    float format first, which changes nothing here) against the host's dot_general: both are Σ_k A(R,k) · B(k,q);
  * the bias and the activation: tanh (x(r,q) + b(q)), the bias held as one row and spread over the rows on one side,
    broadcast to one row and then over the rows on the other;
  * the product plus the bias: Σ_k A(R,k) · B(k,q) + b(q).

  No law of the extended reals beyond rewriting equal summands is used: the two sides are the same expression.
-/
import proofs.«180979_j42322607735316_1_alg».proof.Proof.LibMatmulPlain
import proofs.«180979_j42322607735316_1_alg».proof.Proof.LibHostDotPlain
import proofs.«180979_j42322607735316_1_alg».proof.Proof.LibDense
import Idealize.ShloMosaic.Lib.ValueLayout
import Idealize.ShloMosaic.Lib.Pipeline.Value

noncomputable section

open scoped BigOperators

namespace Idealize.ShloMosaic.RowLayers

open Idealize.ShloMosaic Idealize.ShloMosaic.ValueIdx

variable {M m K N : Nat}

/-- Row `r` of the block's product is row `R` of the whole product: the same row-by-column sums. -/
theorem product_rows (A : FVec Ideal ⟨2, ![M, K]⟩ .f32) (B : FVec Ideal ⟨2, ![K, N]⟩ .f32)
    (a : FVec Ideal ⟨2, ![m, K]⟩ .f32) (hn : FTy.bf16.bits < FTy.f32.bits) (r : Fin m) (R : Fin M) (q : Fin N)
    (ha : ∀ k : Fin K, a (ix2 r k) = A (ix2 R k)) :
    matmul (DotDims.plain m K N) none (truncf .bf16 a hn) (truncf .bf16 B hn)
        (constant (F := Ideal) ⟨2, ![m, N]⟩ .f32 0x00000000#32) (ix2 r q)
      = Host.dotGeneral (F := Ideal) (DotDims.plain M K N) none A B (ix2 R q) := by
  rw [MatmulPlain.matmul_zero_apply, HostDotPlain.dotGeneral_apply]
  refine Finset.sum_congr rfl fun k _ => ?_
  show a (ix2 r k) * B (ix2 k q) = A (ix2 R k) * B (ix2 k q)
  rw [ha k]

/-- Row `r` of tanh (block + bias) is row `R` of tanh (array + bias): tanh (x + b(q)) at equal x. -/
theorem bias_tanh_rows (X : FVec Ideal ⟨2, ![M, N]⟩ .f32) (b : FVec Ideal ⟨1, ![N]⟩ .f32)
    (x : FVec Ideal ⟨2, ![m, N]⟩ .f32)
    (hs : (⟨2, ![m, N]⟩ : Shape).ShapeCasts ⟨2, ![m, N]⟩) (hr : (⟨1, ![N]⟩ : Shape).ShapeCasts ⟨2, ![1, N]⟩)
    (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (hx : x (ix2 r q) = X (ix2 R q)) :
    tanh (addf (shapeCast ⟨2, ![m, N]⟩ x hs) (broadcastTo ⟨2, ![m, N]⟩ (shapeCast ⟨2, ![1, N]⟩ b hr) hb)) (ix2 r q)
      = Host.tanh (addf X (broadcastInDim ⟨2, ![M, N]⟩ ![0, 1] h2 (broadcastInDim ⟨2, ![1, N]⟩ ![1] h1 b))) (ix2 R q) := by
  show Ideal.tanh (shapeCast ⟨2, ![m, N]⟩ x hs (ix2 r q)
        + broadcastTo ⟨2, ![m, N]⟩ (shapeCast ⟨2, ![1, N]⟩ b hr) hb (ix2 r q))
      = Ideal.tanh (X (ix2 R q)
        + broadcastInDim ⟨2, ![M, N]⟩ ![0, 1] h2 (broadcastInDim ⟨2, ![1, N]⟩ ![1] h1 b) (ix2 R q))
  rw [shapeCast_self, broadcastTo_1b_ab_apply, shapeCast_a_1a_apply, Dense.bias_rows_apply, hx]

/-- Row `r` of the block's product plus the bias is row `R` of the whole product plus the bias. -/
theorem dense_rows (A : FVec Ideal ⟨2, ![M, K]⟩ .f32) (B : FVec Ideal ⟨2, ![K, N]⟩ .f32) (b : FVec Ideal ⟨1, ![N]⟩ .f32)
    (a : FVec Ideal ⟨2, ![m, K]⟩ .f32) (hn : FTy.bf16.bits < FTy.f32.bits)
    (hr : (⟨1, ![N]⟩ : Shape).ShapeCasts ⟨2, ![1, N]⟩) (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (ha : ∀ k : Fin K, a (ix2 r k) = A (ix2 R k)) :
    addf (matmul (DotDims.plain m K N) none (truncf .bf16 a hn) (truncf .bf16 B hn)
          (constant (F := Ideal) ⟨2, ![m, N]⟩ .f32 0x00000000#32))
        (broadcastTo ⟨2, ![m, N]⟩ (shapeCast ⟨2, ![1, N]⟩ b hr) hb) (ix2 r q)
      = addf (Host.dotGeneral (F := Ideal) (DotDims.plain M K N) none A B)
          (broadcastInDim ⟨2, ![M, N]⟩ ![0, 1] h2 (broadcastInDim ⟨2, ![1, N]⟩ ![1] h1 b)) (ix2 R q) := by
  rw [Dense.matmul_bias_apply, Dense.dot_bias_apply, shapeCast_a_1a_apply]
  congr 1
  refine Finset.sum_congr rfl fun k _ => ?_
  show a (ix2 r k) * B (ix2 k q) = A (ix2 R k) * B (ix2 k q)
  rw [ha k]

end Idealize.ShloMosaic.RowLayers

end
-- ==== Proof.LibReluLayers.lean ====
/-
  Row-local layers with a rectifier, over the extended reals, read at one entry of a block of rows.

  The rectifier is the maximum with zero, entry by entry. Written for the vector unit it is the maximum with a zero scalar
  spread over the block; written for the host it is the maximum with a zero constant broadcast over the array. Both are
  max (x, 0) at every entry, so a rectified layer applied to a block of rows, read at row r, is the layer applied to the
  whole array, read at the row R the block's row r was cut from:

  * the bias and the rectifier: max (x(r,q) + b(q), 0);
  * a two-layer perceptron head on whole arrays: max (Σ_j P(p,j) · U(j,k) + u(k), 0) rectified, then
    Σ_k (…) · W(k,q) + w(q).

  No law of the extended reals beyond rewriting equal summands is used.
-/
import proofs.«180979_j42322607735316_1_alg».proof.Proof.LibRowLayers

noncomputable section

open scoped BigOperators

namespace Idealize.ShloMosaic.ReluLayers

open Idealize.ShloMosaic Idealize.ShloMosaic.ValueIdx

variable {M m K N L : Nat}

/-- The zero scalar spread over a block and the zero constant broadcast over an array agree at every pair of entries. -/
theorem zero_splat_eq (h0 : (⟨0, ![]⟩ : Shape).BroadcastsInDim ⟨2, ![M, N]⟩ ![]) (j : (⟨2, ![m, N]⟩ : Shape).Idx)
    (J : (⟨2, ![M, N]⟩ : Shape).Idx) :
    broadcast ⟨2, ![m, N]⟩ (Scalar.ofBits (F := Ideal) .f32 0x00000000#32) j
      = broadcastInDim ⟨2, ![M, N]⟩ ![] h0 (constant (F := Ideal) ⟨0, ![]⟩ .f32 0x00000000#32) J := rfl

/-- The rectifier on a block against the rectifier on the array: equal where the operands are. -/
theorem relu_rows (X : FVec Ideal ⟨2, ![M, N]⟩ .f32) (x : FVec Ideal ⟨2, ![m, N]⟩ .f32)
    (h0 : (⟨0, ![]⟩ : Shape).BroadcastsInDim ⟨2, ![M, N]⟩ ![])
    (j : (⟨2, ![m, N]⟩ : Shape).Idx) (J : (⟨2, ![M, N]⟩ : Shape).Idx) (hx : x j = X J) :
    maximumf x (broadcast ⟨2, ![m, N]⟩ (Scalar.ofBits (F := Ideal) .f32 0x00000000#32)) j
      = maximumf X (broadcastInDim ⟨2, ![M, N]⟩ ![] h0 (constant (F := Ideal) ⟨0, ![]⟩ .f32 0x00000000#32)) J := by
  show FloatOps.maximumf (x j) (broadcast ⟨2, ![m, N]⟩ (Scalar.ofBits (F := Ideal) .f32 0x00000000#32) j)
    = FloatOps.maximumf (X J) (broadcastInDim ⟨2, ![M, N]⟩ ![] h0 (constant (F := Ideal) ⟨0, ![]⟩ .f32 0x00000000#32) J)
  rw [hx, zero_splat_eq h0 j J]

/-- Row r of the rectified (block + bias) is row R of the rectified (array + bias). -/
theorem bias_relu_rows (X : FVec Ideal ⟨2, ![M, N]⟩ .f32) (b : FVec Ideal ⟨1, ![N]⟩ .f32)
    (x : FVec Ideal ⟨2, ![m, N]⟩ .f32)
    (hs : (⟨2, ![m, N]⟩ : Shape).ShapeCasts ⟨2, ![m, N]⟩) (hr : (⟨1, ![N]⟩ : Shape).ShapeCasts ⟨2, ![1, N]⟩)
    (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (r : Fin m) (R : Fin M) (q : Fin N) (hx : x (ix2 r q) = X (ix2 R q)) :
    maximumf (addf (shapeCast ⟨2, ![m, N]⟩ x hs) (broadcastTo ⟨2, ![m, N]⟩ (shapeCast ⟨2, ![1, N]⟩ b hr) hb))
        (broadcast ⟨2, ![m, N]⟩ (Scalar.ofBits (F := Ideal) .f32 0x00000000#32)) (ix2 r q)
      = maximumf (addf X (broadcastInDim ⟨2, ![M, N]⟩ ![0, 1] h2 (broadcastInDim ⟨2, ![1, N]⟩ ![1] h1 b)))
          (broadcastInDim ⟨2, ![M, N]⟩ ![] h0 (constant (F := Ideal) ⟨0, ![]⟩ .f32 0x00000000#32)) (ix2 R q) := by
  refine relu_rows _ _ h0 (ix2 r q) (ix2 R q) ?_
  show shapeCast ⟨2, ![m, N]⟩ x hs (ix2 r q) + broadcastTo ⟨2, ![m, N]⟩ (shapeCast ⟨2, ![1, N]⟩ b hr) hb (ix2 r q)
      = X (ix2 R q) + broadcastInDim ⟨2, ![M, N]⟩ ![0, 1] h2 (broadcastInDim ⟨2, ![1, N]⟩ ![1] h1 b) (ix2 R q)
  rw [shapeCast_self, broadcastTo_1b_ab_apply, shapeCast_a_1a_apply, Dense.bias_rows_apply, hx]

/-- A two-layer perceptron head on whole arrays, the matrix unit's spelling against the host's: the first dense layer
    rectified, then the second dense layer. Entry (p, q) of both is Σ_k max (Σ_j P(p,j) · U(j,k) + u(k), 0) · W(k,q) + w(q). -/
theorem head_eq (P : FVec Ideal ⟨2, ![M, K]⟩ .f32) (U : FVec Ideal ⟨2, ![K, L]⟩ .f32) (u : FVec Ideal ⟨1, ![L]⟩ .f32)
    (W : FVec Ideal ⟨2, ![L, N]⟩ .f32) (w : FVec Ideal ⟨1, ![N]⟩ .f32) (hn : FTy.bf16.bits < FTy.f32.bits)
    (hs : (⟨2, ![M, K]⟩ : Shape).ShapeCasts ⟨2, ![M, K]⟩)
    (hru : (⟨1, ![L]⟩ : Shape).ShapeCasts ⟨2, ![1, L]⟩) (hbu : (⟨2, ![1, L]⟩ : Shape).Broadcasts ⟨2, ![M, L]⟩)
    (h1u : (⟨1, ![L]⟩ : Shape).BroadcastsInDim ⟨2, ![1, L]⟩ ![1])
    (h2u : (⟨2, ![1, L]⟩ : Shape).BroadcastsInDim ⟨2, ![M, L]⟩ ![0, 1])
    (h0 : (⟨0, ![]⟩ : Shape).BroadcastsInDim ⟨2, ![M, L]⟩ ![])
    (hrw : (⟨1, ![N]⟩ : Shape).ShapeCasts ⟨2, ![1, N]⟩) (hbw : (⟨2, ![1, N]⟩ : Shape).Broadcasts ⟨2, ![M, N]⟩)
    (h1w : (⟨1, ![N]⟩ : Shape).BroadcastsInDim ⟨2, ![1, N]⟩ ![1])
    (h2w : (⟨2, ![1, N]⟩ : Shape).BroadcastsInDim ⟨2, ![M, N]⟩ ![0, 1]) :
    addf (matmul (DotDims.plain M L N) none
          (truncf .bf16 (maximumf (addf (matmul (DotDims.plain M K L) none (truncf .bf16 (shapeCast ⟨2, ![M, K]⟩ P hs) hn) (truncf .bf16 U hn)
                (constant (F := Ideal) ⟨2, ![M, L]⟩ .f32 0x00000000#32))
              (broadcastTo ⟨2, ![M, L]⟩ (shapeCast ⟨2, ![1, L]⟩ u hru) hbu))
            (broadcast ⟨2, ![M, L]⟩ (Scalar.ofBits (F := Ideal) .f32 0x00000000#32))) hn)
          (truncf .bf16 W hn) (constant (F := Ideal) ⟨2, ![M, N]⟩ .f32 0x00000000#32))
        (broadcastTo ⟨2, ![M, N]⟩ (shapeCast ⟨2, ![1, N]⟩ w hrw) hbw)
      = addf (Host.dotGeneral (F := Ideal) (DotDims.plain M L N) none
          (maximumf (addf (Host.dotGeneral (F := Ideal) (DotDims.plain M K L) none P U)
              (broadcastInDim ⟨2, ![M, L]⟩ ![0, 1] h2u (broadcastInDim ⟨2, ![1, L]⟩ ![1] h1u u)))
            (broadcastInDim ⟨2, ![M, L]⟩ ![] h0 (constant (F := Ideal) ⟨0, ![]⟩ .f32 0x00000000#32))) W)
          (broadcastInDim ⟨2, ![M, N]⟩ ![0, 1] h2w (broadcastInDim ⟨2, ![1, N]⟩ ![1] h1w w)) := by
  funext j
  obtain ⟨p, q, rfl⟩ : ∃ (p : Fin M) (q : Fin N), j = ix2 p q := ⟨j 0, j 1, eq_ix2 j⟩
  refine RowLayers.dense_rows _ W w _ hn hrw hbw h1w h2w p p q fun k => ?_
  refine relu_rows _ _ h0 (ix2 p k) (ix2 p k) ?_
  rw [shapeCast_self]
  exact RowLayers.dense_rows P U u P hn hru hbu h1u h2u p p k fun _ => rfl

end Idealize.ShloMosaic.ReluLayers

end
-- ==== Proof.LibGinLayers.lean ====
/-
  The row-local layers of a graph isomorphism network over the extended reals: a block of rows against the whole array.

  Every layer here produces row R of its result from row R of its row-indexed operands alone (and from the whole of
  its small weight and bias operands). So when a block of m rows agrees with the rows of a whole array of M rows it was
  cut from (row r of the block is row R of the array), the layer in the matrix unit's spelling applied to the block,
  read at row r, is the layer in the host's spelling applied to the whole array, read at row R:

  * a dense layer, Σ_k A(R,k) · B(k,q) + b(q), the bias held as one row [1,N] on both sides;
  * the aggregation's combine step 1 · h(R,k) + agg(R,k);
  * a two-layer perceptron on the combined rows, max(Σ_j z(R,j) · U(j,k) + u(k), 0) then Σ_k (…) · W(k,q) + w(q), with or
    without a final maximum with zero;
  * a three-layer perceptron with a maximum with zero after its first two layers.

  The operands narrowed to a shorter float format before a product, and the casts of an array to its own shape, change
  nothing over the extended reals. No law beyond rewriting equal summands is used: the two sides are one expression.
-/
import proofs.«180979_j42322607735316_1_alg».proof.Proof.LibReluLayers

noncomputable section

open scoped BigOperators

namespace Idealize.ShloMosaic.GinLayers

open Idealize.ShloMosaic Idealize.ShloMosaic.ValueIdx

variable {M m K N L P Q : Nat}

/-! ## The layers in the host's spelling, on whole arrays -/

/-- X · W plus a one-row bias spread over the rows. -/
def hostDense (h2 : (⟨2, ![1, N]⟩ : Shape).BroadcastsInDim ⟨2, ![M, N]⟩ ![0, 1])
    (X : FVec Ideal ⟨2, ![M, K]⟩ .f32) (W : FVec Ideal ⟨2, ![K, N]⟩ .f32) (b : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 b)

/-- The maximum with zero, entry by entry. -/
def hostRelu (h0 : (⟨0, ![]⟩ : Shape).BroadcastsInDim ⟨2, ![M, N]⟩ ![]) (X : FVec Ideal ⟨2, ![M, N]⟩ .f32) :
    FVec Ideal ⟨2, ![M, N]⟩ .f32 :=
  maximumf X (broadcastInDim ⟨2, ![M, N]⟩ ![] h0 (constant (F := Ideal) ⟨0, ![]⟩ .f32 0x00000000#32))

/-- 1 · h + agg, entry by entry. -/
def hostCombine (h0 : (⟨0, ![]⟩ : Shape).BroadcastsInDim ⟨2, ![M, N]⟩ ![]) (H AGG : FVec Ideal ⟨2, ![M, N]⟩ .f32) :
    FVec Ideal ⟨2, ![M, N]⟩ .f32 :=
  addf (mulf (broadcastInDim ⟨2, ![M, N]⟩ ![] h0 (constant (F := Ideal) ⟨0, ![]⟩ .f32 0x3F800000#32)) H) AGG

/-- One layer's update without the final maximum: the two-layer perceptron of the combined rows. -/
def ginPlain (h0z : (⟨0, ![]⟩ : Shape).BroadcastsInDim ⟨2, ![M, N]⟩ ![])
    (h21 : (⟨2, ![1, L]⟩ : Shape).BroadcastsInDim ⟨2, ![M, L]⟩ ![0, 1]) (h01 : (⟨0, ![]⟩ : Shape).BroadcastsInDim ⟨2, ![M, L]⟩ ![])
    (h22 : (⟨2, ![1, P]⟩ : Shape).BroadcastsInDim ⟨2, ![M, P]⟩ ![0, 1])
    (H AGG : FVec Ideal ⟨2, ![M, N]⟩ .f32) (W1 : FVec Ideal ⟨2, ![N, L]⟩ .f32) (b1 : FVec Ideal ⟨2, ![1, L]⟩ .f32)
    (W2 : FVec Ideal ⟨2, ![L, P]⟩ .f32) (b2 : FVec Ideal ⟨2, ![1, P]⟩ .f32) : FVec Ideal ⟨2, ![M, P]⟩ .f32 :=
  hostDense h22 (hostRelu h01 (hostDense h21 (hostCombine h0z H AGG) W1 b1)) W2 b2

/-- One layer's update followed by the maximum with zero. -/
def ginRelu (h0z : (⟨0, ![]⟩ : Shape).BroadcastsInDim ⟨2, ![M, N]⟩ ![])
    (h21 : (⟨2, ![1, L]⟩ : Shape).BroadcastsInDim ⟨2, ![M, L]⟩ ![0, 1]) (h01 : (⟨0, ![]⟩ : Shape).BroadcastsInDim ⟨2, ![M, L]⟩ ![])
    (h22 : (⟨2, ![1, P]⟩ : Shape).BroadcastsInDim ⟨2, ![M, P]⟩ ![0, 1]) (h02 : (⟨0, ![]⟩ : Shape).BroadcastsInDim ⟨2, ![M, P]⟩ ![])
    (H AGG : FVec Ideal ⟨2, ![M, N]⟩ .f32) (W1 : FVec Ideal ⟨2, ![N, L]⟩ .f32) (b1 : FVec Ideal ⟨2, ![1, L]⟩ .f32)
    (W2 : FVec Ideal ⟨2, ![L, P]⟩ .f32) (b2 : FVec Ideal ⟨2, ![1, P]⟩ .f32) : FVec Ideal ⟨2, ![M, P]⟩ .f32 :=
  hostRelu h02 (ginPlain h0z h21 h01 h22 H AGG W1 b1 W2 b2)

/-- The three-layer perceptron: a maximum with zero after the first and after the second layer, none after the third. -/
def task3 (h20 : (⟨2, ![1, L]⟩ : Shape).BroadcastsInDim ⟨2, ![M, L]⟩ ![0, 1]) (h00 : (⟨0, ![]⟩ : Shape).BroadcastsInDim ⟨2, ![M, L]⟩ ![])
    (h21 : (⟨2, ![1, P]⟩ : Shape).BroadcastsInDim ⟨2, ![M, P]⟩ ![0, 1]) (h01 : (⟨0, ![]⟩ : Shape).BroadcastsInDim ⟨2, ![M, P]⟩ ![])
    (h22 : (⟨2, ![1, Q]⟩ : Shape).BroadcastsInDim ⟨2, ![M, Q]⟩ ![0, 1])
    (G : FVec Ideal ⟨2, ![M, K]⟩ .f32) (W0 : FVec Ideal ⟨2, ![K, L]⟩ .f32) (b0 : FVec Ideal ⟨2, ![1, L]⟩ .f32)
    (W1 : FVec Ideal ⟨2, ![L, P]⟩ .f32) (b1 : FVec Ideal ⟨2, ![1, P]⟩ .f32)
    (W2 : FVec Ideal ⟨2, ![P, Q]⟩ .f32) (b2 : FVec Ideal ⟨2, ![1, Q]⟩ .f32) : FVec Ideal ⟨2, ![M, Q]⟩ .f32 :=
  hostDense h22 (hostRelu h01 (hostDense h21 (hostRelu h00 (hostDense h20 G W0 b0)) W1 b1)) W2 b2

/-! ## A block of rows against the whole array -/

/-- A one-row bias spread over the rows of an array, at an entry: the bias at the column. -/
theorem row_bias_apply (b : FVec Ideal ⟨2, ![1, N]⟩ .f32)
    (h2 : (⟨2, ![1, N]⟩ : Shape).BroadcastsInDim ⟨2, ![M, N]⟩ ![0, 1]) (p : Fin M) (q : Fin N) :
    broadcastInDim ⟨2, ![M, N]⟩ ![0, 1] h2 b (ix2 p q) = b (ix2 (0 : Fin 1) q) := by
  have hq : (if N = 1 then 0 else q.val) = q.val := by
    split
    · have := q.isLt; omega
    · rfl
  refine broadcastInDim_apply ![0, 1] h2 b (ix2 p q) (ix2 (0 : Fin 1) q) fun ax => ?_
  match ax with
  | ⟨0, _⟩ => rfl
  | ⟨1, _⟩ => exact hq.symm

/-- Row r of the block's dense layer is row R of the whole dense layer. The block's weight and bias may be given as any
    arrays equal to the whole ones (a cast of an array to its own shape, for one). -/
theorem dense_rows (A : FVec Ideal ⟨2, ![M, K]⟩ .f32) (B : FVec Ideal ⟨2, ![K, N]⟩ .f32) (b : FVec Ideal ⟨2, ![1, N]⟩ .f32)
    (a : FVec Ideal ⟨2, ![m, K]⟩ .f32) (B' : FVec Ideal ⟨2, ![K, N]⟩ .f32) (b' : FVec Ideal ⟨2, ![1, N]⟩ .f32)
    (hn : FTy.bf16.bits < FTy.f32.bits) (hb : (⟨2, ![1, N]⟩ : Shape).Broadcasts ⟨2, ![m, N]⟩)
    (h2 : (⟨2, ![1, N]⟩ : Shape).BroadcastsInDim ⟨2, ![M, N]⟩ ![0, 1])
    (r : Fin m) (R : Fin M) (q : Fin N) (ha : ∀ k : Fin K, a (ix2 r k) = A (ix2 R k)) (hB : B' = B) (hb' : b' = b) :
    addf (matmul (DotDims.plain m K N) none (truncf .bf16 a hn) (truncf .bf16 B' hn)
          (constant (F := Ideal) ⟨2, ![m, N]⟩ .f32 0x00000000#32))
        (broadcastTo ⟨2, ![m, N]⟩ b' hb) (ix2 r q)
      = hostDense h2 A B b (ix2 R q) := by
  subst hB hb'
  rw [Dense.matmul_bias_apply]
  show _ = Host.dotGeneral (F := Ideal) (DotDims.plain M K N) none A B' (ix2 R q)
      + broadcastInDim ⟨2, ![M, N]⟩ ![0, 1] h2 b' (ix2 R q)
  rw [HostDotPlain.dotGeneral_apply, row_bias_apply]
  congr 1
  refine Finset.sum_congr rfl fun k _ => ?_
  show a (ix2 r k) * B' (ix2 k q) = A (ix2 R k) * B' (ix2 k q)
  rw [ha k]

/-- The maximum with zero on a block against the one on the array: equal where the operands are. -/
theorem relu_rows (X : FVec Ideal ⟨2, ![M, N]⟩ .f32) (x : FVec Ideal ⟨2, ![m, N]⟩ .f32)
    (h0 : (⟨0, ![]⟩ : Shape).BroadcastsInDim ⟨2, ![M, N]⟩ ![])
    (j : (⟨2, ![m, N]⟩ : Shape).Idx) (J : (⟨2, ![M, N]⟩ : Shape).Idx) (hx : x j = X J) :
    maximumf x (broadcast ⟨2, ![m, N]⟩ (Scalar.ofBits (F := Ideal) .f32 0x00000000#32)) j = hostRelu h0 X J :=
  ReluLayers.relu_rows X x h0 j J hx

/-- 1 · h + agg on a block against the whole: equal where the operands are. -/
theorem combine_rows (H AGG : FVec Ideal ⟨2, ![M, N]⟩ .f32) (h agg : FVec Ideal ⟨2, ![m, N]⟩ .f32)
    (hs : (⟨2, ![m, N]⟩ : Shape).ShapeCasts ⟨2, ![m, N]⟩) (h0 : (⟨0, ![]⟩ : Shape).BroadcastsInDim ⟨2, ![M, N]⟩ ![])
    (j : (⟨2, ![m, N]⟩ : Shape).Idx) (J : (⟨2, ![M, N]⟩ : Shape).Idx) (hh : h j = H J) (ha : agg j = AGG J) :
    addf (mulf (broadcast ⟨2, ![m, N]⟩ (Scalar.ofBits (F := Ideal) .f32 0x3F800000#32)) (shapeCast ⟨2, ![m, N]⟩ h hs))
        (shapeCast ⟨2, ![m, N]⟩ agg hs) j
      = hostCombine h0 H AGG J := by
  rw [shapeCast_self, shapeCast_self]
  show FloatOps.addf (FloatOps.mulf (broadcast ⟨2, ![m, N]⟩ (Scalar.ofBits (F := Ideal) .f32 0x3F800000#32) j) (h j)) (agg j)
    = FloatOps.addf (FloatOps.mulf (broadcastInDim ⟨2, ![M, N]⟩ ![] h0 (constant (F := Ideal) ⟨0, ![]⟩ .f32 0x3F800000#32) J) (H J)) (AGG J)
  rw [hh, ha]
  rfl

/-- The embedding: row r of the block's dense layer is row R of the whole one. -/
theorem embed_rows (X : FVec Ideal ⟨2, ![M, K]⟩ .f32) (W : FVec Ideal ⟨2, ![K, N]⟩ .f32) (b : FVec Ideal ⟨2, ![1, N]⟩ .f32)
    (x : FVec Ideal ⟨2, ![m, K]⟩ .f32) (hn : FTy.bf16.bits < FTy.f32.bits)
    (hs : (⟨2, ![1, N]⟩ : Shape).ShapeCasts ⟨2, ![1, N]⟩) (hb : (⟨2, ![1, N]⟩ : Shape).Broadcasts ⟨2, ![m, N]⟩)
    (h2 : (⟨2, ![1, N]⟩ : Shape).BroadcastsInDim ⟨2, ![M, N]⟩ ![0, 1])
    (r : Fin m) (R : Fin M) (q : Fin N) (hx : ∀ k : Fin K, x (ix2 r k) = X (ix2 R k)) :
    addf (matmul (DotDims.plain m K N) none (truncf .bf16 x hn) (truncf .bf16 W hn)
          (constant (F := Ideal) ⟨2, ![m, N]⟩ .f32 0x00000000#32))
        (broadcastTo ⟨2, ![m, N]⟩ (shapeCast ⟨2, ![1, N]⟩ b hs) hb) (ix2 r q)
      = hostDense h2 X W b (ix2 R q) :=
  dense_rows X W b x W _ hn hb h2 r R q hx rfl (shapeCast_self b hs)

/-- One layer's update on a block of rows, without the final maximum. -/
theorem gin_plain_rows (H AGG : FVec Ideal ⟨2, ![M, N]⟩ .f32) (W1 : FVec Ideal ⟨2, ![N, L]⟩ .f32) (b1 : FVec Ideal ⟨2, ![1, L]⟩ .f32)
    (W2 : FVec Ideal ⟨2, ![L, P]⟩ .f32) (b2 : FVec Ideal ⟨2, ![1, P]⟩ .f32) (h agg : FVec Ideal ⟨2, ![m, N]⟩ .f32)
    (hn : FTy.bf16.bits < FTy.f32.bits)
    (hsx : (⟨2, ![m, N]⟩ : Shape).ShapeCasts ⟨2, ![m, N]⟩)
    (hsw1 : (⟨2, ![N, L]⟩ : Shape).ShapeCasts ⟨2, ![N, L]⟩) (hsb1 : (⟨2, ![1, L]⟩ : Shape).ShapeCasts ⟨2, ![1, L]⟩)
    (hbb1 : (⟨2, ![1, L]⟩ : Shape).Broadcasts ⟨2, ![m, L]⟩)
    (hsw2 : (⟨2, ![L, P]⟩ : Shape).ShapeCasts ⟨2, ![L, P]⟩) (hsb2 : (⟨2, ![1, P]⟩ : Shape).ShapeCasts ⟨2, ![1, P]⟩)
    (hbb2 : (⟨2, ![1, P]⟩ : Shape).Broadcasts ⟨2, ![m, P]⟩)
    (h0z : (⟨0, ![]⟩ : Shape).BroadcastsInDim ⟨2, ![M, N]⟩ ![])
    (h21 : (⟨2, ![1, L]⟩ : Shape).BroadcastsInDim ⟨2, ![M, L]⟩ ![0, 1]) (h01 : (⟨0, ![]⟩ : Shape).BroadcastsInDim ⟨2, ![M, L]⟩ ![])
    (h22 : (⟨2, ![1, P]⟩ : Shape).BroadcastsInDim ⟨2, ![M, P]⟩ ![0, 1])
    (r : Fin m) (R : Fin M) (q : Fin P)
    (hh : ∀ k : Fin N, h (ix2 r k) = H (ix2 R k)) (ha : ∀ k : Fin N, agg (ix2 r k) = AGG (ix2 R k)) :
    addf (matmul (DotDims.plain m L P) none
          (truncf .bf16 (maximumf (addf (matmul (DotDims.plain m N L) none
                (truncf .bf16 (addf (mulf (broadcast ⟨2, ![m, N]⟩ (Scalar.ofBits (F := Ideal) .f32 0x3F800000#32)) (shapeCast ⟨2, ![m, N]⟩ h hsx))
                  (shapeCast ⟨2, ![m, N]⟩ agg hsx)) hn)
                (truncf .bf16 (shapeCast ⟨2, ![N, L]⟩ W1 hsw1) hn) (constant (F := Ideal) ⟨2, ![m, L]⟩ .f32 0x00000000#32))
              (broadcastTo ⟨2, ![m, L]⟩ (shapeCast ⟨2, ![1, L]⟩ b1 hsb1) hbb1))
            (broadcast ⟨2, ![m, L]⟩ (Scalar.ofBits (F := Ideal) .f32 0x00000000#32))) hn)
          (truncf .bf16 (shapeCast ⟨2, ![L, P]⟩ W2 hsw2) hn) (constant (F := Ideal) ⟨2, ![m, P]⟩ .f32 0x00000000#32))
        (broadcastTo ⟨2, ![m, P]⟩ (shapeCast ⟨2, ![1, P]⟩ b2 hsb2) hbb2) (ix2 r q)
      = ginPlain h0z h21 h01 h22 H AGG W1 b1 W2 b2 (ix2 R q) := by
  refine dense_rows _ W2 b2 _ _ _ hn hbb2 h22 r R q (fun k => ?_) (shapeCast_self W2 hsw2) (shapeCast_self b2 hsb2)
  refine relu_rows _ _ h01 (ix2 r k) (ix2 R k) ?_
  refine dense_rows _ W1 b1 _ _ _ hn hbb1 h21 r R k (fun j => ?_) (shapeCast_self W1 hsw1) (shapeCast_self b1 hsb1)
  exact combine_rows H AGG h agg hsx h0z (ix2 r j) (ix2 R j) (hh j) (ha j)

/-- One layer's update on a block of rows, followed by the maximum with zero. -/
theorem gin_relu_rows (H AGG : FVec Ideal ⟨2, ![M, N]⟩ .f32) (W1 : FVec Ideal ⟨2, ![N, L]⟩ .f32) (b1 : FVec Ideal ⟨2, ![1, L]⟩ .f32)
    (W2 : FVec Ideal ⟨2, ![L, P]⟩ .f32) (b2 : FVec Ideal ⟨2, ![1, P]⟩ .f32) (h agg : FVec Ideal ⟨2, ![m, N]⟩ .f32)
    (hn : FTy.bf16.bits < FTy.f32.bits)
    (hsx : (⟨2, ![m, N]⟩ : Shape).ShapeCasts ⟨2, ![m, N]⟩)
    (hsw1 : (⟨2, ![N, L]⟩ : Shape).ShapeCasts ⟨2, ![N, L]⟩) (hsb1 : (⟨2, ![1, L]⟩ : Shape).ShapeCasts ⟨2, ![1, L]⟩)
    (hbb1 : (⟨2, ![1, L]⟩ : Shape).Broadcasts ⟨2, ![m, L]⟩)
    (hsw2 : (⟨2, ![L, P]⟩ : Shape).ShapeCasts ⟨2, ![L, P]⟩) (hsb2 : (⟨2, ![1, P]⟩ : Shape).ShapeCasts ⟨2, ![1, P]⟩)
    (hbb2 : (⟨2, ![1, P]⟩ : Shape).Broadcasts ⟨2, ![m, P]⟩)
    (h0z : (⟨0, ![]⟩ : Shape).BroadcastsInDim ⟨2, ![M, N]⟩ ![])
    (h21 : (⟨2, ![1, L]⟩ : Shape).BroadcastsInDim ⟨2, ![M, L]⟩ ![0, 1]) (h01 : (⟨0, ![]⟩ : Shape).BroadcastsInDim ⟨2, ![M, L]⟩ ![])
    (h22 : (⟨2, ![1, P]⟩ : Shape).BroadcastsInDim ⟨2, ![M, P]⟩ ![0, 1]) (h02 : (⟨0, ![]⟩ : Shape).BroadcastsInDim ⟨2, ![M, P]⟩ ![])
    (r : Fin m) (R : Fin M) (q : Fin P)
    (hh : ∀ k : Fin N, h (ix2 r k) = H (ix2 R k)) (ha : ∀ k : Fin N, agg (ix2 r k) = AGG (ix2 R k)) :
    maximumf (addf (matmul (DotDims.plain m L P) none
          (truncf .bf16 (maximumf (addf (matmul (DotDims.plain m N L) none
                (truncf .bf16 (addf (mulf (broadcast ⟨2, ![m, N]⟩ (Scalar.ofBits (F := Ideal) .f32 0x3F800000#32)) (shapeCast ⟨2, ![m, N]⟩ h hsx))
                  (shapeCast ⟨2, ![m, N]⟩ agg hsx)) hn)
                (truncf .bf16 (shapeCast ⟨2, ![N, L]⟩ W1 hsw1) hn) (constant (F := Ideal) ⟨2, ![m, L]⟩ .f32 0x00000000#32))
              (broadcastTo ⟨2, ![m, L]⟩ (shapeCast ⟨2, ![1, L]⟩ b1 hsb1) hbb1))
            (broadcast ⟨2, ![m, L]⟩ (Scalar.ofBits (F := Ideal) .f32 0x00000000#32))) hn)
          (truncf .bf16 (shapeCast ⟨2, ![L, P]⟩ W2 hsw2) hn) (constant (F := Ideal) ⟨2, ![m, P]⟩ .f32 0x00000000#32))
        (broadcastTo ⟨2, ![m, P]⟩ (shapeCast ⟨2, ![1, P]⟩ b2 hsb2) hbb2))
      (broadcast ⟨2, ![m, P]⟩ (Scalar.ofBits (F := Ideal) .f32 0x00000000#32)) (ix2 r q)
      = ginRelu h0z h21 h01 h22 h02 H AGG W1 b1 W2 b2 (ix2 R q) :=
  relu_rows _ _ h02 (ix2 r q) (ix2 R q)
    (gin_plain_rows H AGG W1 b1 W2 b2 h agg hn hsx hsw1 hsb1 hbb1 hsw2 hsb2 hbb2 h0z h21 h01 h22 r R q hh ha)

/-- The three-layer perceptron on a block of rows. -/
theorem task_rows (G : FVec Ideal ⟨2, ![M, K]⟩ .f32) (W0 : FVec Ideal ⟨2, ![K, L]⟩ .f32) (b0 : FVec Ideal ⟨2, ![1, L]⟩ .f32)
    (W1 : FVec Ideal ⟨2, ![L, P]⟩ .f32) (b1 : FVec Ideal ⟨2, ![1, P]⟩ .f32)
    (W2 : FVec Ideal ⟨2, ![P, Q]⟩ .f32) (b2 : FVec Ideal ⟨2, ![1, Q]⟩ .f32) (g : FVec Ideal ⟨2, ![m, K]⟩ .f32)
    (hn : FTy.bf16.bits < FTy.f32.bits)
    (hsg : (⟨2, ![m, K]⟩ : Shape).ShapeCasts ⟨2, ![m, K]⟩)
    (hsb0 : (⟨2, ![1, L]⟩ : Shape).ShapeCasts ⟨2, ![1, L]⟩) (hbb0 : (⟨2, ![1, L]⟩ : Shape).Broadcasts ⟨2, ![m, L]⟩)
    (hsb1 : (⟨2, ![1, P]⟩ : Shape).ShapeCasts ⟨2, ![1, P]⟩) (hbb1 : (⟨2, ![1, P]⟩ : Shape).Broadcasts ⟨2, ![m, P]⟩)
    (hsb2 : (⟨2, ![1, Q]⟩ : Shape).ShapeCasts ⟨2, ![1, Q]⟩) (hbb2 : (⟨2, ![1, Q]⟩ : Shape).Broadcasts ⟨2, ![m, Q]⟩)
    (h20 : (⟨2, ![1, L]⟩ : Shape).BroadcastsInDim ⟨2, ![M, L]⟩ ![0, 1]) (h00 : (⟨0, ![]⟩ : Shape).BroadcastsInDim ⟨2, ![M, L]⟩ ![])
    (h21 : (⟨2, ![1, P]⟩ : Shape).BroadcastsInDim ⟨2, ![M, P]⟩ ![0, 1]) (h01 : (⟨0, ![]⟩ : Shape).BroadcastsInDim ⟨2, ![M, P]⟩ ![])
    (h22 : (⟨2, ![1, Q]⟩ : Shape).BroadcastsInDim ⟨2, ![M, Q]⟩ ![0, 1])
    (r : Fin m) (R : Fin M) (q : Fin Q) (hg : ∀ k : Fin K, g (ix2 r k) = G (ix2 R k)) :
    addf (matmul (DotDims.plain m P Q) none
          (truncf .bf16 (maximumf (addf (matmul (DotDims.plain m L P) none
                (truncf .bf16 (maximumf (addf (matmul (DotDims.plain m K L) none
                      (truncf .bf16 (shapeCast ⟨2, ![m, K]⟩ g hsg) hn) (truncf .bf16 W0 hn)
                      (constant (F := Ideal) ⟨2, ![m, L]⟩ .f32 0x00000000#32))
                    (broadcastTo ⟨2, ![m, L]⟩ (shapeCast ⟨2, ![1, L]⟩ b0 hsb0) hbb0))
                  (broadcast ⟨2, ![m, L]⟩ (Scalar.ofBits (F := Ideal) .f32 0x00000000#32))) hn)
                (truncf .bf16 W1 hn) (constant (F := Ideal) ⟨2, ![m, P]⟩ .f32 0x00000000#32))
              (broadcastTo ⟨2, ![m, P]⟩ (shapeCast ⟨2, ![1, P]⟩ b1 hsb1) hbb1))
            (broadcast ⟨2, ![m, P]⟩ (Scalar.ofBits (F := Ideal) .f32 0x00000000#32))) hn)
          (truncf .bf16 W2 hn) (constant (F := Ideal) ⟨2, ![m, Q]⟩ .f32 0x00000000#32))
        (broadcastTo ⟨2, ![m, Q]⟩ (shapeCast ⟨2, ![1, Q]⟩ b2 hsb2) hbb2) (ix2 r q)
      = task3 h20 h00 h21 h01 h22 G W0 b0 W1 b1 W2 b2 (ix2 R q) := by
  refine dense_rows _ W2 b2 _ _ _ hn hbb2 h22 r R q (fun k => ?_) rfl (shapeCast_self b2 hsb2)
  refine relu_rows _ _ h01 (ix2 r k) (ix2 R k) ?_
  refine dense_rows _ W1 b1 _ _ _ hn hbb1 h21 r R k (fun j => ?_) rfl (shapeCast_self b1 hsb1)
  refine relu_rows _ _ h00 (ix2 r j) (ix2 R j) ?_
  refine dense_rows G W0 b0 _ _ _ hn hbb0 h20 r R j (fun i => ?_) rfl (shapeCast_self b0 hsb0)
  rw [shapeCast_self]
  exact hg i

end Idealize.ShloMosaic.GinLayers

end
-- ==== Proof.Region0.lean ====
/-
  The node embedding, region 0 of the kernel's program, as one whole-array function.

  The region's grid has 25 points; point t stages rows 4000 t … 4000 t + 3999 of the node features x (100000 × 75),
  the whole weight matrix (75 × 128) and the whole one-row bias (1 × 128), and writes back rows 4000 t … 4000 t + 3999 of
  the result. Entry (r, q) of the block it writes is Σ_k x(4000 t + r, k) · W(k, q) + b(0, q): row 4000 t + r of the
  dense layer of the whole arrays. The 25 blocks tile the 100000 rows, so after the region the result array IS the
  dense layer of the arrays the region was entered with, whatever those are.
-/
import proofs.«180979_j42322607735316_1_alg».proof.Proof.Gen.KernelIdeal.Frame
import proofs.«180979_j42322607735316_1_alg».proof.Proof.LibGinLayers
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the features' and the result's block index is (t, 0), the weight's
    and the bias's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The dense layer x · W + b of the arrays the region is entered with. -/
abbrev G (c : Dev nD) : S100000x128.Idx → Elt Ideal .f32 :=
  GinLayers.hostDense (M := 100000) (K := 75) (N := 128) (by decide) (V c main_arg0) (V c main_arg3) (V c main_v4)

/-- The body's value at an entry of a block whose row r is row R of the whole features. -/
theorem pay_apply (X : FVec Ideal ⟨2, ![100000, 75]⟩ .f32) (W : FVec Ideal ⟨2, ![75, 128]⟩ .f32)
    (b : FVec Ideal ⟨2, ![1, 128]⟩ .f32) (x0 : FVec Ideal S4000x75 .f32) (x1 : FVec Ideal S75x128 .f32)
    (x2 : FVec Ideal S1x128 .f32) (r : Fin 4000) (R : Fin 100000) (q : Fin 128)
    (hx : ∀ k : Fin 75, x0 (ix2 r k) = X (ix2 R k)) (h1 : x1 = W) (h2 : x2 = b) :
    k0_pay1 x0 x1 x2 (ix2 r q) = GinLayers.hostDense (M := 100000) (K := 75) (N := 128) (by decide) X W b (ix2 R q) := by
  subst h1 h2
  unfold k0_pay1
  exact GinLayers.embed_rows X x1 x2 x0 bitsLt_bf16_f32 shapeCasts_S1x128_S1x128 broadcasts_S1x128_S4000x128 (by decide) r R q hx

/-- What point t writes back is block t of the dense layer of the arrays as entered. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S4000x75) hz, View.ld_unit_zero (S := S75x128) hz, View.ld_unit_zero (S := S1x128) hz]
  obtain ⟨e0, e1, e2, e3, e4, e5, e6, e7⟩ := idx_facts t
  have ht : t.val < 25 := lt_of_lt_of_eq t.isLt N_0
  funext j
  obtain ⟨r, q, rfl⟩ : ∃ (r : Fin 4000) (q : Fin 128), j = ix2 r q := ⟨j 0, j 1, eq_ix2 j⟩
  have hR : t.val * 4000 + r.val < 100000 := by have := r.isLt; omega
  show k0_pay1 (iblk0 V c 0 t) (iblk0 V c 1 t) (iblk0 V c 2 t) (ix2 r q) = G V c (((cfg0.win 3).blk t).view.emb (ix2 r q))
  have hemb : ((cfg0.win 3).blk t).view.emb (ix2 r q) = ix2 (⟨t.val * 4000 + r.val, hR⟩ : Fin 100000) q := by
    funext a; apply Fin.ext
    match a with
    | ⟨0, _⟩ => show win0_3.index t (0 : Fin 2) * 4000 + 1 * r.val = t.val * 4000 + r.val; omega
    | ⟨1, _⟩ => show win0_3.index t (1 : Fin 2) * 128 + 1 * q.val = q.val; omega
  rw [hemb]
  refine pay_apply (V c main_arg0) (V c main_arg3) (V c main_v4) (iblk0 V c 0 t) (iblk0 V c 1 t) (iblk0 V c 2 t) r ⟨t.val * 4000 + r.val, hR⟩ q (fun k => ?_) ?_ ?_
  · show V c main_arg0 (((cfg0.win 0).blk t).view.emb (ix2 r k)) = V c main_arg0 (ix2 (⟨t.val * 4000 + r.val, hR⟩ : Fin 100000) k)
    refine congrArg (V c main_arg0) ?_
    funext a; apply Fin.ext
    match a with
    | ⟨0, _⟩ => show win0_0.index t (0 : Fin 2) * 4000 + 1 * r.val = t.val * 4000 + r.val; omega
    | ⟨1, _⟩ => show win0_0.index t (1 : Fin 2) * 75 + 1 * k.val = k.val; omega
  · funext y
    show V c main_arg3 (((cfg0.win 1).blk t).view.emb y) = V c main_arg3 y
    refine congrArg (V c main_arg3) ?_
    funext a; apply Fin.ext
    match a with
    | ⟨0, _⟩ => show win0_1.index t (0 : Fin 2) * 75 + 1 * (y 0).val = (y 0).val; omega
    | ⟨1, _⟩ => show win0_1.index t (1 : Fin 2) * 128 + 1 * (y 1).val = (y 1).val; omega
  · funext y
    show V c main_v4 (((cfg0.win 2).blk t).view.emb y) = V c main_v4 y
    refine congrArg (V c main_v4) ?_
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega

/-- An index of the result array is in point t's block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v5).slice (win0_3.rect t)).set ↔ _
  rw [View.set_slice_whole, Rect.mem_set_unit]
  exact Iff.rfl

/-- Row i of the result is in the block of point i / 4000: the 25 blocks tile the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 4000 < cfg0.N := by rw [show cfg0.N = 25 from N_0]; omega
  refine ⟨⟨(i 0).val / 4000, hlt⟩, flush0_3 _, ?_⟩
  rw [mem_blk]
  obtain ⟨-, -, -, -, -, -, e6, e7⟩ := idx_facts ⟨(i 0).val / 4000, hlt⟩
  intro a
  match a with
  | ⟨0, _⟩ =>
    show win0_3.index ⟨(i 0).val / 4000, hlt⟩ (0 : Fin 2) * 4000 ≤ (i 0).val ∧ (i 0).val < win0_3.index ⟨(i 0).val / 4000, hlt⟩ (0 : Fin 2) * 4000 + 4000
    rw [e6]; show (i 0).val / 4000 * 4000 ≤ (i 0).val ∧ (i 0).val < (i 0).val / 4000 * 4000 + 4000; omega
  | ⟨1, _⟩ =>
    show win0_3.index ⟨(i 0).val / 4000, hlt⟩ (1 : Fin 2) * 128 ≤ (i 1).val ∧ (i 1).val < win0_3.index ⟨(i 0).val / 4000, hlt⟩ (1 : Fin 2) * 128 + 128
    rw [e7]; omega

/-- THE RESULT ARRAY after the region: the dense layer of the arrays the region was entered with. -/
theorem arr (c : Dev nD) : (dat0 V c).arrAt 3 cfg0.N = G V c :=
  (dat0 V c).arrAt_eq_of_cover 3 (G V c) (fun t _ => flushed_eq V c t) (cover)

end Cert.KernelIdeal.Region0

end
-- ==== Proof.Region1.lean ====
/-
  Layer 1 of the network, region 1 of the kernel's program, as one whole-array function.

  The region's grid has 25 points; point t stages rows 4000 t … 4000 t + 3999 of the node states h and of the summed
  neighbour states agg (both 100000 × 128) and the whole of the layer's two weight matrices (128 × 128) and two one-row
  biases (1 × 128), and writes back rows 4000 t … 4000 t + 3999 of the result. Entry (r, q) of the block it writes is
  max(Σ_k max(Σ_j (1 · h(R,j) + agg(R,j)) · W1(j,k) + b1(0,k), 0) · W2(k,q) + b2(0,q), 0) at R = 4000 t + r: row R of the layer applied
  to the whole arrays. The 25 blocks tile the 100000 rows, so after the region the result array IS the layer of the
  arrays the region was entered with, whatever those are.
-/
import proofs.«180979_j42322607735316_1_alg».proof.Proof.Gen.KernelIdeal.Frame
import proofs.«180979_j42322607735316_1_alg».proof.Proof.LibGinLayers
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the node states', the neighbour sums' and the result's block index is
    (t, 0), the weights' and the biases' is (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer applied to the arrays the region is entered with. -/
abbrev G (c : Dev nD) : S100000x128.Idx → Elt Ideal .f32 :=
  GinLayers.ginRelu (M := 100000) (N := 128) (L := 128) (P := 128) (by decide) (by decide) (by decide) (by decide) (by decide)
    (V c main_v5) (V c main_v15) (V c main_v17) (V c main_v24) (V c main_v21) (V c main_v25)

/-- The body's value at an entry of a block whose row r is row R of the whole node states and neighbour sums. -/
theorem pay_apply (H AGG : FVec Ideal ⟨2, ![100000, 128]⟩ .f32) (W1 : FVec Ideal ⟨2, ![128, 128]⟩ .f32)
    (b1 : FVec Ideal ⟨2, ![1, 128]⟩ .f32) (W2 : FVec Ideal ⟨2, ![128, 128]⟩ .f32) (b2 : FVec Ideal ⟨2, ![1, 128]⟩ .f32)
    (x0 x1 : FVec Ideal S4000x128 .f32) (x2 : FVec Ideal S128x128 .f32) (x3 : FVec Ideal S1x128 .f32)
    (x4 : FVec Ideal S128x128 .f32) (x5 : FVec Ideal S1x128 .f32) (r : Fin 4000) (R : Fin 100000) (q : Fin 128)
    (hh : ∀ k : Fin 128, x0 (ix2 r k) = H (ix2 R k)) (ha : ∀ k : Fin 128, x1 (ix2 r k) = AGG (ix2 R k))
    (h2 : x2 = W1) (h3 : x3 = b1) (h4 : x4 = W2) (h5 : x5 = b2) :
    k1_pay1 x0 x1 x2 x3 x4 x5 (ix2 r q)
      = GinLayers.ginRelu (M := 100000) (N := 128) (L := 128) (P := 128) (by decide) (by decide) (by decide) (by decide) (by decide)
          H AGG W1 b1 W2 b2 (ix2 R q) := by
  subst h2 h3 h4 h5
  unfold k1_pay1
  exact GinLayers.gin_relu_rows H AGG x2 x3 x4 x5 x0 x1 bitsLt_bf16_f32 shapeCasts_S4000x128_S4000x128
    shapeCasts_S128x128_S128x128 shapeCasts_S1x128_S1x128 broadcasts_S1x128_S4000x128
    shapeCasts_S128x128_S128x128 shapeCasts_S1x128_S1x128 broadcasts_S1x128_S4000x128
    (by decide) (by decide) (by decide) (by decide) (by decide) r R q hh ha

/-- What point t writes back is block t of the layer of the arrays as entered. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11, e12, e13⟩ := idx_facts t
  have ht : t.val < 25 := lt_of_lt_of_eq t.isLt N_1
  funext j
  obtain ⟨r, q, rfl⟩ : ∃ (r : Fin 4000) (q : Fin 128), j = ix2 r q := ⟨j 0, j 1, eq_ix2 j⟩
  have hR : t.val * 4000 + r.val < 100000 := by have := r.isLt; omega
  show k1_pay1 (iblk1 V c 0 t) (iblk1 V c 1 t) (iblk1 V c 2 t) (iblk1 V c 3 t) (iblk1 V c 4 t) (iblk1 V c 5 t) (ix2 r q)
    = G V c (((cfg1.win 6).blk t).view.emb (ix2 r q))
  have hemb : ((cfg1.win 6).blk t).view.emb (ix2 r q) = ix2 (⟨t.val * 4000 + r.val, hR⟩ : Fin 100000) q := by
    funext a; apply Fin.ext
    match a with
    | ⟨0, _⟩ => show win1_6.index t (0 : Fin 2) * 4000 + 1 * r.val = t.val * 4000 + r.val; omega
    | ⟨1, _⟩ => show win1_6.index t (1 : Fin 2) * 128 + 1 * q.val = q.val; omega
  rw [hemb]
  refine pay_apply (V c main_v5) (V c main_v15) (V c main_v17) (V c main_v24) (V c main_v21) (V c main_v25)
    (iblk1 V c 0 t) (iblk1 V c 1 t) (iblk1 V c 2 t) (iblk1 V c 3 t) (iblk1 V c 4 t) (iblk1 V c 5 t)
    r ⟨t.val * 4000 + r.val, hR⟩ q (fun k => ?_) (fun k => ?_) ?_ ?_ ?_ ?_
  · show V c main_v5 (((cfg1.win 0).blk t).view.emb (ix2 r k)) = V c main_v5 (ix2 (⟨t.val * 4000 + r.val, hR⟩ : Fin 100000) k)
    refine congrArg (V c main_v5) ?_
    funext a; apply Fin.ext
    match a with
    | ⟨0, _⟩ => show win1_0.index t (0 : Fin 2) * 4000 + 1 * r.val = t.val * 4000 + r.val; omega
    | ⟨1, _⟩ => show win1_0.index t (1 : Fin 2) * 128 + 1 * k.val = k.val; omega
  · show V c main_v15 (((cfg1.win 1).blk t).view.emb (ix2 r k)) = V c main_v15 (ix2 (⟨t.val * 4000 + r.val, hR⟩ : Fin 100000) k)
    refine congrArg (V c main_v15) ?_
    funext a; apply Fin.ext
    match a with
    | ⟨0, _⟩ => show win1_1.index t (0 : Fin 2) * 4000 + 1 * r.val = t.val * 4000 + r.val; omega
    | ⟨1, _⟩ => show win1_1.index t (1 : Fin 2) * 128 + 1 * k.val = k.val; omega
  · funext y
    show V c main_v17 (((cfg1.win 2).blk t).view.emb y) = V c main_v17 y
    refine congrArg (V c main_v17) ?_
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v24 (((cfg1.win 3).blk t).view.emb y) = V c main_v24 y
    refine congrArg (V c main_v24) ?_
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_v21 (((cfg1.win 4).blk t).view.emb y) = V c main_v21 y
    refine congrArg (V c main_v21) ?_
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v25 (((cfg1.win 5).blk t).view.emb y) = V c main_v25 y
    refine congrArg (V c main_v25) ?_
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega

/-- An index of the result array is in point t's block iff each coordinate is in the block's range on its axis. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v26).slice (win1_6.rect t)).set ↔ _
  rw [View.set_slice_whole, Rect.mem_set_unit]
  exact Iff.rfl

/-- Row i of the result is in the block of point i / 4000: the 25 blocks tile the array. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 4000 < cfg1.N := by rw [show cfg1.N = 25 from N_1]; omega
  refine ⟨⟨(i 0).val / 4000, hlt⟩, flush1_6 _, ?_⟩
  rw [mem_blk]
  obtain ⟨-, -, -, -, -, -, -, -, -, -, -, -, e12, e13⟩ := idx_facts ⟨(i 0).val / 4000, hlt⟩
  intro a
  match a with
  | ⟨0, _⟩ =>
    show win1_6.index ⟨(i 0).val / 4000, hlt⟩ (0 : Fin 2) * 4000 ≤ (i 0).val ∧ (i 0).val < win1_6.index ⟨(i 0).val / 4000, hlt⟩ (0 : Fin 2) * 4000 + 4000
    rw [e12]; show (i 0).val / 4000 * 4000 ≤ (i 0).val ∧ (i 0).val < (i 0).val / 4000 * 4000 + 4000; omega
  | ⟨1, _⟩ =>
    show win1_6.index ⟨(i 0).val / 4000, hlt⟩ (1 : Fin 2) * 128 ≤ (i 1).val ∧ (i 1).val < win1_6.index ⟨(i 0).val / 4000, hlt⟩ (1 : Fin 2) * 128 + 128
    rw [e13]; omega

/-- THE RESULT ARRAY after the region: the layer of the arrays the region was entered with. -/
theorem arr (c : Dev nD) : (dat1 V c).arrAt 6 cfg1.N = G V c :=
  (dat1 V c).arrAt_eq_of_cover 6 (G V c) (fun t _ => flushed_eq V c t) (cover)

end Cert.KernelIdeal.Region1

end
-- ==== Proof.Region2.lean ====
/-
  Layer 2 of the network, region 2 of the kernel's program, as one whole-array function.

  The region's grid has 25 points; point t stages rows 4000 t … 4000 t + 3999 of the node states h and of the summed
  neighbour states agg (both 100000 × 128) and the whole of the layer's two weight matrices (128 × 128) and two one-row
  biases (1 × 128), and writes back rows 4000 t … 4000 t + 3999 of the result. Entry (r, q) of the block it writes is
  max(Σ_k max(Σ_j (1 · h(R,j) + agg(R,j)) · W1(j,k) + b1(0,k), 0) · W2(k,q) + b2(0,q), 0) at R = 4000 t + r: row R of the layer applied
  to the whole arrays. The 25 blocks tile the 100000 rows, so after the region the result array IS the layer of the
  arrays the region was entered with, whatever those are.
-/
import proofs.«180979_j42322607735316_1_alg».proof.Proof.Gen.KernelIdeal.Frame
import proofs.«180979_j42322607735316_1_alg».proof.Proof.LibGinLayers
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the node states', the neighbour sums' and the result's block index is
    (t, 0), the weights' and the biases' is (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The layer applied to the arrays the region is entered with. -/
abbrev G (c : Dev nD) : S100000x128.Idx → Elt Ideal .f32 :=
  GinLayers.ginRelu (M := 100000) (N := 128) (L := 128) (P := 128) (by decide) (by decide) (by decide) (by decide) (by decide)
    (V c main_v26) (V c main_v36) (V c main_v38) (V c main_v45) (V c main_v42) (V c main_v46)

/-- The body's value at an entry of a block whose row r is row R of the whole node states and neighbour sums. -/
theorem pay_apply (H AGG : FVec Ideal ⟨2, ![100000, 128]⟩ .f32) (W1 : FVec Ideal ⟨2, ![128, 128]⟩ .f32)
    (b1 : FVec Ideal ⟨2, ![1, 128]⟩ .f32) (W2 : FVec Ideal ⟨2, ![128, 128]⟩ .f32) (b2 : FVec Ideal ⟨2, ![1, 128]⟩ .f32)
    (x0 x1 : FVec Ideal S4000x128 .f32) (x2 : FVec Ideal S128x128 .f32) (x3 : FVec Ideal S1x128 .f32)
    (x4 : FVec Ideal S128x128 .f32) (x5 : FVec Ideal S1x128 .f32) (r : Fin 4000) (R : Fin 100000) (q : Fin 128)
    (hh : ∀ k : Fin 128, x0 (ix2 r k) = H (ix2 R k)) (ha : ∀ k : Fin 128, x1 (ix2 r k) = AGG (ix2 R k))
    (h2 : x2 = W1) (h3 : x3 = b1) (h4 : x4 = W2) (h5 : x5 = b2) :
    k2_pay1 x0 x1 x2 x3 x4 x5 (ix2 r q)
      = GinLayers.ginRelu (M := 100000) (N := 128) (L := 128) (P := 128) (by decide) (by decide) (by decide) (by decide) (by decide)
          H AGG W1 b1 W2 b2 (ix2 R q) := by
  subst h2 h3 h4 h5
  unfold k2_pay1
  exact GinLayers.gin_relu_rows H AGG x2 x3 x4 x5 x0 x1 bitsLt_bf16_f32 shapeCasts_S4000x128_S4000x128
    shapeCasts_S128x128_S128x128 shapeCasts_S1x128_S1x128 broadcasts_S1x128_S4000x128
    shapeCasts_S128x128_S128x128 shapeCasts_S1x128_S1x128 broadcasts_S1x128_S4000x128
    (by decide) (by decide) (by decide) (by decide) (by decide) r R q hh ha

/-- What point t writes back is block t of the layer of the arrays as entered. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11, e12, e13⟩ := idx_facts t
  have ht : t.val < 25 := lt_of_lt_of_eq t.isLt N_2
  funext j
  obtain ⟨r, q, rfl⟩ : ∃ (r : Fin 4000) (q : Fin 128), j = ix2 r q := ⟨j 0, j 1, eq_ix2 j⟩
  have hR : t.val * 4000 + r.val < 100000 := by have := r.isLt; omega
  show k2_pay1 (iblk2 V c 0 t) (iblk2 V c 1 t) (iblk2 V c 2 t) (iblk2 V c 3 t) (iblk2 V c 4 t) (iblk2 V c 5 t) (ix2 r q)
    = G V c (((cfg2.win 6).blk t).view.emb (ix2 r q))
  have hemb : ((cfg2.win 6).blk t).view.emb (ix2 r q) = ix2 (⟨t.val * 4000 + r.val, hR⟩ : Fin 100000) q := by
    funext a; apply Fin.ext
    match a with
    | ⟨0, _⟩ => show win2_6.index t (0 : Fin 2) * 4000 + 1 * r.val = t.val * 4000 + r.val; omega
    | ⟨1, _⟩ => show win2_6.index t (1 : Fin 2) * 128 + 1 * q.val = q.val; omega
  rw [hemb]
  refine pay_apply (V c main_v26) (V c main_v36) (V c main_v38) (V c main_v45) (V c main_v42) (V c main_v46)
    (iblk2 V c 0 t) (iblk2 V c 1 t) (iblk2 V c 2 t) (iblk2 V c 3 t) (iblk2 V c 4 t) (iblk2 V c 5 t)
    r ⟨t.val * 4000 + r.val, hR⟩ q (fun k => ?_) (fun k => ?_) ?_ ?_ ?_ ?_
  · show V c main_v26 (((cfg2.win 0).blk t).view.emb (ix2 r k)) = V c main_v26 (ix2 (⟨t.val * 4000 + r.val, hR⟩ : Fin 100000) k)
    refine congrArg (V c main_v26) ?_
    funext a; apply Fin.ext
    match a with
    | ⟨0, _⟩ => show win2_0.index t (0 : Fin 2) * 4000 + 1 * r.val = t.val * 4000 + r.val; omega
    | ⟨1, _⟩ => show win2_0.index t (1 : Fin 2) * 128 + 1 * k.val = k.val; omega
  · show V c main_v36 (((cfg2.win 1).blk t).view.emb (ix2 r k)) = V c main_v36 (ix2 (⟨t.val * 4000 + r.val, hR⟩ : Fin 100000) k)
    refine congrArg (V c main_v36) ?_
    funext a; apply Fin.ext
    match a with
    | ⟨0, _⟩ => show win2_1.index t (0 : Fin 2) * 4000 + 1 * r.val = t.val * 4000 + r.val; omega
    | ⟨1, _⟩ => show win2_1.index t (1 : Fin 2) * 128 + 1 * k.val = k.val; omega
  · funext y
    show V c main_v38 (((cfg2.win 2).blk t).view.emb y) = V c main_v38 y
    refine congrArg (V c main_v38) ?_
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v45 (((cfg2.win 3).blk t).view.emb y) = V c main_v45 y
    refine congrArg (V c main_v45) ?_
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  · funext y
    show V c main_v42 (((cfg2.win 4).blk t).view.emb y) = V c main_v42 y
    refine congrArg (V c main_v42) ?_
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  · funext y
    show V c main_v46 (((cfg2.win 5).blk t).view.emb y) = V c main_v46 y
    refine congrArg (V c main_v46) ?_
    funext a; apply Fin.ext
    match a with
    | ⟨0, _⟩ => show win2_5.index t (0 : Fin 2) * 1 + 1 * (y 0).val = (y 0).val; omega
    | ⟨1, _⟩ => show win2_5.index t (1 : Fin 2) * 128 + 1 * (y 1).val = (y 1).val; omega

/-- An index of the result array is in point t's block iff each coordinate is in the block's range on its axis. -/
theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v47).slice (win2_6.rect t)).set ↔ _
  rw [View.set_slice_whole, Rect.mem_set_unit]
  exact Iff.rfl

/-- Row i of the result is in the block of point i / 4000: the 25 blocks tile the array. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hlt : (i 0).val / 4000 < cfg2.N := by rw [show cfg2.N = 25 from N_2]; omega
  refine ⟨⟨(i 0).val / 4000, hlt⟩, flush2_6 _, ?_⟩
  rw [mem_blk]
  obtain ⟨-, -, -, -, -, -, -, -, -, -, -, -, e12, e13⟩ := idx_facts ⟨(i 0).val / 4000, hlt⟩
  intro a
  match a with
  | ⟨0, _⟩ =>
    show win2_6.index ⟨(i 0).val / 4000, hlt⟩ (0 : Fin 2) * 4000 ≤ (i 0).val ∧ (i 0).val < win2_6.index ⟨(i 0).val / 4000, hlt⟩ (0 : Fin 2) * 4000 + 4000
    rw [e12]; show (i 0).val / 4000 * 4000 ≤ (i 0).val ∧ (i 0).val < (i 0).val / 4000 * 4000 + 4000; omega
  | ⟨1, _⟩ =>
    show win2_6.index ⟨(i 0).val / 4000, hlt⟩ (1 : Fin 2) * 128 ≤ (i 1).val ∧ (i 1).val < win2_6.index ⟨(i 0).val / 4000, hlt⟩ (1 : Fin 2) * 128 + 128
    rw [e13]; omega

/-- THE RESULT ARRAY after the region: the layer of the arrays the region was entered with. -/
theorem arr (c : Dev nD) : (dat2 V c).arrAt 6 cfg2.N = G V c :=
  (dat2 V c).arrAt_eq_of_cover 6 (G V c) (fun t _ => flushed_eq V c t) (cover)

end Cert.KernelIdeal.Region2

end
-- ==== Proof.Region3.lean ====
/-
  Layer 3 of the network, region 3 of the kernel's program, as one whole-array function.

  The region's grid has 25 points; point t stages rows 4000 t … 4000 t + 3999 of the node states h and of the summed
  neighbour states agg (both 100000 × 128) and the whole of the layer's two weight matrices (128 × 128) and two one-row
  biases (1 × 128), and writes back rows 4000 t … 4000 t + 3999 of the result. Entry (r, q) of the block it writes is
  max(Σ_k max(Σ_j (1 · h(R,j) + agg(R,j)) · W1(j,k) + b1(0,k), 0) · W2(k,q) + b2(0,q), 0) at R = 4000 t + r: row R of the layer applied
  to the whole arrays. The 25 blocks tile the 100000 rows, so after the region the result array IS the layer of the
  arrays the region was entered with, whatever those are.
-/
import proofs.«180979_j42322607735316_1_alg».proof.Proof.Gen.KernelIdeal.Frame
import proofs.«180979_j42322607735316_1_alg».proof.Proof.LibGinLayers
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the node states', the neighbour sums' and the result's block index is
    (t, 0), the weights' and the biases' is (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The layer applied to the arrays the region is entered with. -/
abbrev G (c : Dev nD) : S100000x128.Idx → Elt Ideal .f32 :=
  GinLayers.ginRelu (M := 100000) (N := 128) (L := 128) (P := 128) (by decide) (by decide) (by decide) (by decide) (by decide)
    (V c main_v47) (V c main_v57) (V c main_v59) (V c main_v66) (V c main_v63) (V c main_v67)

/-- The body's value at an entry of a block whose row r is row R of the whole node states and neighbour sums. -/
theorem pay_apply (H AGG : FVec Ideal ⟨2, ![100000, 128]⟩ .f32) (W1 : FVec Ideal ⟨2, ![128, 128]⟩ .f32)
    (b1 : FVec Ideal ⟨2, ![1, 128]⟩ .f32) (W2 : FVec Ideal ⟨2, ![128, 128]⟩ .f32) (b2 : FVec Ideal ⟨2, ![1, 128]⟩ .f32)
    (x0 x1 : FVec Ideal S4000x128 .f32) (x2 : FVec Ideal S128x128 .f32) (x3 : FVec Ideal S1x128 .f32)
    (x4 : FVec Ideal S128x128 .f32) (x5 : FVec Ideal S1x128 .f32) (r : Fin 4000) (R : Fin 100000) (q : Fin 128)
    (hh : ∀ k : Fin 128, x0 (ix2 r k) = H (ix2 R k)) (ha : ∀ k : Fin 128, x1 (ix2 r k) = AGG (ix2 R k))
    (h2 : x2 = W1) (h3 : x3 = b1) (h4 : x4 = W2) (h5 : x5 = b2) :
    k3_pay1 x0 x1 x2 x3 x4 x5 (ix2 r q)
      = GinLayers.ginRelu (M := 100000) (N := 128) (L := 128) (P := 128) (by decide) (by decide) (by decide) (by decide) (by decide)
          H AGG W1 b1 W2 b2 (ix2 R q) := by
  subst h2 h3 h4 h5
  unfold k3_pay1
  exact GinLayers.gin_relu_rows H AGG x2 x3 x4 x5 x0 x1 bitsLt_bf16_f32 shapeCasts_S4000x128_S4000x128
    shapeCasts_S128x128_S128x128 shapeCasts_S1x128_S1x128 broadcasts_S1x128_S4000x128
    shapeCasts_S128x128_S128x128 shapeCasts_S1x128_S1x128 broadcasts_S1x128_S4000x128
    (by decide) (by decide) (by decide) (by decide) (by decide) r R q hh ha

/-- What point t writes back is block t of the layer of the arrays as entered. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11, e12, e13⟩ := idx_facts t
  have ht : t.val < 25 := lt_of_lt_of_eq t.isLt N_3
  funext j
  obtain ⟨r, q, rfl⟩ : ∃ (r : Fin 4000) (q : Fin 128), j = ix2 r q := ⟨j 0, j 1, eq_ix2 j⟩
  have hR : t.val * 4000 + r.val < 100000 := by have := r.isLt; omega
  show k3_pay1 (iblk3 V c 0 t) (iblk3 V c 1 t) (iblk3 V c 2 t) (iblk3 V c 3 t) (iblk3 V c 4 t) (iblk3 V c 5 t) (ix2 r q)
    = G V c (((cfg3.win 6).blk t).view.emb (ix2 r q))
  have hemb : ((cfg3.win 6).blk t).view.emb (ix2 r q) = ix2 (⟨t.val * 4000 + r.val, hR⟩ : Fin 100000) q := by
    funext a; apply Fin.ext
    match a with
    | ⟨0, _⟩ => show win3_6.index t (0 : Fin 2) * 4000 + 1 * r.val = t.val * 4000 + r.val; omega
    | ⟨1, _⟩ => show win3_6.index t (1 : Fin 2) * 128 + 1 * q.val = q.val; omega
  rw [hemb]
  refine pay_apply (V c main_v47) (V c main_v57) (V c main_v59) (V c main_v66) (V c main_v63) (V c main_v67)
    (iblk3 V c 0 t) (iblk3 V c 1 t) (iblk3 V c 2 t) (iblk3 V c 3 t) (iblk3 V c 4 t) (iblk3 V c 5 t)
    r ⟨t.val * 4000 + r.val, hR⟩ q (fun k => ?_) (fun k => ?_) ?_ ?_ ?_ ?_
  · show V c main_v47 (((cfg3.win 0).blk t).view.emb (ix2 r k)) = V c main_v47 (ix2 (⟨t.val * 4000 + r.val, hR⟩ : Fin 100000) k)
    refine congrArg (V c main_v47) ?_
    funext a; apply Fin.ext
    match a with
    | ⟨0, _⟩ => show win3_0.index t (0 : Fin 2) * 4000 + 1 * r.val = t.val * 4000 + r.val; omega
    | ⟨1, _⟩ => show win3_0.index t (1 : Fin 2) * 128 + 1 * k.val = k.val; omega
  · show V c main_v57 (((cfg3.win 1).blk t).view.emb (ix2 r k)) = V c main_v57 (ix2 (⟨t.val * 4000 + r.val, hR⟩ : Fin 100000) k)
    refine congrArg (V c main_v57) ?_
    funext a; apply Fin.ext
    match a with
    | ⟨0, _⟩ => show win3_1.index t (0 : Fin 2) * 4000 + 1 * r.val = t.val * 4000 + r.val; omega
    | ⟨1, _⟩ => show win3_1.index t (1 : Fin 2) * 128 + 1 * k.val = k.val; omega
  · funext y
    show V c main_v59 (((cfg3.win 2).blk t).view.emb y) = V c main_v59 y
    refine congrArg (V c main_v59) ?_
    funext a; apply Fin.ext
    match a with
    | ⟨0, _⟩ => show win3_2.index t (0 : Fin 2) * 128 + 1 * (y 0).val = (y 0).val; omega
    | ⟨1, _⟩ => show win3_2.index t (1 : Fin 2) * 128 + 1 * (y 1).val = (y 1).val; omega
  · funext y
    show V c main_v66 (((cfg3.win 3).blk t).view.emb y) = V c main_v66 y
    refine congrArg (V c main_v66) ?_
    funext a; apply Fin.ext
    match a with
    | ⟨0, _⟩ => show win3_3.index t (0 : Fin 2) * 1 + 1 * (y 0).val = (y 0).val; omega
    | ⟨1, _⟩ => show win3_3.index t (1 : Fin 2) * 128 + 1 * (y 1).val = (y 1).val; omega
  · funext y
    show V c main_v63 (((cfg3.win 4).blk t).view.emb y) = V c main_v63 y
    refine congrArg (V c main_v63) ?_
    funext a; apply Fin.ext
    match a with
    | ⟨0, _⟩ => show win3_4.index t (0 : Fin 2) * 128 + 1 * (y 0).val = (y 0).val; omega
    | ⟨1, _⟩ => show win3_4.index t (1 : Fin 2) * 128 + 1 * (y 1).val = (y 1).val; omega
  · funext y
    show V c main_v67 (((cfg3.win 5).blk t).view.emb y) = V c main_v67 y
    refine congrArg (V c main_v67) ?_
    funext a; apply Fin.ext
    match a with
    | ⟨0, _⟩ => show win3_5.index t (0 : Fin 2) * 1 + 1 * (y 0).val = (y 0).val; omega
    | ⟨1, _⟩ => show win3_5.index t (1 : Fin 2) * 128 + 1 * (y 1).val = (y 1).val; omega

/-- An index of the result array is in point t's block iff each coordinate is in the block's range on its axis. -/
theorem mem_blk (t : Fin cfg3.N) (i : S100000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v68).slice (win3_6.rect t)).set ↔ _
  rw [View.set_slice_whole, Rect.mem_set_unit]
  exact Iff.rfl

/-- Row i of the result is in the block of point i / 4000: the 25 blocks tile the array. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hlt : (i 0).val / 4000 < cfg3.N := by rw [show cfg3.N = 25 from N_3]; omega
  refine ⟨⟨(i 0).val / 4000, hlt⟩, flush3_6 _, ?_⟩
  rw [mem_blk]
  obtain ⟨-, -, -, -, -, -, -, -, -, -, -, -, e12, e13⟩ := idx_facts ⟨(i 0).val / 4000, hlt⟩
  intro a
  match a with
  | ⟨0, _⟩ =>
    show win3_6.index ⟨(i 0).val / 4000, hlt⟩ (0 : Fin 2) * 4000 ≤ (i 0).val ∧ (i 0).val < win3_6.index ⟨(i 0).val / 4000, hlt⟩ (0 : Fin 2) * 4000 + 4000
    rw [e12]; show (i 0).val / 4000 * 4000 ≤ (i 0).val ∧ (i 0).val < (i 0).val / 4000 * 4000 + 4000; omega
  | ⟨1, _⟩ =>
    show win3_6.index ⟨(i 0).val / 4000, hlt⟩ (1 : Fin 2) * 128 ≤ (i 1).val ∧ (i 1).val < win3_6.index ⟨(i 0).val / 4000, hlt⟩ (1 : Fin 2) * 128 + 128
    rw [e13]; omega

/-- THE RESULT ARRAY after the region: the layer of the arrays the region was entered with. -/
theorem arr (c : Dev nD) : (dat3 V c).arrAt 6 cfg3.N = G V c :=
  (dat3 V c).arrAt_eq_of_cover 6 (G V c) (fun t _ => flushed_eq V c t) (cover)

end Cert.KernelIdeal.Region3

end
-- ==== Proof.Region4.lean ====
/-
  Layer 4 of the network, region 4 of the kernel's program, as one whole-array function.

  The region's grid has 25 points; point t stages rows 4000 t … 4000 t + 3999 of the node states h and of the summed
  neighbour states agg (both 100000 × 128) and the whole of the layer's two weight matrices (128 × 128) and two one-row
  biases (1 × 128), and writes back rows 4000 t … 4000 t + 3999 of the result. Entry (r, q) of the block it writes is
  max(Σ_k max(Σ_j (1 · h(R,j) + agg(R,j)) · W1(j,k) + b1(0,k), 0) · W2(k,q) + b2(0,q), 0) at R = 4000 t + r: row R of the layer applied
  to the whole arrays. The 25 blocks tile the 100000 rows, so after the region the result array IS the layer of the
  arrays the region was entered with, whatever those are.
-/
import proofs.«180979_j42322607735316_1_alg».proof.Proof.Gen.KernelIdeal.Frame
import proofs.«180979_j42322607735316_1_alg».proof.Proof.LibGinLayers
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the node states', the neighbour sums' and the result's block index is
    (t, 0), the weights' and the biases' is (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The layer applied to the arrays the region is entered with. -/
abbrev G (c : Dev nD) : S100000x128.Idx → Elt Ideal .f32 :=
  GinLayers.ginRelu (M := 100000) (N := 128) (L := 128) (P := 128) (by decide) (by decide) (by decide) (by decide) (by decide)
    (V c main_v68) (V c main_v78) (V c main_v80) (V c main_v87) (V c main_v84) (V c main_v88)

/-- The body's value at an entry of a block whose row r is row R of the whole node states and neighbour sums. -/
theorem pay_apply (H AGG : FVec Ideal ⟨2, ![100000, 128]⟩ .f32) (W1 : FVec Ideal ⟨2, ![128, 128]⟩ .f32)
    (b1 : FVec Ideal ⟨2, ![1, 128]⟩ .f32) (W2 : FVec Ideal ⟨2, ![128, 128]⟩ .f32) (b2 : FVec Ideal ⟨2, ![1, 128]⟩ .f32)
    (x0 x1 : FVec Ideal S4000x128 .f32) (x2 : FVec Ideal S128x128 .f32) (x3 : FVec Ideal S1x128 .f32)
    (x4 : FVec Ideal S128x128 .f32) (x5 : FVec Ideal S1x128 .f32) (r : Fin 4000) (R : Fin 100000) (q : Fin 128)
    (hh : ∀ k : Fin 128, x0 (ix2 r k) = H (ix2 R k)) (ha : ∀ k : Fin 128, x1 (ix2 r k) = AGG (ix2 R k))
    (h2 : x2 = W1) (h3 : x3 = b1) (h4 : x4 = W2) (h5 : x5 = b2) :
    k4_pay1 x0 x1 x2 x3 x4 x5 (ix2 r q)
      = GinLayers.ginRelu (M := 100000) (N := 128) (L := 128) (P := 128) (by decide) (by decide) (by decide) (by decide) (by decide)
          H AGG W1 b1 W2 b2 (ix2 R q) := by
  subst h2 h3 h4 h5
  unfold k4_pay1
  exact GinLayers.gin_relu_rows H AGG x2 x3 x4 x5 x0 x1 bitsLt_bf16_f32 shapeCasts_S4000x128_S4000x128
    shapeCasts_S128x128_S128x128 shapeCasts_S1x128_S1x128 broadcasts_S1x128_S4000x128
    shapeCasts_S128x128_S128x128 shapeCasts_S1x128_S1x128 broadcasts_S1x128_S4000x128
    (by decide) (by decide) (by decide) (by decide) (by decide) r R q hh ha

/-- What point t writes back is block t of the layer of the arrays as entered. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11, e12, e13⟩ := idx_facts t
  have ht : t.val < 25 := lt_of_lt_of_eq t.isLt N_4
  funext j
  obtain ⟨r, q, rfl⟩ : ∃ (r : Fin 4000) (q : Fin 128), j = ix2 r q := ⟨j 0, j 1, eq_ix2 j⟩
  have hR : t.val * 4000 + r.val < 100000 := by have := r.isLt; omega
  show k4_pay1 (iblk4 V c 0 t) (iblk4 V c 1 t) (iblk4 V c 2 t) (iblk4 V c 3 t) (iblk4 V c 4 t) (iblk4 V c 5 t) (ix2 r q)
    = G V c (((cfg4.win 6).blk t).view.emb (ix2 r q))
  have hemb : ((cfg4.win 6).blk t).view.emb (ix2 r q) = ix2 (⟨t.val * 4000 + r.val, hR⟩ : Fin 100000) q := by
    funext a; apply Fin.ext
    match a with
    | ⟨0, _⟩ => show win4_6.index t (0 : Fin 2) * 4000 + 1 * r.val = t.val * 4000 + r.val; omega
    | ⟨1, _⟩ => show win4_6.index t (1 : Fin 2) * 128 + 1 * q.val = q.val; omega
  rw [hemb]
  refine pay_apply (V c main_v68) (V c main_v78) (V c main_v80) (V c main_v87) (V c main_v84) (V c main_v88)
    (iblk4 V c 0 t) (iblk4 V c 1 t) (iblk4 V c 2 t) (iblk4 V c 3 t) (iblk4 V c 4 t) (iblk4 V c 5 t)
    r ⟨t.val * 4000 + r.val, hR⟩ q (fun k => ?_) (fun k => ?_) ?_ ?_ ?_ ?_
  · show V c main_v68 (((cfg4.win 0).blk t).view.emb (ix2 r k)) = V c main_v68 (ix2 (⟨t.val * 4000 + r.val, hR⟩ : Fin 100000) k)
    refine congrArg (V c main_v68) ?_
    funext a; apply Fin.ext
    match a with
    | ⟨0, _⟩ => show win4_0.index t (0 : Fin 2) * 4000 + 1 * r.val = t.val * 4000 + r.val; omega
    | ⟨1, _⟩ => show win4_0.index t (1 : Fin 2) * 128 + 1 * k.val = k.val; omega
  · show V c main_v78 (((cfg4.win 1).blk t).view.emb (ix2 r k)) = V c main_v78 (ix2 (⟨t.val * 4000 + r.val, hR⟩ : Fin 100000) k)
    refine congrArg (V c main_v78) ?_
    funext a; apply Fin.ext
    match a with
    | ⟨0, _⟩ => show win4_1.index t (0 : Fin 2) * 4000 + 1 * r.val = t.val * 4000 + r.val; omega
    | ⟨1, _⟩ => show win4_1.index t (1 : Fin 2) * 128 + 1 * k.val = k.val; omega
  · funext y
    show V c main_v80 (((cfg4.win 2).blk t).view.emb y) = V c main_v80 y
    refine congrArg (V c main_v80) ?_
    funext a; apply Fin.ext
    match a with
    | ⟨0, _⟩ => show win4_2.index t (0 : Fin 2) * 128 + 1 * (y 0).val = (y 0).val; omega
    | ⟨1, _⟩ => show win4_2.index t (1 : Fin 2) * 128 + 1 * (y 1).val = (y 1).val; omega
  · funext y
    show V c main_v87 (((cfg4.win 3).blk t).view.emb y) = V c main_v87 y
    refine congrArg (V c main_v87) ?_
    funext a; apply Fin.ext
    match a with
    | ⟨0, _⟩ => show win4_3.index t (0 : Fin 2) * 1 + 1 * (y 0).val = (y 0).val; omega
    | ⟨1, _⟩ => show win4_3.index t (1 : Fin 2) * 128 + 1 * (y 1).val = (y 1).val; omega
  · funext y
    show V c main_v84 (((cfg4.win 4).blk t).view.emb y) = V c main_v84 y
    refine congrArg (V c main_v84) ?_
    funext a; apply Fin.ext
    match a with
    | ⟨0, _⟩ => show win4_4.index t (0 : Fin 2) * 128 + 1 * (y 0).val = (y 0).val; omega
    | ⟨1, _⟩ => show win4_4.index t (1 : Fin 2) * 128 + 1 * (y 1).val = (y 1).val; omega
  · funext y
    show V c main_v88 (((cfg4.win 5).blk t).view.emb y) = V c main_v88 y
    refine congrArg (V c main_v88) ?_
    funext a; apply Fin.ext
    match a with
    | ⟨0, _⟩ => show win4_5.index t (0 : Fin 2) * 1 + 1 * (y 0).val = (y 0).val; omega
    | ⟨1, _⟩ => show win4_5.index t (1 : Fin 2) * 128 + 1 * (y 1).val = (y 1).val; omega

/-- An index of the result array is in point t's block iff each coordinate is in the block's range on its axis. -/
theorem mem_blk (t : Fin cfg4.N) (i : S100000x128.Idx) :
    i ∈ ((cfg4.win 6).blk t).view.set ↔ ∀ a : Fin 2, win4_6.index t a * S4000x128.size a ≤ (i a).val ∧ (i a).val < win4_6.index t a * S4000x128.size a + S4000x128.size a := by
  show i ∈ ((View.whole main_v89).slice (win4_6.rect t)).set ↔ _
  rw [View.set_slice_whole, Rect.mem_set_unit]
  exact Iff.rfl

/-- Row i of the result is in the block of point i / 4000: the 25 blocks tile the array. -/
theorem cover (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hlt : (i 0).val / 4000 < cfg4.N := by rw [show cfg4.N = 25 from N_4]; omega
  refine ⟨⟨(i 0).val / 4000, hlt⟩, flush4_6 _, ?_⟩
  rw [mem_blk]
  obtain ⟨-, -, -, -, -, -, -, -, -, -, -, -, e12, e13⟩ := idx_facts ⟨(i 0).val / 4000, hlt⟩
  intro a
  match a with
  | ⟨0, _⟩ =>
    show win4_6.index ⟨(i 0).val / 4000, hlt⟩ (0 : Fin 2) * 4000 ≤ (i 0).val ∧ (i 0).val < win4_6.index ⟨(i 0).val / 4000, hlt⟩ (0 : Fin 2) * 4000 + 4000
    rw [e12]; show (i 0).val / 4000 * 4000 ≤ (i 0).val ∧ (i 0).val < (i 0).val / 4000 * 4000 + 4000; omega
  | ⟨1, _⟩ =>
    show win4_6.index ⟨(i 0).val / 4000, hlt⟩ (1 : Fin 2) * 128 ≤ (i 1).val ∧ (i 1).val < win4_6.index ⟨(i 0).val / 4000, hlt⟩ (1 : Fin 2) * 128 + 128
    rw [e13]; omega

/-- THE RESULT ARRAY after the region: the layer of the arrays the region was entered with. -/
theorem arr (c : Dev nD) : (dat4 V c).arrAt 6 cfg4.N = G V c :=
  (dat4 V c).arrAt_eq_of_cover 6 (G V c) (fun t _ => flushed_eq V c t) (cover)

end Cert.KernelIdeal.Region4

end
-- ==== Proof.Region5.lean ====
/-
  Layer 5 of the network, region 5 of the kernel's program, as one whole-array function.

  The region's grid has 25 points; point t stages rows 4000 t … 4000 t + 3999 of the node states h and of the summed
  neighbour states agg (both 100000 × 128) and the whole of the layer's two weight matrices (128 × 128) and two one-row
  biases (1 × 128), and writes back rows 4000 t … 4000 t + 3999 of the result. Entry (r, q) of the block it writes is
  Σ_k max(Σ_j (1 · h(R,j) + agg(R,j)) · W1(j,k) + b1(0,k), 0) · W2(k,q) + b2(0,q) at R = 4000 t + r: row R of the layer applied
  to the whole arrays. The 25 blocks tile the 100000 rows, so after the region the result array IS the layer of the
  arrays the region was entered with, whatever those are.
-/
import proofs.«180979_j42322607735316_1_alg».proof.Proof.Gen.KernelIdeal.Frame
import proofs.«180979_j42322607735316_1_alg».proof.Proof.LibGinLayers
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the node states', the neighbour sums' and the result's block index is
    (t, 0), the weights' and the biases' is (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The layer applied to the arrays the region is entered with. -/
abbrev G (c : Dev nD) : S100000x128.Idx → Elt Ideal .f32 :=
  GinLayers.ginPlain (M := 100000) (N := 128) (L := 128) (P := 128) (by decide) (by decide) (by decide) (by decide)
    (V c main_v89) (V c main_v99) (V c main_v101) (V c main_v108) (V c main_v105) (V c main_v109)

/-- The body's value at an entry of a block whose row r is row R of the whole node states and neighbour sums. -/
theorem pay_apply (H AGG : FVec Ideal ⟨2, ![100000, 128]⟩ .f32) (W1 : FVec Ideal ⟨2, ![128, 128]⟩ .f32)
    (b1 : FVec Ideal ⟨2, ![1, 128]⟩ .f32) (W2 : FVec Ideal ⟨2, ![128, 128]⟩ .f32) (b2 : FVec Ideal ⟨2, ![1, 128]⟩ .f32)
    (x0 x1 : FVec Ideal S4000x128 .f32) (x2 : FVec Ideal S128x128 .f32) (x3 : FVec Ideal S1x128 .f32)
    (x4 : FVec Ideal S128x128 .f32) (x5 : FVec Ideal S1x128 .f32) (r : Fin 4000) (R : Fin 100000) (q : Fin 128)
    (hh : ∀ k : Fin 128, x0 (ix2 r k) = H (ix2 R k)) (ha : ∀ k : Fin 128, x1 (ix2 r k) = AGG (ix2 R k))
    (h2 : x2 = W1) (h3 : x3 = b1) (h4 : x4 = W2) (h5 : x5 = b2) :
    k5_pay1 x0 x1 x2 x3 x4 x5 (ix2 r q)
      = GinLayers.ginPlain (M := 100000) (N := 128) (L := 128) (P := 128) (by decide) (by decide) (by decide) (by decide)
          H AGG W1 b1 W2 b2 (ix2 R q) := by
  subst h2 h3 h4 h5
  unfold k5_pay1
  exact GinLayers.gin_plain_rows H AGG x2 x3 x4 x5 x0 x1 bitsLt_bf16_f32 shapeCasts_S4000x128_S4000x128
    shapeCasts_S128x128_S128x128 shapeCasts_S1x128_S1x128 broadcasts_S1x128_S4000x128
    shapeCasts_S128x128_S128x128 shapeCasts_S1x128_S1x128 broadcasts_S1x128_S4000x128
    (by decide) (by decide) (by decide) (by decide) r R q hh ha

/-- What point t writes back is block t of the layer of the arrays as entered. -/
theorem flushed_eq (c : Dev nD) (t : Fin cfg5.N) :
    (dat5 V c).flushed 6 t = ((cfg5.win 6).blk t).view.read (Elt Ideal) (G V c) := by
  show (cfg5.win 6).cut (grid5.coords t) ((dat5 V c).after 6 t) = _
  rw [after5_6]
  unfold out5_6
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11, e12, e13⟩ := idx_facts t
  have ht : t.val < 25 := lt_of_lt_of_eq t.isLt N_5
  funext j
  obtain ⟨r, q, rfl⟩ : ∃ (r : Fin 4000) (q : Fin 128), j = ix2 r q := ⟨j 0, j 1, eq_ix2 j⟩
  have hR : t.val * 4000 + r.val < 100000 := by have := r.isLt; omega
  show k5_pay1 (iblk5 V c 0 t) (iblk5 V c 1 t) (iblk5 V c 2 t) (iblk5 V c 3 t) (iblk5 V c 4 t) (iblk5 V c 5 t) (ix2 r q)
    = G V c (((cfg5.win 6).blk t).view.emb (ix2 r q))
  have hemb : ((cfg5.win 6).blk t).view.emb (ix2 r q) = ix2 (⟨t.val * 4000 + r.val, hR⟩ : Fin 100000) q := by
    funext a; apply Fin.ext
    match a with
    | ⟨0, _⟩ => show win5_6.index t (0 : Fin 2) * 4000 + 1 * r.val = t.val * 4000 + r.val; omega
    | ⟨1, _⟩ => show win5_6.index t (1 : Fin 2) * 128 + 1 * q.val = q.val; omega
  rw [hemb]
  refine pay_apply (V c main_v89) (V c main_v99) (V c main_v101) (V c main_v108) (V c main_v105) (V c main_v109)
    (iblk5 V c 0 t) (iblk5 V c 1 t) (iblk5 V c 2 t) (iblk5 V c 3 t) (iblk5 V c 4 t) (iblk5 V c 5 t)
    r ⟨t.val * 4000 + r.val, hR⟩ q (fun k => ?_) (fun k => ?_) ?_ ?_ ?_ ?_
  · show V c main_v89 (((cfg5.win 0).blk t).view.emb (ix2 r k)) = V c main_v89 (ix2 (⟨t.val * 4000 + r.val, hR⟩ : Fin 100000) k)
    refine congrArg (V c main_v89) ?_
    funext a; apply Fin.ext
    match a with
    | ⟨0, _⟩ => show win5_0.index t (0 : Fin 2) * 4000 + 1 * r.val = t.val * 4000 + r.val; omega
    | ⟨1, _⟩ => show win5_0.index t (1 : Fin 2) * 128 + 1 * k.val = k.val; omega
  · show V c main_v99 (((cfg5.win 1).blk t).view.emb (ix2 r k)) = V c main_v99 (ix2 (⟨t.val * 4000 + r.val, hR⟩ : Fin 100000) k)
    refine congrArg (V c main_v99) ?_
    funext a; apply Fin.ext
    match a with
    | ⟨0, _⟩ => show win5_1.index t (0 : Fin 2) * 4000 + 1 * r.val = t.val * 4000 + r.val; omega
    | ⟨1, _⟩ => show win5_1.index t (1 : Fin 2) * 128 + 1 * k.val = k.val; omega
  · funext y
    show V c main_v101 (((cfg5.win 2).blk t).view.emb y) = V c main_v101 y
    refine congrArg (V c main_v101) ?_
    funext a; apply Fin.ext
    match a with
    | ⟨0, _⟩ => show win5_2.index t (0 : Fin 2) * 128 + 1 * (y 0).val = (y 0).val; omega
    | ⟨1, _⟩ => show win5_2.index t (1 : Fin 2) * 128 + 1 * (y 1).val = (y 1).val; omega
  · funext y
    show V c main_v108 (((cfg5.win 3).blk t).view.emb y) = V c main_v108 y
    refine congrArg (V c main_v108) ?_
    funext a; apply Fin.ext
    match a with
    | ⟨0, _⟩ => show win5_3.index t (0 : Fin 2) * 1 + 1 * (y 0).val = (y 0).val; omega
    | ⟨1, _⟩ => show win5_3.index t (1 : Fin 2) * 128 + 1 * (y 1).val = (y 1).val; omega
  · funext y
    show V c main_v105 (((cfg5.win 4).blk t).view.emb y) = V c main_v105 y
    refine congrArg (V c main_v105) ?_
    funext a; apply Fin.ext
    match a with
    | ⟨0, _⟩ => show win5_4.index t (0 : Fin 2) * 128 + 1 * (y 0).val = (y 0).val; omega
    | ⟨1, _⟩ => show win5_4.index t (1 : Fin 2) * 128 + 1 * (y 1).val = (y 1).val; omega
  · funext y
    show V c main_v109 (((cfg5.win 5).blk t).view.emb y) = V c main_v109 y
    refine congrArg (V c main_v109) ?_
    funext a; apply Fin.ext
    match a with
    | ⟨0, _⟩ => show win5_5.index t (0 : Fin 2) * 1 + 1 * (y 0).val = (y 0).val; omega
    | ⟨1, _⟩ => show win5_5.index t (1 : Fin 2) * 128 + 1 * (y 1).val = (y 1).val; omega

/-- An index of the result array is in point t's block iff each coordinate is in the block's range on its axis. -/
theorem mem_blk (t : Fin cfg5.N) (i : S100000x128.Idx) :
    i ∈ ((cfg5.win 6).blk t).view.set ↔ ∀ a : Fin 2, win5_6.index t a * S4000x128.size a ≤ (i a).val ∧ (i a).val < win5_6.index t a * S4000x128.size a + S4000x128.size a := by
  show i ∈ ((View.whole main_v110).slice (win5_6.rect t)).set ↔ _
  rw [View.set_slice_whole, Rect.mem_set_unit]
  exact Iff.rfl

/-- Row i of the result is in the block of point i / 4000: the 25 blocks tile the array. -/
theorem cover (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hlt : (i 0).val / 4000 < cfg5.N := by rw [show cfg5.N = 25 from N_5]; omega
  refine ⟨⟨(i 0).val / 4000, hlt⟩, flush5_6 _, ?_⟩
  rw [mem_blk]
  obtain ⟨-, -, -, -, -, -, -, -, -, -, -, -, e12, e13⟩ := idx_facts ⟨(i 0).val / 4000, hlt⟩
  intro a
  match a with
  | ⟨0, _⟩ =>
    show win5_6.index ⟨(i 0).val / 4000, hlt⟩ (0 : Fin 2) * 4000 ≤ (i 0).val ∧ (i 0).val < win5_6.index ⟨(i 0).val / 4000, hlt⟩ (0 : Fin 2) * 4000 + 4000
    rw [e12]; show (i 0).val / 4000 * 4000 ≤ (i 0).val ∧ (i 0).val < (i 0).val / 4000 * 4000 + 4000; omega
  | ⟨1, _⟩ =>
    show win5_6.index ⟨(i 0).val / 4000, hlt⟩ (1 : Fin 2) * 128 ≤ (i 1).val ∧ (i 1).val < win5_6.index ⟨(i 0).val / 4000, hlt⟩ (1 : Fin 2) * 128 + 128
    rw [e13]; omega

/-- THE RESULT ARRAY after the region: the layer of the arrays the region was entered with. -/
theorem arr (c : Dev nD) : (dat5 V c).arrAt 6 cfg5.N = G V c :=
  (dat5 V c).arrAt_eq_of_cover 6 (G V c) (fun t _ => flushed_eq V c t) (cover)

end Cert.KernelIdeal.Region5

end
-- ==== Proof.Region6.lean ====
/-
  The head of the network, region 6 of the kernel's program, as one whole-array function.

  The region's grid has 4 points; point t stages rows 1000 t … 1000 t + 999 of the pooled states g (4000 × 128) and the
  whole of the three weight matrices (128 × 512, 512 × 128, 128 × 1) and three one-row biases, and writes back rows
  1000 t … 1000 t + 999 of the 4000 × 1 result. The entry (r, 0) of the block it writes is row 1000 t + r of the three-layer
  perceptron of the whole arrays (a maximum with zero after the first and the second layer). The 4 blocks tile the 4000
  rows, so after the region the result array IS the perceptron of the arrays the region was entered with.
-/
import proofs.«180979_j42322607735316_1_alg».proof.Proof.Gen.KernelIdeal.Frame
import proofs.«180979_j42322607735316_1_alg».proof.Proof.LibGinLayers
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 4 grid points: the pooled states' and the result's block index is (t, 0), every
    weight's and bias's is (0, 0). -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- The three-layer perceptron of the arrays the region is entered with. -/
abbrev G (c : Dev nD) : S4000x1.Idx → Elt Ideal .f32 :=
  GinLayers.task3 (M := 4000) (K := 128) (L := 512) (P := 128) (Q := 1) (by decide) (by decide) (by decide) (by decide) (by decide)
    (V c main_v113) (V c main_arg9) (V c main_v114) (V c main_arg11) (V c main_v115) (V c main_arg13) (V c main_v116)

/-- The body's value at an entry of a block whose row r is row R of the whole pooled states. -/
theorem pay_apply (Gp : FVec Ideal ⟨2, ![4000, 128]⟩ .f32) (W0 : FVec Ideal ⟨2, ![128, 512]⟩ .f32)
    (b0 : FVec Ideal ⟨2, ![1, 512]⟩ .f32) (W1 : FVec Ideal ⟨2, ![512, 128]⟩ .f32) (b1 : FVec Ideal ⟨2, ![1, 128]⟩ .f32)
    (W2 : FVec Ideal ⟨2, ![128, 1]⟩ .f32) (b2 : FVec Ideal ⟨2, ![1, 1]⟩ .f32)
    (x0 : FVec Ideal S1000x128 .f32) (x1 : FVec Ideal S128x512 .f32) (x2 : FVec Ideal S1x512 .f32)
    (x3 : FVec Ideal S512x128 .f32) (x4 : FVec Ideal S1x128 .f32) (x5 : FVec Ideal S128x1 .f32) (x6 : FVec Ideal S1x1 .f32)
    (r : Fin 1000) (R : Fin 4000) (q : Fin 1)
    (hg : ∀ k : Fin 128, x0 (ix2 r k) = Gp (ix2 R k))
    (h1 : x1 = W0) (h2 : x2 = b0) (h3 : x3 = W1) (h4 : x4 = b1) (h5 : x5 = W2) (h6 : x6 = b2) :
    k6_pay1 x0 x1 x2 x3 x4 x5 x6 (ix2 r q)
      = GinLayers.task3 (M := 4000) (K := 128) (L := 512) (P := 128) (Q := 1) (by decide) (by decide) (by decide) (by decide) (by decide)
          Gp W0 b0 W1 b1 W2 b2 (ix2 R q) := by
  subst h1 h2 h3 h4 h5 h6
  unfold k6_pay1
  exact GinLayers.task_rows Gp x1 x2 x3 x4 x5 x6 x0 bitsLt_bf16_f32 shapeCasts_S1000x128_S1000x128
    shapeCasts_S1x512_S1x512 broadcasts_S1x512_S1000x512 shapeCasts_S1x128_S1x128 broadcasts_S1x128_S1000x128
    shapeCasts_S1x1_S1x1 broadcasts_S1x1_S1000x1 (by decide) (by decide) (by decide) (by decide) (by decide) r R q hg

/-- What point t writes back is block t of the perceptron of the arrays as entered. -/
theorem flushed_eq (c : Dev nD) (t : Fin cfg6.N) :
    (dat6 V c).flushed 7 t = ((cfg6.win 7).blk t).view.read (Elt Ideal) (G V c) := by
  show (cfg6.win 7).cut (grid6.coords t) ((dat6 V c).after 7 t) = _
  rw [after6_7]
  unfold out6_7
  rw [View.canon_unit_zero hz]
  simp only [View.ld_unit_zero (S := S1000x128) hz, View.ld_unit_zero (S := S128x512) hz, View.ld_unit_zero (S := S1x512) hz,
    View.ld_unit_zero (S := S512x128) hz, View.ld_unit_zero (S := S1x128) hz, View.ld_unit_zero (S := S128x1) hz,
    View.ld_unit_zero (S := S1x1) hz]
  obtain ⟨e0, e1, e2, e3, e4, e5, e6, e7, e8, e9, e10, e11, e12, e13, e14, e15⟩ := idx_facts t
  have ht : t.val < 4 := lt_of_lt_of_eq t.isLt N_6
  funext j
  obtain ⟨r, q, rfl⟩ : ∃ (r : Fin 1000) (q : Fin 1), j = ix2 r q := ⟨j 0, j 1, eq_ix2 j⟩
  have hR : t.val * 1000 + r.val < 4000 := by have := r.isLt; omega
  show k6_pay1 (iblk6 V c 0 t) (iblk6 V c 1 t) (iblk6 V c 2 t) (iblk6 V c 3 t) (iblk6 V c 4 t) (iblk6 V c 5 t) (iblk6 V c 6 t) (ix2 r q)
    = G V c (((cfg6.win 7).blk t).view.emb (ix2 r q))
  have hemb : ((cfg6.win 7).blk t).view.emb (ix2 r q) = ix2 (⟨t.val * 1000 + r.val, hR⟩ : Fin 4000) q := by
    funext a; apply Fin.ext
    match a with
    | ⟨0, _⟩ => show win6_7.index t (0 : Fin 2) * 1000 + 1 * r.val = t.val * 1000 + r.val; omega
    | ⟨1, _⟩ => show win6_7.index t (1 : Fin 2) * 1 + 1 * q.val = q.val; omega
  rw [hemb]
  refine pay_apply (V c main_v113) (V c main_arg9) (V c main_v114) (V c main_arg11) (V c main_v115) (V c main_arg13) (V c main_v116)
    (iblk6 V c 0 t) (iblk6 V c 1 t) (iblk6 V c 2 t) (iblk6 V c 3 t) (iblk6 V c 4 t) (iblk6 V c 5 t) (iblk6 V c 6 t)
    r ⟨t.val * 1000 + r.val, hR⟩ q (fun k => ?_) ?_ ?_ ?_ ?_ ?_ ?_
  · show V c main_v113 (((cfg6.win 0).blk t).view.emb (ix2 r k)) = V c main_v113 (ix2 (⟨t.val * 1000 + r.val, hR⟩ : Fin 4000) k)
    refine congrArg (V c main_v113) ?_
    funext a; apply Fin.ext
    match a with
    | ⟨0, _⟩ => show win6_0.index t (0 : Fin 2) * 1000 + 1 * r.val = t.val * 1000 + r.val; omega
    | ⟨1, _⟩ => show win6_0.index t (1 : Fin 2) * 128 + 1 * k.val = k.val; omega
  · funext y
    show V c main_arg9 (((cfg6.win 1).blk t).view.emb y) = V c main_arg9 y
    refine congrArg (V c main_arg9) ?_
    funext a; apply Fin.ext
    match a with
    | ⟨0, _⟩ => show win6_1.index t (0 : Fin 2) * 128 + 1 * (y 0).val = (y 0).val; omega
    | ⟨1, _⟩ => show win6_1.index t (1 : Fin 2) * 512 + 1 * (y 1).val = (y 1).val; omega
  · funext y
    show V c main_v114 (((cfg6.win 2).blk t).view.emb y) = V c main_v114 y
    refine congrArg (V c main_v114) ?_
    funext a; apply Fin.ext
    match a with
    | ⟨0, _⟩ => show win6_2.index t (0 : Fin 2) * 1 + 1 * (y 0).val = (y 0).val; omega
    | ⟨1, _⟩ => show win6_2.index t (1 : Fin 2) * 512 + 1 * (y 1).val = (y 1).val; omega
  · funext y
    show V c main_arg11 (((cfg6.win 3).blk t).view.emb y) = V c main_arg11 y
    refine congrArg (V c main_arg11) ?_
    funext a; apply Fin.ext
    match a with
    | ⟨0, _⟩ => show win6_3.index t (0 : Fin 2) * 512 + 1 * (y 0).val = (y 0).val; omega
    | ⟨1, _⟩ => show win6_3.index t (1 : Fin 2) * 128 + 1 * (y 1).val = (y 1).val; omega
  · funext y
    show V c main_v115 (((cfg6.win 4).blk t).view.emb y) = V c main_v115 y
    refine congrArg (V c main_v115) ?_
    funext a; apply Fin.ext
    match a with
    | ⟨0, _⟩ => show win6_4.index t (0 : Fin 2) * 1 + 1 * (y 0).val = (y 0).val; omega
    | ⟨1, _⟩ => show win6_4.index t (1 : Fin 2) * 128 + 1 * (y 1).val = (y 1).val; omega
  · funext y
    show V c main_arg13 (((cfg6.win 5).blk t).view.emb y) = V c main_arg13 y
    refine congrArg (V c main_arg13) ?_
    funext a; apply Fin.ext
    match a with
    | ⟨0, _⟩ => show win6_5.index t (0 : Fin 2) * 128 + 1 * (y 0).val = (y 0).val; omega
    | ⟨1, _⟩ => show win6_5.index t (1 : Fin 2) * 1 + 1 * (y 1).val = (y 1).val; omega
  · funext y
    show V c main_v116 (((cfg6.win 6).blk t).view.emb y) = V c main_v116 y
    refine congrArg (V c main_v116) ?_
    funext a; apply Fin.ext
    match a with
    | ⟨0, _⟩ => show win6_6.index t (0 : Fin 2) * 1 + 1 * (y 0).val = (y 0).val; omega
    | ⟨1, _⟩ => show win6_6.index t (1 : Fin 2) * 1 + 1 * (y 1).val = (y 1).val; omega

/-- An index of the result array is in point t's block iff each coordinate is in the block's range on its axis. -/
theorem mem_blk (t : Fin cfg6.N) (i : S4000x1.Idx) :
    i ∈ ((cfg6.win 7).blk t).view.set ↔ ∀ a : Fin 2, win6_7.index t a * S1000x1.size a ≤ (i a).val ∧ (i a).val < win6_7.index t a * S1000x1.size a + S1000x1.size a := by
  show i ∈ ((View.whole main_v117).slice (win6_7.rect t)).set ↔ _
  rw [View.set_slice_whole, Rect.mem_set_unit]
  exact Iff.rfl

/-- Row i of the result is in the block of point i / 1000: the 4 blocks tile the array. -/
theorem cover (i : S4000x1.Idx) :
    ∃ t : Fin cfg6.N, (cfg6.win 7).flush t = true ∧ i ∈ ((cfg6.win 7).blk t).view.set := by
  have hi0 : (i 0).val < 4000 := (i 0).isLt
  have hi1 : (i 1).val < 1 := (i 1).isLt
  have hlt : (i 0).val / 1000 < cfg6.N := by rw [show cfg6.N = 4 from N_6]; omega
  refine ⟨⟨(i 0).val / 1000, hlt⟩, flush6_7 _, ?_⟩
  rw [mem_blk]
  obtain ⟨-, -, -, -, -, -, -, -, -, -, -, -, -, -, e14, e15⟩ := idx_facts ⟨(i 0).val / 1000, hlt⟩
  intro a
  match a with
  | ⟨0, _⟩ =>
    show win6_7.index ⟨(i 0).val / 1000, hlt⟩ (0 : Fin 2) * 1000 ≤ (i 0).val ∧ (i 0).val < win6_7.index ⟨(i 0).val / 1000, hlt⟩ (0 : Fin 2) * 1000 + 1000
    rw [e14]; show (i 0).val / 1000 * 1000 ≤ (i 0).val ∧ (i 0).val < (i 0).val / 1000 * 1000 + 1000; omega
  | ⟨1, _⟩ =>
    show win6_7.index ⟨(i 0).val / 1000, hlt⟩ (1 : Fin 2) * 1 ≤ (i 1).val ∧ (i 1).val < win6_7.index ⟨(i 0).val / 1000, hlt⟩ (1 : Fin 2) * 1 + 1
    rw [e15]; omega

/-- THE RESULT ARRAY after the region: the perceptron of the arrays the region was entered with. -/
theorem arr (c : Dev nD) : (dat6 V c).arrAt 7 cfg6.N = G V c :=
  (dat6 V c).arrAt_eq_of_cover 7 (G V c) (fun t _ => flushed_eq V c t) (cover)

end Cert.KernelIdeal.Region6

end
-- ==== Proof.Net.lean ====
/-
  The network as one function of its fifteen arguments, over the extended reals.

  x (100000 × 75) are node features, edge_index (2 × 400000) the sources and targets of the edges, batch (100000) the graph
  of each node. The node states start as the embedding h₀ = x · W + b. Each of five layers replaces the states by a two-layer
  perceptron of 1 · h + agg(h), where agg(h)(i) = Σ over the edges e with target i of h(source e) (a gather of the rows at
  the sources — a negative source counted from the end — followed by a scatter-add at the targets into zeros); the first
  four layers end in a maximum with zero, the fifth does not. The states are summed per graph (a scatter-add at batch into
  4000 × 128 zeros) and a three-layer perceptron gives the 4000 × 1 result. The per-layer weights are the slices of the
  stacked weight arrays; a bias vector enters as a one-row matrix.
-/
import proofs.«180979_j42322607735316_1_alg».proof.Proof.Gen.KernelIdeal
import proofs.«180979_j42322607735316_1_alg».proof.Proof.LibGinLayers

noncomputable section

namespace Cert.KernelIdeal.Net

open Cert.KernelIdeal Cert.KernelIdeal.Gen Idealize.ShloMosaic Idealize.ShloMosaic.TcCoe

/-- Arrays of 32-bit integers and of floats of a shape, at the extended reals. -/
abbrev I32 (S : Shape) := (⟨S, .i32⟩ : BufTy).Contents (Elt Ideal)
abbrev F32 (S : Shape) := (⟨S, .f32⟩ : BufTy).Contents (Elt Ideal)

/-- The edges' sources and targets: the two rows of edge_index. -/
def src (x1 : I32 S2x400000) : I32 S400000 :=
  shapeCast S400000 (extractStridedSlice S1x400000 ![0, 0] x1 slices_S2x400000_S1x400000_0_0) shapeCasts_S1x400000_S400000
def dst (x1 : I32 S2x400000) : I32 S400000 :=
  shapeCast S400000 (extractStridedSlice S1x400000 ![1, 0] x1 slices_S2x400000_S1x400000_1_0) shapeCasts_S1x400000_S400000

/-- The sum over incoming edges: the rows of h at the sources (a negative source counted from the end), added up at the
    targets. -/
def agg (x1 : I32 S2x400000) (h : F32 S100000x128) : F32 S100000x128 :=
  Host.scatterAdd (F := Ideal) scatter_S100000x128_S400000x1_S400000x128_1_0_0_1
    (broadcastInDim S100000x128 ![] bcast_S_S100000x128 (constant (F := Ideal) S_ .f32 0x00000000#32))
    (broadcastInDim S400000x1 ![0] bcast_S400000_S400000x1_0 (dst x1))
    (Host.gather gather_S100000x128_S400000x1_S400000x128_1_0_n_n_0_1_1128 h
      (broadcastInDim S400000x1 ![0] bcast_S400000_S400000x1_0
        (select (cmpi .slt (src x1) (broadcastInDim S400000 ![] bcast_S_S400000 (constantI S_ 32 0#32)))
          (addi (src x1) (broadcastInDim S400000 ![] bcast_S_S400000 (constantI S_ 32 100000#32))) (src x1))))

/-- The sum of the node states per graph. -/
def pool (x2 : I32 S100000) (h : F32 S100000x128) : F32 S4000x128 :=
  Host.scatterAdd (F := Ideal) scatter_S4000x128_S100000x1_S100000x128_1_0_0_1
    (broadcastInDim S4000x128 ![] bcast_S_S4000x128 (constant (F := Ideal) S_ .f32 0x00000000#32))
    (broadcastInDim S100000x1 ![0] bcast_S100000_S100000x1_0 x2) h

/-- Layer l's weight matrix: slice l of a stacked 5 × 128 × 128 array. -/
def wmat (off : Fin 3 → ℕ) (hs : S5x128x128.Slices off S1x128x128) (x : F32 S5x128x128) : F32 S128x128 :=
  shapeCast S128x128 (extractStridedSlice S1x128x128 off x hs) shapeCasts_S1x128x128_S128x128

/-- Layer l's bias as one row: slice l of a stacked 5 × 128 array. -/
def brow (off : Fin 2 → ℕ) (hs : S5x128.Slices off S1x128) (x : F32 S5x128) : F32 S1x128 :=
  shapeCast S1x128 (shapeCast S128 (extractStridedSlice S1x128 off x hs) shapeCasts_S1x128_S128) shapeCasts_S128_S1x128

/-- A bias vector as one row. -/
def row128 (x : F32 S128) : F32 S1x128 := shapeCast S1x128 x shapeCasts_S128_S1x128
def row512 (x : F32 S512) : F32 S1x512 := shapeCast S1x512 x shapeCasts_S512_S1x512
def row1 (x : F32 S1) : F32 S1x1 := shapeCast S1x1 x shapeCasts_S1_S1x1

/-- The embedding. -/
def h0 (x0 : F32 S100000x75) (x3 : F32 S75x128) (x4 : F32 S128) : F32 S100000x128 :=
  GinLayers.hostDense (M := 100000) (K := 75) (N := 128) (by decide) x0 x3 (row128 x4)

/-- One layer ending in the maximum with zero, with the layer's slices of the stacked weights. -/
def layerR (o3 : Fin 3 → ℕ) (o2 : Fin 2 → ℕ) (hs3 : S5x128x128.Slices o3 S1x128x128) (hs2 : S5x128.Slices o2 S1x128)
    (x1 : I32 S2x400000) (x5 : F32 S5x128x128) (x6 : F32 S5x128) (x7 : F32 S5x128x128) (x8 : F32 S5x128)
    (h : F32 S100000x128) : F32 S100000x128 :=
  GinLayers.ginRelu (M := 100000) (N := 128) (L := 128) (P := 128) (by decide) (by decide) (by decide) (by decide) (by decide)
    h (agg x1 h) (wmat o3 hs3 x5) (brow o2 hs2 x6) (wmat o3 hs3 x7) (brow o2 hs2 x8)

/-- One layer without the final maximum. -/
def layerP (o3 : Fin 3 → ℕ) (o2 : Fin 2 → ℕ) (hs3 : S5x128x128.Slices o3 S1x128x128) (hs2 : S5x128.Slices o2 S1x128)
    (x1 : I32 S2x400000) (x5 : F32 S5x128x128) (x6 : F32 S5x128) (x7 : F32 S5x128x128) (x8 : F32 S5x128)
    (h : F32 S100000x128) : F32 S100000x128 :=
  GinLayers.ginPlain (M := 100000) (N := 128) (L := 128) (P := 128) (by decide) (by decide) (by decide) (by decide)
    h (agg x1 h) (wmat o3 hs3 x5) (brow o2 hs2 x6) (wmat o3 hs3 x7) (brow o2 hs2 x8)

/-- The three-layer perceptron on the pooled states. -/
def head (g : F32 S4000x128) (x9 : F32 S128x512) (x10 : F32 S512) (x11 : F32 S512x128) (x12 : F32 S128)
    (x13 : F32 S128x1) (x14 : F32 S1) : F32 S4000x1 :=
  GinLayers.task3 (M := 4000) (K := 128) (L := 512) (P := 128) (Q := 1) (by decide) (by decide) (by decide) (by decide) (by decide)
    g x9 (row512 x10) x11 (row128 x12) x13 (row1 x14)

/-- The node states after the five layers. -/
def h5 (x0 : F32 S100000x75) (x1 : I32 S2x400000) (x3 : F32 S75x128) (x4 : F32 S128) (x5 : F32 S5x128x128)
    (x6 : F32 S5x128) (x7 : F32 S5x128x128) (x8 : F32 S5x128) : F32 S100000x128 :=
  layerP ![4, 0, 0] ![4, 0] slices_S5x128x128_S1x128x128_4_0_0 slices_S5x128_S1x128_4_0 x1 x5 x6 x7 x8
    (layerR ![3, 0, 0] ![3, 0] slices_S5x128x128_S1x128x128_3_0_0 slices_S5x128_S1x128_3_0 x1 x5 x6 x7 x8
      (layerR ![2, 0, 0] ![2, 0] slices_S5x128x128_S1x128x128_2_0_0 slices_S5x128_S1x128_2_0 x1 x5 x6 x7 x8
        (layerR ![1, 0, 0] ![1, 0] slices_S5x128x128_S1x128x128_1_0_0 slices_S5x128_S1x128_1_0 x1 x5 x6 x7 x8
          (layerR ![0, 0, 0] ![0, 0] slices_S5x128x128_S1x128x128_0_0_0 slices_S5x128_S1x128_0_0 x1 x5 x6 x7 x8
            (h0 x0 x3 x4)))))

/-- THE NETWORK: the result as a function of the fifteen arguments. -/
def out (x0 : F32 S100000x75) (x1 : I32 S2x400000) (x2 : I32 S100000) (x3 : F32 S75x128) (x4 : F32 S128)
    (x5 : F32 S5x128x128) (x6 : F32 S5x128) (x7 : F32 S5x128x128) (x8 : F32 S5x128) (x9 : F32 S128x512) (x10 : F32 S512)
    (x11 : F32 S512x128) (x12 : F32 S128) (x13 : F32 S128x1) (x14 : F32 S1) : F32 S4000x1 :=
  head (pool x2 (h5 x0 x1 x3 x4 x5 x6 x7 x8)) x9 x10 x11 x12 x13 x14

end Cert.KernelIdeal.Net

end
-- ==== Proof.Keep.lean ====
/-
  What the buffers that only the first stretch of host operations (or nothing at all) writes hold along the run.

  The program's run is a fold of buffer contents through its segments: `Gen.W1` after the first stretch of host
  operations, `Gen.W2` at the first region's exit, `Gen.W3` after the second stretch, and so on. A buffer that a stretch's
  operations do not write keeps its contents through the stretch; a buffer that is not one of a region's arrays keeps its
  contents through the region. Hence the two rows of the edge index (as the first stretch slices and flattens them), and
  the argument arrays that the first six regions neither read as a window nor write, hold at every region exit up to the
  sixth what they held after the first stretch; and after the first stretch an argument array holds its launch contents,
  while the three buffers the stretch computes hold its operations' values of the launch contents.
-/
import proofs.«180979_j42322607735316_1_alg».proof.Proof.Gen.KernelIdeal.Frame
import Idealize.ShloMosaic.Lib.StableHlo.Run

set_option maxRecDepth 16384

noncomputable section

namespace Cert.KernelIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- A stretch of host operations leaves a buffer that none of them writes as it was: the stretch's list is unfolded,
    each operation's written buffer is its result, and the result is told apart from the buffer as a reference. -/
local macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))
/-! ## After the first stretch of host operations -/

/-- The first stretch writes no argument array: `main_arg0` is as launched. -/
theorem W1_main_arg0 (c : Dev nD) : Gen.W1 m ρ c (Proc.devRef .tc main_arg0) = m ((c : Thread nD τ).loc main_arg0) :=
  (show Gen.W1 m ρ c (Proc.devRef .tc main_arg0) = Gen.W0 m ρ c (Proc.devRef .tc main_arg0) by host_keeps hostOps0).trans rfl
/-- The first stretch writes no argument array: `main_arg2` is as launched. -/
theorem W1_main_arg2 (c : Dev nD) : Gen.W1 m ρ c (Proc.devRef .tc main_arg2) = m ((c : Thread nD τ).loc main_arg2) :=
  (show Gen.W1 m ρ c (Proc.devRef .tc main_arg2) = Gen.W0 m ρ c (Proc.devRef .tc main_arg2) by host_keeps hostOps0).trans rfl
/-- The first stretch writes no argument array: `main_arg3` is as launched. -/
theorem W1_main_arg3 (c : Dev nD) : Gen.W1 m ρ c (Proc.devRef .tc main_arg3) = m ((c : Thread nD τ).loc main_arg3) :=
  (show Gen.W1 m ρ c (Proc.devRef .tc main_arg3) = Gen.W0 m ρ c (Proc.devRef .tc main_arg3) by host_keeps hostOps0).trans rfl
/-- The first stretch writes no argument array: `main_arg5` is as launched. -/
theorem W1_main_arg5 (c : Dev nD) : Gen.W1 m ρ c (Proc.devRef .tc main_arg5) = m ((c : Thread nD τ).loc main_arg5) :=
  (show Gen.W1 m ρ c (Proc.devRef .tc main_arg5) = Gen.W0 m ρ c (Proc.devRef .tc main_arg5) by host_keeps hostOps0).trans rfl
/-- The first stretch writes no argument array: `main_arg6` is as launched. -/
theorem W1_main_arg6 (c : Dev nD) : Gen.W1 m ρ c (Proc.devRef .tc main_arg6) = m ((c : Thread nD τ).loc main_arg6) :=
  (show Gen.W1 m ρ c (Proc.devRef .tc main_arg6) = Gen.W0 m ρ c (Proc.devRef .tc main_arg6) by host_keeps hostOps0).trans rfl
/-- The first stretch writes no argument array: `main_arg7` is as launched. -/
theorem W1_main_arg7 (c : Dev nD) : Gen.W1 m ρ c (Proc.devRef .tc main_arg7) = m ((c : Thread nD τ).loc main_arg7) :=
  (show Gen.W1 m ρ c (Proc.devRef .tc main_arg7) = Gen.W0 m ρ c (Proc.devRef .tc main_arg7) by host_keeps hostOps0).trans rfl
/-- The first stretch writes no argument array: `main_arg8` is as launched. -/
theorem W1_main_arg8 (c : Dev nD) : Gen.W1 m ρ c (Proc.devRef .tc main_arg8) = m ((c : Thread nD τ).loc main_arg8) :=
  (show Gen.W1 m ρ c (Proc.devRef .tc main_arg8) = Gen.W0 m ρ c (Proc.devRef .tc main_arg8) by host_keeps hostOps0).trans rfl
/-- The first stretch writes no argument array: `main_arg9` is as launched. -/
theorem W1_main_arg9 (c : Dev nD) : Gen.W1 m ρ c (Proc.devRef .tc main_arg9) = m ((c : Thread nD τ).loc main_arg9) :=
  (show Gen.W1 m ρ c (Proc.devRef .tc main_arg9) = Gen.W0 m ρ c (Proc.devRef .tc main_arg9) by host_keeps hostOps0).trans rfl
/-- The first stretch writes no argument array: `main_arg10` is as launched. -/
theorem W1_main_arg10 (c : Dev nD) : Gen.W1 m ρ c (Proc.devRef .tc main_arg10) = m ((c : Thread nD τ).loc main_arg10) :=
  (show Gen.W1 m ρ c (Proc.devRef .tc main_arg10) = Gen.W0 m ρ c (Proc.devRef .tc main_arg10) by host_keeps hostOps0).trans rfl
/-- The first stretch writes no argument array: `main_arg11` is as launched. -/
theorem W1_main_arg11 (c : Dev nD) : Gen.W1 m ρ c (Proc.devRef .tc main_arg11) = m ((c : Thread nD τ).loc main_arg11) :=
  (show Gen.W1 m ρ c (Proc.devRef .tc main_arg11) = Gen.W0 m ρ c (Proc.devRef .tc main_arg11) by host_keeps hostOps0).trans rfl
/-- The first stretch writes no argument array: `main_arg12` is as launched. -/
theorem W1_main_arg12 (c : Dev nD) : Gen.W1 m ρ c (Proc.devRef .tc main_arg12) = m ((c : Thread nD τ).loc main_arg12) :=
  (show Gen.W1 m ρ c (Proc.devRef .tc main_arg12) = Gen.W0 m ρ c (Proc.devRef .tc main_arg12) by host_keeps hostOps0).trans rfl
/-- The first stretch writes no argument array: `main_arg13` is as launched. -/
theorem W1_main_arg13 (c : Dev nD) : Gen.W1 m ρ c (Proc.devRef .tc main_arg13) = m ((c : Thread nD τ).loc main_arg13) :=
  (show Gen.W1 m ρ c (Proc.devRef .tc main_arg13) = Gen.W0 m ρ c (Proc.devRef .tc main_arg13) by host_keeps hostOps0).trans rfl
/-- The first stretch writes no argument array: `main_arg14` is as launched. -/
theorem W1_main_arg14 (c : Dev nD) : Gen.W1 m ρ c (Proc.devRef .tc main_arg14) = m ((c : Thread nD τ).loc main_arg14) :=
  (show Gen.W1 m ρ c (Proc.devRef .tc main_arg14) = Gen.W0 m ρ c (Proc.devRef .tc main_arg14) by host_keeps hostOps0).trans rfl

/-- After the first stretch, `main_v1` is row 0 of the edge index (`main_arg1`, 2 × 400000), sliced out and flattened. -/
theorem W1_main_v1 (c : Dev nD) : Gen.W1 m ρ c (Proc.devRef .tc main_v1)
    = (shapeCast S400000 (extractStridedSlice S1x400000 ![0, 0] (m ((c : Thread nD τ).loc main_arg1)) slices_S2x400000_S1x400000_0_0)
        shapeCasts_S1x400000_S400000 : (⟨S400000, .i32⟩ : BufTy).Contents (Elt F)) := by
  show StableHlo.after hostOps0 _ (Proc.devRef .tc main_v1) = _
  after_results; rfl
/-- After the first stretch, `main_v3` is row 1 of the edge index, sliced out and flattened. -/
theorem W1_main_v3 (c : Dev nD) : Gen.W1 m ρ c (Proc.devRef .tc main_v3)
    = (shapeCast S400000 (extractStridedSlice S1x400000 ![1, 0] (m ((c : Thread nD τ).loc main_arg1)) slices_S2x400000_S1x400000_1_0)
        shapeCasts_S1x400000_S400000 : (⟨S400000, .i32⟩ : BufTy).Contents (Elt F)) := by
  show StableHlo.after hostOps0 _ (Proc.devRef .tc main_v3) = _
  after_results; rfl
/-- After the first stretch, `main_v4` is the vector `main_arg4` (128) as a row (1 × 128). -/
theorem W1_main_v4 (c : Dev nD) : Gen.W1 m ρ c (Proc.devRef .tc main_v4)
    = (shapeCast S1x128 (m ((c : Thread nD τ).loc main_arg4)) shapeCasts_S128_S1x128 : (⟨S1x128, .f32⟩ : BufTy).Contents (Elt F)) := by
  show StableHlo.after hostOps0 _ (Proc.devRef .tc main_v4) = _
  after_results; rfl

/-! # The buffers no later stretch and none of the first six regions writes: the two rows of the edge index
    (`main_v1`, `main_v3`) and the argument arrays `main_arg2`, `main_arg5` … `main_arg14` hold, at each of those regions'
    exits, what they held after the first stretch -/

/-! ## At region 0's exit (`Gen.W2`): none of these buffers is one of the region's arrays -/

theorem keep2_main_v1 (c : Dev nD) : Gen.W2 m ρ c (Proc.devRef .tc main_v1) = Gen.W1 m ρ c (Proc.devRef .tc main_v1) :=
  W2_of_ne m ρ c main_v1 (by decide)
theorem keep2_main_v3 (c : Dev nD) : Gen.W2 m ρ c (Proc.devRef .tc main_v3) = Gen.W1 m ρ c (Proc.devRef .tc main_v3) :=
  W2_of_ne m ρ c main_v3 (by decide)
theorem keep2_main_arg2 (c : Dev nD) : Gen.W2 m ρ c (Proc.devRef .tc main_arg2) = Gen.W1 m ρ c (Proc.devRef .tc main_arg2) :=
  W2_of_ne m ρ c main_arg2 (by decide)
theorem keep2_main_arg5 (c : Dev nD) : Gen.W2 m ρ c (Proc.devRef .tc main_arg5) = Gen.W1 m ρ c (Proc.devRef .tc main_arg5) :=
  W2_of_ne m ρ c main_arg5 (by decide)
theorem keep2_main_arg6 (c : Dev nD) : Gen.W2 m ρ c (Proc.devRef .tc main_arg6) = Gen.W1 m ρ c (Proc.devRef .tc main_arg6) :=
  W2_of_ne m ρ c main_arg6 (by decide)
theorem keep2_main_arg7 (c : Dev nD) : Gen.W2 m ρ c (Proc.devRef .tc main_arg7) = Gen.W1 m ρ c (Proc.devRef .tc main_arg7) :=
  W2_of_ne m ρ c main_arg7 (by decide)
theorem keep2_main_arg8 (c : Dev nD) : Gen.W2 m ρ c (Proc.devRef .tc main_arg8) = Gen.W1 m ρ c (Proc.devRef .tc main_arg8) :=
  W2_of_ne m ρ c main_arg8 (by decide)
theorem keep2_main_arg9 (c : Dev nD) : Gen.W2 m ρ c (Proc.devRef .tc main_arg9) = Gen.W1 m ρ c (Proc.devRef .tc main_arg9) :=
  W2_of_ne m ρ c main_arg9 (by decide)
theorem keep2_main_arg10 (c : Dev nD) : Gen.W2 m ρ c (Proc.devRef .tc main_arg10) = Gen.W1 m ρ c (Proc.devRef .tc main_arg10) :=
  W2_of_ne m ρ c main_arg10 (by decide)
theorem keep2_main_arg11 (c : Dev nD) : Gen.W2 m ρ c (Proc.devRef .tc main_arg11) = Gen.W1 m ρ c (Proc.devRef .tc main_arg11) :=
  W2_of_ne m ρ c main_arg11 (by decide)
theorem keep2_main_arg12 (c : Dev nD) : Gen.W2 m ρ c (Proc.devRef .tc main_arg12) = Gen.W1 m ρ c (Proc.devRef .tc main_arg12) :=
  W2_of_ne m ρ c main_arg12 (by decide)
theorem keep2_main_arg13 (c : Dev nD) : Gen.W2 m ρ c (Proc.devRef .tc main_arg13) = Gen.W1 m ρ c (Proc.devRef .tc main_arg13) :=
  W2_of_ne m ρ c main_arg13 (by decide)
theorem keep2_main_arg14 (c : Dev nD) : Gen.W2 m ρ c (Proc.devRef .tc main_arg14) = Gen.W1 m ρ c (Proc.devRef .tc main_arg14) :=
  W2_of_ne m ρ c main_arg14 (by decide)

/-! ## At region 1's exit (`Gen.W4`): the stretch before the region writes none of these buffers, and none is one of the region's arrays -/

theorem keep4_main_v1 (c : Dev nD) : Gen.W4 m ρ c (Proc.devRef .tc main_v1) = Gen.W1 m ρ c (Proc.devRef .tc main_v1) :=
  (W4_of_ne m ρ c main_v1 (by decide)).trans
    ((show Gen.W3 m ρ c (Proc.devRef .tc main_v1) = Gen.W2 m ρ c (Proc.devRef .tc main_v1) by host_keeps hostOps1).trans
      (keep2_main_v1 m ρ c))
theorem keep4_main_v3 (c : Dev nD) : Gen.W4 m ρ c (Proc.devRef .tc main_v3) = Gen.W1 m ρ c (Proc.devRef .tc main_v3) :=
  (W4_of_ne m ρ c main_v3 (by decide)).trans
    ((show Gen.W3 m ρ c (Proc.devRef .tc main_v3) = Gen.W2 m ρ c (Proc.devRef .tc main_v3) by host_keeps hostOps1).trans
      (keep2_main_v3 m ρ c))
theorem keep4_main_arg2 (c : Dev nD) : Gen.W4 m ρ c (Proc.devRef .tc main_arg2) = Gen.W1 m ρ c (Proc.devRef .tc main_arg2) :=
  (W4_of_ne m ρ c main_arg2 (by decide)).trans
    ((show Gen.W3 m ρ c (Proc.devRef .tc main_arg2) = Gen.W2 m ρ c (Proc.devRef .tc main_arg2) by host_keeps hostOps1).trans
      (keep2_main_arg2 m ρ c))
theorem keep4_main_arg5 (c : Dev nD) : Gen.W4 m ρ c (Proc.devRef .tc main_arg5) = Gen.W1 m ρ c (Proc.devRef .tc main_arg5) :=
  (W4_of_ne m ρ c main_arg5 (by decide)).trans
    ((show Gen.W3 m ρ c (Proc.devRef .tc main_arg5) = Gen.W2 m ρ c (Proc.devRef .tc main_arg5) by host_keeps hostOps1).trans
      (keep2_main_arg5 m ρ c))
theorem keep4_main_arg6 (c : Dev nD) : Gen.W4 m ρ c (Proc.devRef .tc main_arg6) = Gen.W1 m ρ c (Proc.devRef .tc main_arg6) :=
  (W4_of_ne m ρ c main_arg6 (by decide)).trans
    ((show Gen.W3 m ρ c (Proc.devRef .tc main_arg6) = Gen.W2 m ρ c (Proc.devRef .tc main_arg6) by host_keeps hostOps1).trans
      (keep2_main_arg6 m ρ c))
theorem keep4_main_arg7 (c : Dev nD) : Gen.W4 m ρ c (Proc.devRef .tc main_arg7) = Gen.W1 m ρ c (Proc.devRef .tc main_arg7) :=
  (W4_of_ne m ρ c main_arg7 (by decide)).trans
    ((show Gen.W3 m ρ c (Proc.devRef .tc main_arg7) = Gen.W2 m ρ c (Proc.devRef .tc main_arg7) by host_keeps hostOps1).trans
      (keep2_main_arg7 m ρ c))
theorem keep4_main_arg8 (c : Dev nD) : Gen.W4 m ρ c (Proc.devRef .tc main_arg8) = Gen.W1 m ρ c (Proc.devRef .tc main_arg8) :=
  (W4_of_ne m ρ c main_arg8 (by decide)).trans
    ((show Gen.W3 m ρ c (Proc.devRef .tc main_arg8) = Gen.W2 m ρ c (Proc.devRef .tc main_arg8) by host_keeps hostOps1).trans
      (keep2_main_arg8 m ρ c))
theorem keep4_main_arg9 (c : Dev nD) : Gen.W4 m ρ c (Proc.devRef .tc main_arg9) = Gen.W1 m ρ c (Proc.devRef .tc main_arg9) :=
  (W4_of_ne m ρ c main_arg9 (by decide)).trans
    ((show Gen.W3 m ρ c (Proc.devRef .tc main_arg9) = Gen.W2 m ρ c (Proc.devRef .tc main_arg9) by host_keeps hostOps1).trans
      (keep2_main_arg9 m ρ c))
theorem keep4_main_arg10 (c : Dev nD) : Gen.W4 m ρ c (Proc.devRef .tc main_arg10) = Gen.W1 m ρ c (Proc.devRef .tc main_arg10) :=
  (W4_of_ne m ρ c main_arg10 (by decide)).trans
    ((show Gen.W3 m ρ c (Proc.devRef .tc main_arg10) = Gen.W2 m ρ c (Proc.devRef .tc main_arg10) by host_keeps hostOps1).trans
      (keep2_main_arg10 m ρ c))
theorem keep4_main_arg11 (c : Dev nD) : Gen.W4 m ρ c (Proc.devRef .tc main_arg11) = Gen.W1 m ρ c (Proc.devRef .tc main_arg11) :=
  (W4_of_ne m ρ c main_arg11 (by decide)).trans
    ((show Gen.W3 m ρ c (Proc.devRef .tc main_arg11) = Gen.W2 m ρ c (Proc.devRef .tc main_arg11) by host_keeps hostOps1).trans
      (keep2_main_arg11 m ρ c))
theorem keep4_main_arg12 (c : Dev nD) : Gen.W4 m ρ c (Proc.devRef .tc main_arg12) = Gen.W1 m ρ c (Proc.devRef .tc main_arg12) :=
  (W4_of_ne m ρ c main_arg12 (by decide)).trans
    ((show Gen.W3 m ρ c (Proc.devRef .tc main_arg12) = Gen.W2 m ρ c (Proc.devRef .tc main_arg12) by host_keeps hostOps1).trans
      (keep2_main_arg12 m ρ c))
theorem keep4_main_arg13 (c : Dev nD) : Gen.W4 m ρ c (Proc.devRef .tc main_arg13) = Gen.W1 m ρ c (Proc.devRef .tc main_arg13) :=
  (W4_of_ne m ρ c main_arg13 (by decide)).trans
    ((show Gen.W3 m ρ c (Proc.devRef .tc main_arg13) = Gen.W2 m ρ c (Proc.devRef .tc main_arg13) by host_keeps hostOps1).trans
      (keep2_main_arg13 m ρ c))
theorem keep4_main_arg14 (c : Dev nD) : Gen.W4 m ρ c (Proc.devRef .tc main_arg14) = Gen.W1 m ρ c (Proc.devRef .tc main_arg14) :=
  (W4_of_ne m ρ c main_arg14 (by decide)).trans
    ((show Gen.W3 m ρ c (Proc.devRef .tc main_arg14) = Gen.W2 m ρ c (Proc.devRef .tc main_arg14) by host_keeps hostOps1).trans
      (keep2_main_arg14 m ρ c))

/-! ## At region 2's exit (`Gen.W6`): the stretch before the region writes none of these buffers, and none is one of the region's arrays -/

theorem keep6_main_v1 (c : Dev nD) : Gen.W6 m ρ c (Proc.devRef .tc main_v1) = Gen.W1 m ρ c (Proc.devRef .tc main_v1) :=
  (W6_of_ne m ρ c main_v1 (by decide)).trans
    ((show Gen.W5 m ρ c (Proc.devRef .tc main_v1) = Gen.W4 m ρ c (Proc.devRef .tc main_v1) by host_keeps hostOps2).trans
      (keep4_main_v1 m ρ c))
theorem keep6_main_v3 (c : Dev nD) : Gen.W6 m ρ c (Proc.devRef .tc main_v3) = Gen.W1 m ρ c (Proc.devRef .tc main_v3) :=
  (W6_of_ne m ρ c main_v3 (by decide)).trans
    ((show Gen.W5 m ρ c (Proc.devRef .tc main_v3) = Gen.W4 m ρ c (Proc.devRef .tc main_v3) by host_keeps hostOps2).trans
      (keep4_main_v3 m ρ c))
theorem keep6_main_arg2 (c : Dev nD) : Gen.W6 m ρ c (Proc.devRef .tc main_arg2) = Gen.W1 m ρ c (Proc.devRef .tc main_arg2) :=
  (W6_of_ne m ρ c main_arg2 (by decide)).trans
    ((show Gen.W5 m ρ c (Proc.devRef .tc main_arg2) = Gen.W4 m ρ c (Proc.devRef .tc main_arg2) by host_keeps hostOps2).trans
      (keep4_main_arg2 m ρ c))
theorem keep6_main_arg5 (c : Dev nD) : Gen.W6 m ρ c (Proc.devRef .tc main_arg5) = Gen.W1 m ρ c (Proc.devRef .tc main_arg5) :=
  (W6_of_ne m ρ c main_arg5 (by decide)).trans
    ((show Gen.W5 m ρ c (Proc.devRef .tc main_arg5) = Gen.W4 m ρ c (Proc.devRef .tc main_arg5) by host_keeps hostOps2).trans
      (keep4_main_arg5 m ρ c))
theorem keep6_main_arg6 (c : Dev nD) : Gen.W6 m ρ c (Proc.devRef .tc main_arg6) = Gen.W1 m ρ c (Proc.devRef .tc main_arg6) :=
  (W6_of_ne m ρ c main_arg6 (by decide)).trans
    ((show Gen.W5 m ρ c (Proc.devRef .tc main_arg6) = Gen.W4 m ρ c (Proc.devRef .tc main_arg6) by host_keeps hostOps2).trans
      (keep4_main_arg6 m ρ c))
theorem keep6_main_arg7 (c : Dev nD) : Gen.W6 m ρ c (Proc.devRef .tc main_arg7) = Gen.W1 m ρ c (Proc.devRef .tc main_arg7) :=
  (W6_of_ne m ρ c main_arg7 (by decide)).trans
    ((show Gen.W5 m ρ c (Proc.devRef .tc main_arg7) = Gen.W4 m ρ c (Proc.devRef .tc main_arg7) by host_keeps hostOps2).trans
      (keep4_main_arg7 m ρ c))
theorem keep6_main_arg8 (c : Dev nD) : Gen.W6 m ρ c (Proc.devRef .tc main_arg8) = Gen.W1 m ρ c (Proc.devRef .tc main_arg8) :=
  (W6_of_ne m ρ c main_arg8 (by decide)).trans
    ((show Gen.W5 m ρ c (Proc.devRef .tc main_arg8) = Gen.W4 m ρ c (Proc.devRef .tc main_arg8) by host_keeps hostOps2).trans
      (keep4_main_arg8 m ρ c))
theorem keep6_main_arg9 (c : Dev nD) : Gen.W6 m ρ c (Proc.devRef .tc main_arg9) = Gen.W1 m ρ c (Proc.devRef .tc main_arg9) :=
  (W6_of_ne m ρ c main_arg9 (by decide)).trans
    ((show Gen.W5 m ρ c (Proc.devRef .tc main_arg9) = Gen.W4 m ρ c (Proc.devRef .tc main_arg9) by host_keeps hostOps2).trans
      (keep4_main_arg9 m ρ c))
theorem keep6_main_arg10 (c : Dev nD) : Gen.W6 m ρ c (Proc.devRef .tc main_arg10) = Gen.W1 m ρ c (Proc.devRef .tc main_arg10) :=
  (W6_of_ne m ρ c main_arg10 (by decide)).trans
    ((show Gen.W5 m ρ c (Proc.devRef .tc main_arg10) = Gen.W4 m ρ c (Proc.devRef .tc main_arg10) by host_keeps hostOps2).trans
      (keep4_main_arg10 m ρ c))
theorem keep6_main_arg11 (c : Dev nD) : Gen.W6 m ρ c (Proc.devRef .tc main_arg11) = Gen.W1 m ρ c (Proc.devRef .tc main_arg11) :=
  (W6_of_ne m ρ c main_arg11 (by decide)).trans
    ((show Gen.W5 m ρ c (Proc.devRef .tc main_arg11) = Gen.W4 m ρ c (Proc.devRef .tc main_arg11) by host_keeps hostOps2).trans
      (keep4_main_arg11 m ρ c))
theorem keep6_main_arg12 (c : Dev nD) : Gen.W6 m ρ c (Proc.devRef .tc main_arg12) = Gen.W1 m ρ c (Proc.devRef .tc main_arg12) :=
  (W6_of_ne m ρ c main_arg12 (by decide)).trans
    ((show Gen.W5 m ρ c (Proc.devRef .tc main_arg12) = Gen.W4 m ρ c (Proc.devRef .tc main_arg12) by host_keeps hostOps2).trans
      (keep4_main_arg12 m ρ c))
theorem keep6_main_arg13 (c : Dev nD) : Gen.W6 m ρ c (Proc.devRef .tc main_arg13) = Gen.W1 m ρ c (Proc.devRef .tc main_arg13) :=
  (W6_of_ne m ρ c main_arg13 (by decide)).trans
    ((show Gen.W5 m ρ c (Proc.devRef .tc main_arg13) = Gen.W4 m ρ c (Proc.devRef .tc main_arg13) by host_keeps hostOps2).trans
      (keep4_main_arg13 m ρ c))
theorem keep6_main_arg14 (c : Dev nD) : Gen.W6 m ρ c (Proc.devRef .tc main_arg14) = Gen.W1 m ρ c (Proc.devRef .tc main_arg14) :=
  (W6_of_ne m ρ c main_arg14 (by decide)).trans
    ((show Gen.W5 m ρ c (Proc.devRef .tc main_arg14) = Gen.W4 m ρ c (Proc.devRef .tc main_arg14) by host_keeps hostOps2).trans
      (keep4_main_arg14 m ρ c))

/-! ## At region 3's exit (`Gen.W8`): the stretch before the region writes none of these buffers, and none is one of the region's arrays -/

theorem keep8_main_v1 (c : Dev nD) : Gen.W8 m ρ c (Proc.devRef .tc main_v1) = Gen.W1 m ρ c (Proc.devRef .tc main_v1) :=
  (W8_of_ne m ρ c main_v1 (by decide)).trans
    ((show Gen.W7 m ρ c (Proc.devRef .tc main_v1) = Gen.W6 m ρ c (Proc.devRef .tc main_v1) by host_keeps hostOps3).trans
      (keep6_main_v1 m ρ c))
theorem keep8_main_v3 (c : Dev nD) : Gen.W8 m ρ c (Proc.devRef .tc main_v3) = Gen.W1 m ρ c (Proc.devRef .tc main_v3) :=
  (W8_of_ne m ρ c main_v3 (by decide)).trans
    ((show Gen.W7 m ρ c (Proc.devRef .tc main_v3) = Gen.W6 m ρ c (Proc.devRef .tc main_v3) by host_keeps hostOps3).trans
      (keep6_main_v3 m ρ c))
theorem keep8_main_arg2 (c : Dev nD) : Gen.W8 m ρ c (Proc.devRef .tc main_arg2) = Gen.W1 m ρ c (Proc.devRef .tc main_arg2) :=
  (W8_of_ne m ρ c main_arg2 (by decide)).trans
    ((show Gen.W7 m ρ c (Proc.devRef .tc main_arg2) = Gen.W6 m ρ c (Proc.devRef .tc main_arg2) by host_keeps hostOps3).trans
      (keep6_main_arg2 m ρ c))
theorem keep8_main_arg5 (c : Dev nD) : Gen.W8 m ρ c (Proc.devRef .tc main_arg5) = Gen.W1 m ρ c (Proc.devRef .tc main_arg5) :=
  (W8_of_ne m ρ c main_arg5 (by decide)).trans
    ((show Gen.W7 m ρ c (Proc.devRef .tc main_arg5) = Gen.W6 m ρ c (Proc.devRef .tc main_arg5) by host_keeps hostOps3).trans
      (keep6_main_arg5 m ρ c))
theorem keep8_main_arg6 (c : Dev nD) : Gen.W8 m ρ c (Proc.devRef .tc main_arg6) = Gen.W1 m ρ c (Proc.devRef .tc main_arg6) :=
  (W8_of_ne m ρ c main_arg6 (by decide)).trans
    ((show Gen.W7 m ρ c (Proc.devRef .tc main_arg6) = Gen.W6 m ρ c (Proc.devRef .tc main_arg6) by host_keeps hostOps3).trans
      (keep6_main_arg6 m ρ c))
theorem keep8_main_arg7 (c : Dev nD) : Gen.W8 m ρ c (Proc.devRef .tc main_arg7) = Gen.W1 m ρ c (Proc.devRef .tc main_arg7) :=
  (W8_of_ne m ρ c main_arg7 (by decide)).trans
    ((show Gen.W7 m ρ c (Proc.devRef .tc main_arg7) = Gen.W6 m ρ c (Proc.devRef .tc main_arg7) by host_keeps hostOps3).trans
      (keep6_main_arg7 m ρ c))
theorem keep8_main_arg8 (c : Dev nD) : Gen.W8 m ρ c (Proc.devRef .tc main_arg8) = Gen.W1 m ρ c (Proc.devRef .tc main_arg8) :=
  (W8_of_ne m ρ c main_arg8 (by decide)).trans
    ((show Gen.W7 m ρ c (Proc.devRef .tc main_arg8) = Gen.W6 m ρ c (Proc.devRef .tc main_arg8) by host_keeps hostOps3).trans
      (keep6_main_arg8 m ρ c))
theorem keep8_main_arg9 (c : Dev nD) : Gen.W8 m ρ c (Proc.devRef .tc main_arg9) = Gen.W1 m ρ c (Proc.devRef .tc main_arg9) :=
  (W8_of_ne m ρ c main_arg9 (by decide)).trans
    ((show Gen.W7 m ρ c (Proc.devRef .tc main_arg9) = Gen.W6 m ρ c (Proc.devRef .tc main_arg9) by host_keeps hostOps3).trans
      (keep6_main_arg9 m ρ c))
theorem keep8_main_arg10 (c : Dev nD) : Gen.W8 m ρ c (Proc.devRef .tc main_arg10) = Gen.W1 m ρ c (Proc.devRef .tc main_arg10) :=
  (W8_of_ne m ρ c main_arg10 (by decide)).trans
    ((show Gen.W7 m ρ c (Proc.devRef .tc main_arg10) = Gen.W6 m ρ c (Proc.devRef .tc main_arg10) by host_keeps hostOps3).trans
      (keep6_main_arg10 m ρ c))
theorem keep8_main_arg11 (c : Dev nD) : Gen.W8 m ρ c (Proc.devRef .tc main_arg11) = Gen.W1 m ρ c (Proc.devRef .tc main_arg11) :=
  (W8_of_ne m ρ c main_arg11 (by decide)).trans
    ((show Gen.W7 m ρ c (Proc.devRef .tc main_arg11) = Gen.W6 m ρ c (Proc.devRef .tc main_arg11) by host_keeps hostOps3).trans
      (keep6_main_arg11 m ρ c))
theorem keep8_main_arg12 (c : Dev nD) : Gen.W8 m ρ c (Proc.devRef .tc main_arg12) = Gen.W1 m ρ c (Proc.devRef .tc main_arg12) :=
  (W8_of_ne m ρ c main_arg12 (by decide)).trans
    ((show Gen.W7 m ρ c (Proc.devRef .tc main_arg12) = Gen.W6 m ρ c (Proc.devRef .tc main_arg12) by host_keeps hostOps3).trans
      (keep6_main_arg12 m ρ c))
theorem keep8_main_arg13 (c : Dev nD) : Gen.W8 m ρ c (Proc.devRef .tc main_arg13) = Gen.W1 m ρ c (Proc.devRef .tc main_arg13) :=
  (W8_of_ne m ρ c main_arg13 (by decide)).trans
    ((show Gen.W7 m ρ c (Proc.devRef .tc main_arg13) = Gen.W6 m ρ c (Proc.devRef .tc main_arg13) by host_keeps hostOps3).trans
      (keep6_main_arg13 m ρ c))
theorem keep8_main_arg14 (c : Dev nD) : Gen.W8 m ρ c (Proc.devRef .tc main_arg14) = Gen.W1 m ρ c (Proc.devRef .tc main_arg14) :=
  (W8_of_ne m ρ c main_arg14 (by decide)).trans
    ((show Gen.W7 m ρ c (Proc.devRef .tc main_arg14) = Gen.W6 m ρ c (Proc.devRef .tc main_arg14) by host_keeps hostOps3).trans
      (keep6_main_arg14 m ρ c))

/-! ## At region 4's exit (`Gen.W10`): the stretch before the region writes none of these buffers, and none is one of the region's arrays -/

theorem keep10_main_v1 (c : Dev nD) : Gen.W10 m ρ c (Proc.devRef .tc main_v1) = Gen.W1 m ρ c (Proc.devRef .tc main_v1) :=
  (W10_of_ne m ρ c main_v1 (by decide)).trans
    ((show Gen.W9 m ρ c (Proc.devRef .tc main_v1) = Gen.W8 m ρ c (Proc.devRef .tc main_v1) by host_keeps hostOps4).trans
      (keep8_main_v1 m ρ c))
theorem keep10_main_v3 (c : Dev nD) : Gen.W10 m ρ c (Proc.devRef .tc main_v3) = Gen.W1 m ρ c (Proc.devRef .tc main_v3) :=
  (W10_of_ne m ρ c main_v3 (by decide)).trans
    ((show Gen.W9 m ρ c (Proc.devRef .tc main_v3) = Gen.W8 m ρ c (Proc.devRef .tc main_v3) by host_keeps hostOps4).trans
      (keep8_main_v3 m ρ c))
theorem keep10_main_arg2 (c : Dev nD) : Gen.W10 m ρ c (Proc.devRef .tc main_arg2) = Gen.W1 m ρ c (Proc.devRef .tc main_arg2) :=
  (W10_of_ne m ρ c main_arg2 (by decide)).trans
    ((show Gen.W9 m ρ c (Proc.devRef .tc main_arg2) = Gen.W8 m ρ c (Proc.devRef .tc main_arg2) by host_keeps hostOps4).trans
      (keep8_main_arg2 m ρ c))
theorem keep10_main_arg5 (c : Dev nD) : Gen.W10 m ρ c (Proc.devRef .tc main_arg5) = Gen.W1 m ρ c (Proc.devRef .tc main_arg5) :=
  (W10_of_ne m ρ c main_arg5 (by decide)).trans
    ((show Gen.W9 m ρ c (Proc.devRef .tc main_arg5) = Gen.W8 m ρ c (Proc.devRef .tc main_arg5) by host_keeps hostOps4).trans
      (keep8_main_arg5 m ρ c))
theorem keep10_main_arg6 (c : Dev nD) : Gen.W10 m ρ c (Proc.devRef .tc main_arg6) = Gen.W1 m ρ c (Proc.devRef .tc main_arg6) :=
  (W10_of_ne m ρ c main_arg6 (by decide)).trans
    ((show Gen.W9 m ρ c (Proc.devRef .tc main_arg6) = Gen.W8 m ρ c (Proc.devRef .tc main_arg6) by host_keeps hostOps4).trans
      (keep8_main_arg6 m ρ c))
theorem keep10_main_arg7 (c : Dev nD) : Gen.W10 m ρ c (Proc.devRef .tc main_arg7) = Gen.W1 m ρ c (Proc.devRef .tc main_arg7) :=
  (W10_of_ne m ρ c main_arg7 (by decide)).trans
    ((show Gen.W9 m ρ c (Proc.devRef .tc main_arg7) = Gen.W8 m ρ c (Proc.devRef .tc main_arg7) by host_keeps hostOps4).trans
      (keep8_main_arg7 m ρ c))
theorem keep10_main_arg8 (c : Dev nD) : Gen.W10 m ρ c (Proc.devRef .tc main_arg8) = Gen.W1 m ρ c (Proc.devRef .tc main_arg8) :=
  (W10_of_ne m ρ c main_arg8 (by decide)).trans
    ((show Gen.W9 m ρ c (Proc.devRef .tc main_arg8) = Gen.W8 m ρ c (Proc.devRef .tc main_arg8) by host_keeps hostOps4).trans
      (keep8_main_arg8 m ρ c))
theorem keep10_main_arg9 (c : Dev nD) : Gen.W10 m ρ c (Proc.devRef .tc main_arg9) = Gen.W1 m ρ c (Proc.devRef .tc main_arg9) :=
  (W10_of_ne m ρ c main_arg9 (by decide)).trans
    ((show Gen.W9 m ρ c (Proc.devRef .tc main_arg9) = Gen.W8 m ρ c (Proc.devRef .tc main_arg9) by host_keeps hostOps4).trans
      (keep8_main_arg9 m ρ c))
theorem keep10_main_arg10 (c : Dev nD) : Gen.W10 m ρ c (Proc.devRef .tc main_arg10) = Gen.W1 m ρ c (Proc.devRef .tc main_arg10) :=
  (W10_of_ne m ρ c main_arg10 (by decide)).trans
    ((show Gen.W9 m ρ c (Proc.devRef .tc main_arg10) = Gen.W8 m ρ c (Proc.devRef .tc main_arg10) by host_keeps hostOps4).trans
      (keep8_main_arg10 m ρ c))
theorem keep10_main_arg11 (c : Dev nD) : Gen.W10 m ρ c (Proc.devRef .tc main_arg11) = Gen.W1 m ρ c (Proc.devRef .tc main_arg11) :=
  (W10_of_ne m ρ c main_arg11 (by decide)).trans
    ((show Gen.W9 m ρ c (Proc.devRef .tc main_arg11) = Gen.W8 m ρ c (Proc.devRef .tc main_arg11) by host_keeps hostOps4).trans
      (keep8_main_arg11 m ρ c))
theorem keep10_main_arg12 (c : Dev nD) : Gen.W10 m ρ c (Proc.devRef .tc main_arg12) = Gen.W1 m ρ c (Proc.devRef .tc main_arg12) :=
  (W10_of_ne m ρ c main_arg12 (by decide)).trans
    ((show Gen.W9 m ρ c (Proc.devRef .tc main_arg12) = Gen.W8 m ρ c (Proc.devRef .tc main_arg12) by host_keeps hostOps4).trans
      (keep8_main_arg12 m ρ c))
theorem keep10_main_arg13 (c : Dev nD) : Gen.W10 m ρ c (Proc.devRef .tc main_arg13) = Gen.W1 m ρ c (Proc.devRef .tc main_arg13) :=
  (W10_of_ne m ρ c main_arg13 (by decide)).trans
    ((show Gen.W9 m ρ c (Proc.devRef .tc main_arg13) = Gen.W8 m ρ c (Proc.devRef .tc main_arg13) by host_keeps hostOps4).trans
      (keep8_main_arg13 m ρ c))
theorem keep10_main_arg14 (c : Dev nD) : Gen.W10 m ρ c (Proc.devRef .tc main_arg14) = Gen.W1 m ρ c (Proc.devRef .tc main_arg14) :=
  (W10_of_ne m ρ c main_arg14 (by decide)).trans
    ((show Gen.W9 m ρ c (Proc.devRef .tc main_arg14) = Gen.W8 m ρ c (Proc.devRef .tc main_arg14) by host_keeps hostOps4).trans
      (keep8_main_arg14 m ρ c))

/-! ## At region 5's exit (`Gen.W12`): the stretch before the region writes none of these buffers, and none is one of the region's arrays -/

theorem keep12_main_v1 (c : Dev nD) : Gen.W12 m ρ c (Proc.devRef .tc main_v1) = Gen.W1 m ρ c (Proc.devRef .tc main_v1) :=
  (W12_of_ne m ρ c main_v1 (by decide)).trans
    ((show Gen.W11 m ρ c (Proc.devRef .tc main_v1) = Gen.W10 m ρ c (Proc.devRef .tc main_v1) by host_keeps hostOps5).trans
      (keep10_main_v1 m ρ c))
theorem keep12_main_v3 (c : Dev nD) : Gen.W12 m ρ c (Proc.devRef .tc main_v3) = Gen.W1 m ρ c (Proc.devRef .tc main_v3) :=
  (W12_of_ne m ρ c main_v3 (by decide)).trans
    ((show Gen.W11 m ρ c (Proc.devRef .tc main_v3) = Gen.W10 m ρ c (Proc.devRef .tc main_v3) by host_keeps hostOps5).trans
      (keep10_main_v3 m ρ c))
theorem keep12_main_arg2 (c : Dev nD) : Gen.W12 m ρ c (Proc.devRef .tc main_arg2) = Gen.W1 m ρ c (Proc.devRef .tc main_arg2) :=
  (W12_of_ne m ρ c main_arg2 (by decide)).trans
    ((show Gen.W11 m ρ c (Proc.devRef .tc main_arg2) = Gen.W10 m ρ c (Proc.devRef .tc main_arg2) by host_keeps hostOps5).trans
      (keep10_main_arg2 m ρ c))
theorem keep12_main_arg5 (c : Dev nD) : Gen.W12 m ρ c (Proc.devRef .tc main_arg5) = Gen.W1 m ρ c (Proc.devRef .tc main_arg5) :=
  (W12_of_ne m ρ c main_arg5 (by decide)).trans
    ((show Gen.W11 m ρ c (Proc.devRef .tc main_arg5) = Gen.W10 m ρ c (Proc.devRef .tc main_arg5) by host_keeps hostOps5).trans
      (keep10_main_arg5 m ρ c))
theorem keep12_main_arg6 (c : Dev nD) : Gen.W12 m ρ c (Proc.devRef .tc main_arg6) = Gen.W1 m ρ c (Proc.devRef .tc main_arg6) :=
  (W12_of_ne m ρ c main_arg6 (by decide)).trans
    ((show Gen.W11 m ρ c (Proc.devRef .tc main_arg6) = Gen.W10 m ρ c (Proc.devRef .tc main_arg6) by host_keeps hostOps5).trans
      (keep10_main_arg6 m ρ c))
theorem keep12_main_arg7 (c : Dev nD) : Gen.W12 m ρ c (Proc.devRef .tc main_arg7) = Gen.W1 m ρ c (Proc.devRef .tc main_arg7) :=
  (W12_of_ne m ρ c main_arg7 (by decide)).trans
    ((show Gen.W11 m ρ c (Proc.devRef .tc main_arg7) = Gen.W10 m ρ c (Proc.devRef .tc main_arg7) by host_keeps hostOps5).trans
      (keep10_main_arg7 m ρ c))
theorem keep12_main_arg8 (c : Dev nD) : Gen.W12 m ρ c (Proc.devRef .tc main_arg8) = Gen.W1 m ρ c (Proc.devRef .tc main_arg8) :=
  (W12_of_ne m ρ c main_arg8 (by decide)).trans
    ((show Gen.W11 m ρ c (Proc.devRef .tc main_arg8) = Gen.W10 m ρ c (Proc.devRef .tc main_arg8) by host_keeps hostOps5).trans
      (keep10_main_arg8 m ρ c))
theorem keep12_main_arg9 (c : Dev nD) : Gen.W12 m ρ c (Proc.devRef .tc main_arg9) = Gen.W1 m ρ c (Proc.devRef .tc main_arg9) :=
  (W12_of_ne m ρ c main_arg9 (by decide)).trans
    ((show Gen.W11 m ρ c (Proc.devRef .tc main_arg9) = Gen.W10 m ρ c (Proc.devRef .tc main_arg9) by host_keeps hostOps5).trans
      (keep10_main_arg9 m ρ c))
theorem keep12_main_arg10 (c : Dev nD) : Gen.W12 m ρ c (Proc.devRef .tc main_arg10) = Gen.W1 m ρ c (Proc.devRef .tc main_arg10) :=
  (W12_of_ne m ρ c main_arg10 (by decide)).trans
    ((show Gen.W11 m ρ c (Proc.devRef .tc main_arg10) = Gen.W10 m ρ c (Proc.devRef .tc main_arg10) by host_keeps hostOps5).trans
      (keep10_main_arg10 m ρ c))
theorem keep12_main_arg11 (c : Dev nD) : Gen.W12 m ρ c (Proc.devRef .tc main_arg11) = Gen.W1 m ρ c (Proc.devRef .tc main_arg11) :=
  (W12_of_ne m ρ c main_arg11 (by decide)).trans
    ((show Gen.W11 m ρ c (Proc.devRef .tc main_arg11) = Gen.W10 m ρ c (Proc.devRef .tc main_arg11) by host_keeps hostOps5).trans
      (keep10_main_arg11 m ρ c))
theorem keep12_main_arg12 (c : Dev nD) : Gen.W12 m ρ c (Proc.devRef .tc main_arg12) = Gen.W1 m ρ c (Proc.devRef .tc main_arg12) :=
  (W12_of_ne m ρ c main_arg12 (by decide)).trans
    ((show Gen.W11 m ρ c (Proc.devRef .tc main_arg12) = Gen.W10 m ρ c (Proc.devRef .tc main_arg12) by host_keeps hostOps5).trans
      (keep10_main_arg12 m ρ c))
theorem keep12_main_arg13 (c : Dev nD) : Gen.W12 m ρ c (Proc.devRef .tc main_arg13) = Gen.W1 m ρ c (Proc.devRef .tc main_arg13) :=
  (W12_of_ne m ρ c main_arg13 (by decide)).trans
    ((show Gen.W11 m ρ c (Proc.devRef .tc main_arg13) = Gen.W10 m ρ c (Proc.devRef .tc main_arg13) by host_keeps hostOps5).trans
      (keep10_main_arg13 m ρ c))
theorem keep12_main_arg14 (c : Dev nD) : Gen.W12 m ρ c (Proc.devRef .tc main_arg14) = Gen.W1 m ρ c (Proc.devRef .tc main_arg14) :=
  (W12_of_ne m ρ c main_arg14 (by decide)).trans
    ((show Gen.W11 m ρ c (Proc.devRef .tc main_arg14) = Gen.W10 m ρ c (Proc.devRef .tc main_arg14) by host_keeps hostOps5).trans
      (keep10_main_arg14 m ρ c))

end Cert.KernelIdeal.Keep

end
-- ==== Proof.Chain.lean ====
/-
  The run's boundary values chained into the network.

  Each region's result array, at the region's exit, is the region's whole-array function of the arrays the region was entered
  with; those are what the stretch of host operations before the region computes from the contents at the previous exit.
  Reading each of them back — the previous node states where they were left, the edge rows and the argument arrays at their
  launch contents — turns every boundary value into one step of the network: the embedding, the five layers, the pooled
  three-layer perceptron. Composed, the result array at the last exit is the network of the fifteen launch arrays.
-/
import proofs.«180979_j42322607735316_1_alg».proof.Proof.Gen.KernelIdeal.Frame
import proofs.«180979_j42322607735316_1_alg».proof.Proof.Region0
import proofs.«180979_j42322607735316_1_alg».proof.Proof.Region1
import proofs.«180979_j42322607735316_1_alg».proof.Proof.Region2
import proofs.«180979_j42322607735316_1_alg».proof.Proof.Region3
import proofs.«180979_j42322607735316_1_alg».proof.Proof.Region4
import proofs.«180979_j42322607735316_1_alg».proof.Proof.Region5
import proofs.«180979_j42322607735316_1_alg».proof.Proof.Region6
import proofs.«180979_j42322607735316_1_alg».proof.Proof.Net
import proofs.«180979_j42322607735316_1_alg».proof.Proof.Keep
import Idealize.ShloMosaic.Lib.StableHlo.Run

set_option maxRecDepth 16384

noncomputable section

namespace Cert.KernelIdeal.Chain

open Idealize.ShloMosaic Idealize.ShloMosaic.TcCoe Idealize.ShloMosaic.Tactic
open Idealize.SL.Sem
open Cert.KernelIdeal.Gen

variable (m : (ℓ : Loc nD τ sig) → Buf (Elt Ideal) ℓ) (ρ : Dev nD → PrngReg) (c : Dev nD)

/-- A stretch of host operations leaves a buffer that none of them writes as it was. -/
local macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Region 0: the embedding of the launch arrays -/

/-- At region 0's exit the states are the embedding of the node features by the first weight matrix and bias. -/
theorem c0 : Gen.W2 m ρ c (Proc.devRef .tc main_v5) = Net.h0 (m ((c : Thread nD τ).loc main_arg0)) (m ((c : Thread nD τ).loc main_arg3)) (m ((c : Thread nD τ).loc main_arg4)) := by
  refine ((Gen.W2_arr m ρ c 3).trans (Region0.arr (Gen.V1 m ρ) c)).trans ?_
  show GinLayers.hostDense (M := 100000) (K := 75) (N := 128) _ (Gen.W1 m ρ c (Proc.devRef .tc main_arg0))
      (Gen.W1 m ρ c (Proc.devRef .tc main_arg3)) (Gen.W1 m ρ c (Proc.devRef .tc main_v4)) = _
  rw [Keep.W1_main_arg0 m ρ c, Keep.W1_main_arg3 m ρ c, Keep.W1_main_v4 m ρ c]
  rfl

/-! ## Region 1: layer 1 of the states at region 0's exit

What the stretch before the region leaves in the region's six input arrays, from the contents at region 0's exit. -/

/-- The stretch does not write the states. -/
theorem e1_h : Gen.W3 m ρ c (Proc.devRef .tc main_v5) = Gen.W2 m ρ c (Proc.devRef .tc main_v5) := by
  host_keeps hostOps1
/-- The neighbour sums of the states, along the launch edge index. -/
theorem e1_agg : Gen.W3 m ρ c (Proc.devRef .tc main_v15) = Net.agg (m ((c : Thread nD τ).loc main_arg1)) (Gen.W2 m ρ c (Proc.devRef .tc main_v5)) := by
  have k1 : Gen.W2 m ρ c (Proc.devRef .tc main_v1) = Net.src (m ((c : Thread nD τ).loc main_arg1)) :=
    (Keep.keep2_main_v1 m ρ c).trans (Keep.W1_main_v1 m ρ c)
  have k3 : Gen.W2 m ρ c (Proc.devRef .tc main_v3) = Net.dst (m ((c : Thread nD τ).loc main_arg1)) :=
    (Keep.keep2_main_v3 m ρ c).trans (Keep.W1_main_v3 m ρ c)
  show StableHlo.after hostOps1 (Gen.W2 m ρ c) (Proc.devRef .tc main_v15) = _
  generalize Gen.W2 m ρ c = X at k1 k3 ⊢
  after_results_simp
  rw [k1, k3]
  rfl
/-- The layer's slices of the launch weight and bias arrays. -/
theorem e1_w1 : Gen.W3 m ρ c (Proc.devRef .tc main_v17) = Net.wmat ![0, 0, 0] slices_S5x128x128_S1x128x128_0_0_0 (m ((c : Thread nD τ).loc main_arg5)) := by
  show StableHlo.after hostOps1 (Gen.W2 m ρ c) (Proc.devRef .tc main_v17) = _
  after_results_simp
  rw [Keep.keep2_main_arg5 m ρ c, Keep.W1_main_arg5 m ρ c]
  rfl
theorem e1_b1 : Gen.W3 m ρ c (Proc.devRef .tc main_v24) = Net.brow ![0, 0] slices_S5x128_S1x128_0_0 (m ((c : Thread nD τ).loc main_arg6)) := by
  show StableHlo.after hostOps1 (Gen.W2 m ρ c) (Proc.devRef .tc main_v24) = _
  after_results_simp
  rw [Keep.keep2_main_arg6 m ρ c, Keep.W1_main_arg6 m ρ c]
  rfl
theorem e1_w2 : Gen.W3 m ρ c (Proc.devRef .tc main_v21) = Net.wmat ![0, 0, 0] slices_S5x128x128_S1x128x128_0_0_0 (m ((c : Thread nD τ).loc main_arg7)) := by
  show StableHlo.after hostOps1 (Gen.W2 m ρ c) (Proc.devRef .tc main_v21) = _
  after_results_simp
  rw [Keep.keep2_main_arg7 m ρ c, Keep.W1_main_arg7 m ρ c]
  rfl
theorem e1_b2 : Gen.W3 m ρ c (Proc.devRef .tc main_v25) = Net.brow ![0, 0] slices_S5x128_S1x128_0_0 (m ((c : Thread nD τ).loc main_arg8)) := by
  show StableHlo.after hostOps1 (Gen.W2 m ρ c) (Proc.devRef .tc main_v25) = _
  after_results_simp
  rw [Keep.keep2_main_arg8 m ρ c, Keep.W1_main_arg8 m ρ c]
  rfl

/-- At region 1's exit the states are layer 1 of the states at region 0's exit. -/
theorem c1 : Gen.W4 m ρ c (Proc.devRef .tc main_v26)
    = Net.layerR ![0, 0, 0] ![0, 0] slices_S5x128x128_S1x128x128_0_0_0 slices_S5x128_S1x128_0_0 (m ((c : Thread nD τ).loc main_arg1)) (m ((c : Thread nD τ).loc main_arg5)) (m ((c : Thread nD τ).loc main_arg6)) (m ((c : Thread nD τ).loc main_arg7)) (m ((c : Thread nD τ).loc main_arg8)) (Gen.W2 m ρ c (Proc.devRef .tc main_v5)) := by
  refine ((Gen.W4_arr m ρ c 6).trans (Region1.arr (Gen.V3 m ρ) c)).trans ?_
  show GinLayers.ginRelu (M := 100000) (N := 128) (L := 128) (P := 128) _ _ _ _ _
      (Gen.W3 m ρ c (Proc.devRef .tc main_v5)) (Gen.W3 m ρ c (Proc.devRef .tc main_v15))
      (Gen.W3 m ρ c (Proc.devRef .tc main_v17)) (Gen.W3 m ρ c (Proc.devRef .tc main_v24))
      (Gen.W3 m ρ c (Proc.devRef .tc main_v21)) (Gen.W3 m ρ c (Proc.devRef .tc main_v25)) = _
  rw [e1_h m ρ c, e1_agg m ρ c, e1_w1 m ρ c, e1_b1 m ρ c, e1_w2 m ρ c, e1_b2 m ρ c]
  rfl

/-! ## Region 2: layer 2 of the states at region 1's exit

What the stretch before the region leaves in the region's six input arrays, from the contents at region 1's exit. -/

/-- The stretch does not write the states. -/
theorem e2_h : Gen.W5 m ρ c (Proc.devRef .tc main_v26) = Gen.W4 m ρ c (Proc.devRef .tc main_v26) := by
  host_keeps hostOps2
/-- The neighbour sums of the states, along the launch edge index. -/
theorem e2_agg : Gen.W5 m ρ c (Proc.devRef .tc main_v36) = Net.agg (m ((c : Thread nD τ).loc main_arg1)) (Gen.W4 m ρ c (Proc.devRef .tc main_v26)) := by
  have k1 : Gen.W4 m ρ c (Proc.devRef .tc main_v1) = Net.src (m ((c : Thread nD τ).loc main_arg1)) :=
    (Keep.keep4_main_v1 m ρ c).trans (Keep.W1_main_v1 m ρ c)
  have k3 : Gen.W4 m ρ c (Proc.devRef .tc main_v3) = Net.dst (m ((c : Thread nD τ).loc main_arg1)) :=
    (Keep.keep4_main_v3 m ρ c).trans (Keep.W1_main_v3 m ρ c)
  show StableHlo.after hostOps2 (Gen.W4 m ρ c) (Proc.devRef .tc main_v36) = _
  generalize Gen.W4 m ρ c = X at k1 k3 ⊢
  after_results_simp
  rw [k1, k3]
  rfl
/-- The layer's slices of the launch weight and bias arrays. -/
theorem e2_w1 : Gen.W5 m ρ c (Proc.devRef .tc main_v38) = Net.wmat ![1, 0, 0] slices_S5x128x128_S1x128x128_1_0_0 (m ((c : Thread nD τ).loc main_arg5)) := by
  show StableHlo.after hostOps2 (Gen.W4 m ρ c) (Proc.devRef .tc main_v38) = _
  after_results_simp
  rw [Keep.keep4_main_arg5 m ρ c, Keep.W1_main_arg5 m ρ c]
  rfl
theorem e2_b1 : Gen.W5 m ρ c (Proc.devRef .tc main_v45) = Net.brow ![1, 0] slices_S5x128_S1x128_1_0 (m ((c : Thread nD τ).loc main_arg6)) := by
  show StableHlo.after hostOps2 (Gen.W4 m ρ c) (Proc.devRef .tc main_v45) = _
  after_results_simp
  rw [Keep.keep4_main_arg6 m ρ c, Keep.W1_main_arg6 m ρ c]
  rfl
theorem e2_w2 : Gen.W5 m ρ c (Proc.devRef .tc main_v42) = Net.wmat ![1, 0, 0] slices_S5x128x128_S1x128x128_1_0_0 (m ((c : Thread nD τ).loc main_arg7)) := by
  show StableHlo.after hostOps2 (Gen.W4 m ρ c) (Proc.devRef .tc main_v42) = _
  after_results_simp
  rw [Keep.keep4_main_arg7 m ρ c, Keep.W1_main_arg7 m ρ c]
  rfl
theorem e2_b2 : Gen.W5 m ρ c (Proc.devRef .tc main_v46) = Net.brow ![1, 0] slices_S5x128_S1x128_1_0 (m ((c : Thread nD τ).loc main_arg8)) := by
  show StableHlo.after hostOps2 (Gen.W4 m ρ c) (Proc.devRef .tc main_v46) = _
  after_results_simp
  rw [Keep.keep4_main_arg8 m ρ c, Keep.W1_main_arg8 m ρ c]
  rfl

/-- At region 2's exit the states are layer 2 of the states at region 1's exit. -/
theorem c2 : Gen.W6 m ρ c (Proc.devRef .tc main_v47)
    = Net.layerR ![1, 0, 0] ![1, 0] slices_S5x128x128_S1x128x128_1_0_0 slices_S5x128_S1x128_1_0 (m ((c : Thread nD τ).loc main_arg1)) (m ((c : Thread nD τ).loc main_arg5)) (m ((c : Thread nD τ).loc main_arg6)) (m ((c : Thread nD τ).loc main_arg7)) (m ((c : Thread nD τ).loc main_arg8)) (Gen.W4 m ρ c (Proc.devRef .tc main_v26)) := by
  refine ((Gen.W6_arr m ρ c 6).trans (Region2.arr (Gen.V5 m ρ) c)).trans ?_
  show GinLayers.ginRelu (M := 100000) (N := 128) (L := 128) (P := 128) _ _ _ _ _
      (Gen.W5 m ρ c (Proc.devRef .tc main_v26)) (Gen.W5 m ρ c (Proc.devRef .tc main_v36))
      (Gen.W5 m ρ c (Proc.devRef .tc main_v38)) (Gen.W5 m ρ c (Proc.devRef .tc main_v45))
      (Gen.W5 m ρ c (Proc.devRef .tc main_v42)) (Gen.W5 m ρ c (Proc.devRef .tc main_v46)) = _
  rw [e2_h m ρ c, e2_agg m ρ c, e2_w1 m ρ c, e2_b1 m ρ c, e2_w2 m ρ c, e2_b2 m ρ c]
  rfl

/-! ## Region 3: layer 3 of the states at region 2's exit

What the stretch before the region leaves in the region's six input arrays, from the contents at region 2's exit. -/

/-- The stretch does not write the states. -/
theorem e3_h : Gen.W7 m ρ c (Proc.devRef .tc main_v47) = Gen.W6 m ρ c (Proc.devRef .tc main_v47) := by
  host_keeps hostOps3
/-- The neighbour sums of the states, along the launch edge index. -/
theorem e3_agg : Gen.W7 m ρ c (Proc.devRef .tc main_v57) = Net.agg (m ((c : Thread nD τ).loc main_arg1)) (Gen.W6 m ρ c (Proc.devRef .tc main_v47)) := by
  have k1 : Gen.W6 m ρ c (Proc.devRef .tc main_v1) = Net.src (m ((c : Thread nD τ).loc main_arg1)) :=
    (Keep.keep6_main_v1 m ρ c).trans (Keep.W1_main_v1 m ρ c)
  have k3 : Gen.W6 m ρ c (Proc.devRef .tc main_v3) = Net.dst (m ((c : Thread nD τ).loc main_arg1)) :=
    (Keep.keep6_main_v3 m ρ c).trans (Keep.W1_main_v3 m ρ c)
  show StableHlo.after hostOps3 (Gen.W6 m ρ c) (Proc.devRef .tc main_v57) = _
  generalize Gen.W6 m ρ c = X at k1 k3 ⊢
  after_results_simp
  rw [k1, k3]
  rfl
/-- The layer's slices of the launch weight and bias arrays. -/
theorem e3_w1 : Gen.W7 m ρ c (Proc.devRef .tc main_v59) = Net.wmat ![2, 0, 0] slices_S5x128x128_S1x128x128_2_0_0 (m ((c : Thread nD τ).loc main_arg5)) := by
  show StableHlo.after hostOps3 (Gen.W6 m ρ c) (Proc.devRef .tc main_v59) = _
  after_results_simp
  rw [Keep.keep6_main_arg5 m ρ c, Keep.W1_main_arg5 m ρ c]
  rfl
theorem e3_b1 : Gen.W7 m ρ c (Proc.devRef .tc main_v66) = Net.brow ![2, 0] slices_S5x128_S1x128_2_0 (m ((c : Thread nD τ).loc main_arg6)) := by
  show StableHlo.after hostOps3 (Gen.W6 m ρ c) (Proc.devRef .tc main_v66) = _
  after_results_simp
  rw [Keep.keep6_main_arg6 m ρ c, Keep.W1_main_arg6 m ρ c]
  rfl
theorem e3_w2 : Gen.W7 m ρ c (Proc.devRef .tc main_v63) = Net.wmat ![2, 0, 0] slices_S5x128x128_S1x128x128_2_0_0 (m ((c : Thread nD τ).loc main_arg7)) := by
  show StableHlo.after hostOps3 (Gen.W6 m ρ c) (Proc.devRef .tc main_v63) = _
  after_results_simp
  rw [Keep.keep6_main_arg7 m ρ c, Keep.W1_main_arg7 m ρ c]
  rfl
theorem e3_b2 : Gen.W7 m ρ c (Proc.devRef .tc main_v67) = Net.brow ![2, 0] slices_S5x128_S1x128_2_0 (m ((c : Thread nD τ).loc main_arg8)) := by
  show StableHlo.after hostOps3 (Gen.W6 m ρ c) (Proc.devRef .tc main_v67) = _
  after_results_simp
  rw [Keep.keep6_main_arg8 m ρ c, Keep.W1_main_arg8 m ρ c]
  rfl

/-- At region 3's exit the states are layer 3 of the states at region 2's exit. -/
theorem c3 : Gen.W8 m ρ c (Proc.devRef .tc main_v68)
    = Net.layerR ![2, 0, 0] ![2, 0] slices_S5x128x128_S1x128x128_2_0_0 slices_S5x128_S1x128_2_0 (m ((c : Thread nD τ).loc main_arg1)) (m ((c : Thread nD τ).loc main_arg5)) (m ((c : Thread nD τ).loc main_arg6)) (m ((c : Thread nD τ).loc main_arg7)) (m ((c : Thread nD τ).loc main_arg8)) (Gen.W6 m ρ c (Proc.devRef .tc main_v47)) := by
  refine ((Gen.W8_arr m ρ c 6).trans (Region3.arr (Gen.V7 m ρ) c)).trans ?_
  show GinLayers.ginRelu (M := 100000) (N := 128) (L := 128) (P := 128) _ _ _ _ _
      (Gen.W7 m ρ c (Proc.devRef .tc main_v47)) (Gen.W7 m ρ c (Proc.devRef .tc main_v57))
      (Gen.W7 m ρ c (Proc.devRef .tc main_v59)) (Gen.W7 m ρ c (Proc.devRef .tc main_v66))
      (Gen.W7 m ρ c (Proc.devRef .tc main_v63)) (Gen.W7 m ρ c (Proc.devRef .tc main_v67)) = _
  rw [e3_h m ρ c, e3_agg m ρ c, e3_w1 m ρ c, e3_b1 m ρ c, e3_w2 m ρ c, e3_b2 m ρ c]
  rfl

/-! ## Region 4: layer 4 of the states at region 3's exit

What the stretch before the region leaves in the region's six input arrays, from the contents at region 3's exit. -/

/-- The stretch does not write the states. -/
theorem e4_h : Gen.W9 m ρ c (Proc.devRef .tc main_v68) = Gen.W8 m ρ c (Proc.devRef .tc main_v68) := by
  host_keeps hostOps4
/-- The neighbour sums of the states, along the launch edge index. -/
theorem e4_agg : Gen.W9 m ρ c (Proc.devRef .tc main_v78) = Net.agg (m ((c : Thread nD τ).loc main_arg1)) (Gen.W8 m ρ c (Proc.devRef .tc main_v68)) := by
  have k1 : Gen.W8 m ρ c (Proc.devRef .tc main_v1) = Net.src (m ((c : Thread nD τ).loc main_arg1)) :=
    (Keep.keep8_main_v1 m ρ c).trans (Keep.W1_main_v1 m ρ c)
  have k3 : Gen.W8 m ρ c (Proc.devRef .tc main_v3) = Net.dst (m ((c : Thread nD τ).loc main_arg1)) :=
    (Keep.keep8_main_v3 m ρ c).trans (Keep.W1_main_v3 m ρ c)
  show StableHlo.after hostOps4 (Gen.W8 m ρ c) (Proc.devRef .tc main_v78) = _
  generalize Gen.W8 m ρ c = X at k1 k3 ⊢
  after_results_simp
  rw [k1, k3]
  rfl
/-- The layer's slices of the launch weight and bias arrays. -/
theorem e4_w1 : Gen.W9 m ρ c (Proc.devRef .tc main_v80) = Net.wmat ![3, 0, 0] slices_S5x128x128_S1x128x128_3_0_0 (m ((c : Thread nD τ).loc main_arg5)) := by
  show StableHlo.after hostOps4 (Gen.W8 m ρ c) (Proc.devRef .tc main_v80) = _
  after_results_simp
  rw [Keep.keep8_main_arg5 m ρ c, Keep.W1_main_arg5 m ρ c]
  rfl
theorem e4_b1 : Gen.W9 m ρ c (Proc.devRef .tc main_v87) = Net.brow ![3, 0] slices_S5x128_S1x128_3_0 (m ((c : Thread nD τ).loc main_arg6)) := by
  show StableHlo.after hostOps4 (Gen.W8 m ρ c) (Proc.devRef .tc main_v87) = _
  after_results_simp
  rw [Keep.keep8_main_arg6 m ρ c, Keep.W1_main_arg6 m ρ c]
  rfl
theorem e4_w2 : Gen.W9 m ρ c (Proc.devRef .tc main_v84) = Net.wmat ![3, 0, 0] slices_S5x128x128_S1x128x128_3_0_0 (m ((c : Thread nD τ).loc main_arg7)) := by
  show StableHlo.after hostOps4 (Gen.W8 m ρ c) (Proc.devRef .tc main_v84) = _
  after_results_simp
  rw [Keep.keep8_main_arg7 m ρ c, Keep.W1_main_arg7 m ρ c]
  rfl
theorem e4_b2 : Gen.W9 m ρ c (Proc.devRef .tc main_v88) = Net.brow ![3, 0] slices_S5x128_S1x128_3_0 (m ((c : Thread nD τ).loc main_arg8)) := by
  show StableHlo.after hostOps4 (Gen.W8 m ρ c) (Proc.devRef .tc main_v88) = _
  after_results_simp
  rw [Keep.keep8_main_arg8 m ρ c, Keep.W1_main_arg8 m ρ c]
  rfl

/-- At region 4's exit the states are layer 4 of the states at region 3's exit. -/
theorem c4 : Gen.W10 m ρ c (Proc.devRef .tc main_v89)
    = Net.layerR ![3, 0, 0] ![3, 0] slices_S5x128x128_S1x128x128_3_0_0 slices_S5x128_S1x128_3_0 (m ((c : Thread nD τ).loc main_arg1)) (m ((c : Thread nD τ).loc main_arg5)) (m ((c : Thread nD τ).loc main_arg6)) (m ((c : Thread nD τ).loc main_arg7)) (m ((c : Thread nD τ).loc main_arg8)) (Gen.W8 m ρ c (Proc.devRef .tc main_v68)) := by
  refine ((Gen.W10_arr m ρ c 6).trans (Region4.arr (Gen.V9 m ρ) c)).trans ?_
  show GinLayers.ginRelu (M := 100000) (N := 128) (L := 128) (P := 128) _ _ _ _ _
      (Gen.W9 m ρ c (Proc.devRef .tc main_v68)) (Gen.W9 m ρ c (Proc.devRef .tc main_v78))
      (Gen.W9 m ρ c (Proc.devRef .tc main_v80)) (Gen.W9 m ρ c (Proc.devRef .tc main_v87))
      (Gen.W9 m ρ c (Proc.devRef .tc main_v84)) (Gen.W9 m ρ c (Proc.devRef .tc main_v88)) = _
  rw [e4_h m ρ c, e4_agg m ρ c, e4_w1 m ρ c, e4_b1 m ρ c, e4_w2 m ρ c, e4_b2 m ρ c]
  rfl

/-! ## Region 5: layer 5 of the states at region 4's exit

What the stretch before the region leaves in the region's six input arrays, from the contents at region 4's exit. -/

/-- The stretch does not write the states. -/
theorem e5_h : Gen.W11 m ρ c (Proc.devRef .tc main_v89) = Gen.W10 m ρ c (Proc.devRef .tc main_v89) := by
  host_keeps hostOps5
/-- The neighbour sums of the states, along the launch edge index. -/
theorem e5_agg : Gen.W11 m ρ c (Proc.devRef .tc main_v99) = Net.agg (m ((c : Thread nD τ).loc main_arg1)) (Gen.W10 m ρ c (Proc.devRef .tc main_v89)) := by
  have k1 : Gen.W10 m ρ c (Proc.devRef .tc main_v1) = Net.src (m ((c : Thread nD τ).loc main_arg1)) :=
    (Keep.keep10_main_v1 m ρ c).trans (Keep.W1_main_v1 m ρ c)
  have k3 : Gen.W10 m ρ c (Proc.devRef .tc main_v3) = Net.dst (m ((c : Thread nD τ).loc main_arg1)) :=
    (Keep.keep10_main_v3 m ρ c).trans (Keep.W1_main_v3 m ρ c)
  show StableHlo.after hostOps5 (Gen.W10 m ρ c) (Proc.devRef .tc main_v99) = _
  generalize Gen.W10 m ρ c = X at k1 k3 ⊢
  after_results_simp
  rw [k1, k3]
  rfl
/-- The layer's slices of the launch weight and bias arrays. -/
theorem e5_w1 : Gen.W11 m ρ c (Proc.devRef .tc main_v101) = Net.wmat ![4, 0, 0] slices_S5x128x128_S1x128x128_4_0_0 (m ((c : Thread nD τ).loc main_arg5)) := by
  show StableHlo.after hostOps5 (Gen.W10 m ρ c) (Proc.devRef .tc main_v101) = _
  after_results_simp
  rw [Keep.keep10_main_arg5 m ρ c, Keep.W1_main_arg5 m ρ c]
  rfl
theorem e5_b1 : Gen.W11 m ρ c (Proc.devRef .tc main_v108) = Net.brow ![4, 0] slices_S5x128_S1x128_4_0 (m ((c : Thread nD τ).loc main_arg6)) := by
  show StableHlo.after hostOps5 (Gen.W10 m ρ c) (Proc.devRef .tc main_v108) = _
  after_results_simp
  rw [Keep.keep10_main_arg6 m ρ c, Keep.W1_main_arg6 m ρ c]
  rfl
theorem e5_w2 : Gen.W11 m ρ c (Proc.devRef .tc main_v105) = Net.wmat ![4, 0, 0] slices_S5x128x128_S1x128x128_4_0_0 (m ((c : Thread nD τ).loc main_arg7)) := by
  show StableHlo.after hostOps5 (Gen.W10 m ρ c) (Proc.devRef .tc main_v105) = _
  after_results_simp
  rw [Keep.keep10_main_arg7 m ρ c, Keep.W1_main_arg7 m ρ c]
  rfl
theorem e5_b2 : Gen.W11 m ρ c (Proc.devRef .tc main_v109) = Net.brow ![4, 0] slices_S5x128_S1x128_4_0 (m ((c : Thread nD τ).loc main_arg8)) := by
  show StableHlo.after hostOps5 (Gen.W10 m ρ c) (Proc.devRef .tc main_v109) = _
  after_results_simp
  rw [Keep.keep10_main_arg8 m ρ c, Keep.W1_main_arg8 m ρ c]
  rfl

/-- At region 5's exit the states are layer 5 of the states at region 4's exit. -/
theorem c5 : Gen.W12 m ρ c (Proc.devRef .tc main_v110)
    = Net.layerP ![4, 0, 0] ![4, 0] slices_S5x128x128_S1x128x128_4_0_0 slices_S5x128_S1x128_4_0 (m ((c : Thread nD τ).loc main_arg1)) (m ((c : Thread nD τ).loc main_arg5)) (m ((c : Thread nD τ).loc main_arg6)) (m ((c : Thread nD τ).loc main_arg7)) (m ((c : Thread nD τ).loc main_arg8)) (Gen.W10 m ρ c (Proc.devRef .tc main_v89)) := by
  refine ((Gen.W12_arr m ρ c 6).trans (Region5.arr (Gen.V11 m ρ) c)).trans ?_
  show GinLayers.ginPlain (M := 100000) (N := 128) (L := 128) (P := 128) _ _ _ _
      (Gen.W11 m ρ c (Proc.devRef .tc main_v89)) (Gen.W11 m ρ c (Proc.devRef .tc main_v99))
      (Gen.W11 m ρ c (Proc.devRef .tc main_v101)) (Gen.W11 m ρ c (Proc.devRef .tc main_v108))
      (Gen.W11 m ρ c (Proc.devRef .tc main_v105)) (Gen.W11 m ρ c (Proc.devRef .tc main_v109)) = _
  rw [e5_h m ρ c, e5_agg m ρ c, e5_w1 m ρ c, e5_b1 m ρ c, e5_w2 m ρ c, e5_b2 m ρ c]
  rfl

/-! ## Region 6: the three-layer perceptron of the pooled states

What the last stretch leaves in the region's seven input arrays, from the contents at region 5's exit. -/

/-- The states at region 5's exit summed per graph, along the launch batch vector. -/
theorem e6_pool : Gen.W13 m ρ c (Proc.devRef .tc main_v113) = Net.pool (m ((c : Thread nD τ).loc main_arg2)) (Gen.W12 m ρ c (Proc.devRef .tc main_v110)) := by
  show StableHlo.after hostOps6 (Gen.W12 m ρ c) (Proc.devRef .tc main_v113) = _
  after_results_simp
  rw [Keep.keep12_main_arg2 m ρ c, Keep.W1_main_arg2 m ρ c]
  rfl
/-- The weight matrices are as launched: the stretch writes none of them. -/
theorem e6_arg9 : Gen.W13 m ρ c (Proc.devRef .tc main_arg9) = (m ((c : Thread nD τ).loc main_arg9)) :=
  (show Gen.W13 m ρ c (Proc.devRef .tc main_arg9) = Gen.W12 m ρ c (Proc.devRef .tc main_arg9) by host_keeps hostOps6).trans
    ((Keep.keep12_main_arg9 m ρ c).trans (Keep.W1_main_arg9 m ρ c))
theorem e6_arg11 : Gen.W13 m ρ c (Proc.devRef .tc main_arg11) = (m ((c : Thread nD τ).loc main_arg11)) :=
  (show Gen.W13 m ρ c (Proc.devRef .tc main_arg11) = Gen.W12 m ρ c (Proc.devRef .tc main_arg11) by host_keeps hostOps6).trans
    ((Keep.keep12_main_arg11 m ρ c).trans (Keep.W1_main_arg11 m ρ c))
theorem e6_arg13 : Gen.W13 m ρ c (Proc.devRef .tc main_arg13) = (m ((c : Thread nD τ).loc main_arg13)) :=
  (show Gen.W13 m ρ c (Proc.devRef .tc main_arg13) = Gen.W12 m ρ c (Proc.devRef .tc main_arg13) by host_keeps hostOps6).trans
    ((Keep.keep12_main_arg13 m ρ c).trans (Keep.W1_main_arg13 m ρ c))
/-- The bias vectors as one-row matrices. -/
theorem e6_b0 : Gen.W13 m ρ c (Proc.devRef .tc main_v114) = Net.row512 (m ((c : Thread nD τ).loc main_arg10)) := by
  show StableHlo.after hostOps6 (Gen.W12 m ρ c) (Proc.devRef .tc main_v114) = _
  after_results_simp
  rw [Keep.keep12_main_arg10 m ρ c, Keep.W1_main_arg10 m ρ c]
  rfl
theorem e6_b1 : Gen.W13 m ρ c (Proc.devRef .tc main_v115) = Net.row128 (m ((c : Thread nD τ).loc main_arg12)) := by
  show StableHlo.after hostOps6 (Gen.W12 m ρ c) (Proc.devRef .tc main_v115) = _
  after_results_simp
  rw [Keep.keep12_main_arg12 m ρ c, Keep.W1_main_arg12 m ρ c]
  rfl
theorem e6_b2 : Gen.W13 m ρ c (Proc.devRef .tc main_v116) = Net.row1 (m ((c : Thread nD τ).loc main_arg14)) := by
  show StableHlo.after hostOps6 (Gen.W12 m ρ c) (Proc.devRef .tc main_v116) = _
  after_results_simp
  rw [Keep.keep12_main_arg14 m ρ c, Keep.W1_main_arg14 m ρ c]
  rfl

/-- At region 6's exit the result array is the perceptron of the pooled states at region 5's exit. -/
theorem c6 : Gen.W14 m ρ c (Proc.devRef .tc main_v117)
    = Net.head (Net.pool (m ((c : Thread nD τ).loc main_arg2)) (Gen.W12 m ρ c (Proc.devRef .tc main_v110))) (m ((c : Thread nD τ).loc main_arg9)) (m ((c : Thread nD τ).loc main_arg10)) (m ((c : Thread nD τ).loc main_arg11)) (m ((c : Thread nD τ).loc main_arg12))
        (m ((c : Thread nD τ).loc main_arg13)) (m ((c : Thread nD τ).loc main_arg14)) := by
  refine ((Gen.W14_arr m ρ c 7).trans (Region6.arr (Gen.V13 m ρ) c)).trans ?_
  show GinLayers.task3 (M := 4000) (K := 128) (L := 512) (P := 128) (Q := 1) _ _ _ _ _
      (Gen.W13 m ρ c (Proc.devRef .tc main_v113)) (Gen.W13 m ρ c (Proc.devRef .tc main_arg9))
      (Gen.W13 m ρ c (Proc.devRef .tc main_v114)) (Gen.W13 m ρ c (Proc.devRef .tc main_arg11))
      (Gen.W13 m ρ c (Proc.devRef .tc main_v115)) (Gen.W13 m ρ c (Proc.devRef .tc main_arg13))
      (Gen.W13 m ρ c (Proc.devRef .tc main_v116)) = _
  rw [e6_pool m ρ c, e6_arg9 m ρ c, e6_b0 m ρ c, e6_arg11 m ρ c, e6_b1 m ρ c, e6_arg13 m ρ c, e6_b2 m ρ c]
  rfl

/-! ## The whole run -/

/-- The result array at the last region's exit is the network of the fifteen launch arrays. -/
theorem result : Gen.W14 m ρ c (Proc.devRef .tc main_v117)
    = Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [c6 m ρ c, c5 m ρ c, c4 m ρ c, c3 m ρ c, c2 m ρ c, c1 m ρ c, c0 m ρ c]
  rfl

end Cert.KernelIdeal.Chain

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibHostColRow.lean ====
/-
  Host broadcasts of a column and of a row, and a vector cast to a column or to a row, read at an index.

  For arbitrary extents and any element type.  A column [M, 1] broadcast (broadcast_in_dim, axes [0, 1]) to [M, N]
  reads at (r, q) the column's entry (r, 0); a row [1, N] broadcast to [M, N] reads at (r, q) the row's entry
  (0, q).  A vector of length M cast to the column [M, 1] holds the same entries as the vector broadcast into
  [M, 1] along axis 0, and a vector of length N cast to the row [1, N] the same as the vector broadcast into [1, N]
  along axis 1: so a program that reshapes a vector and one that broadcasts it agree.
-/
import proofs.«180979_j42322607735316_1_alg».proof.Proof.LibKeepdims
import Idealize.ShloMosaic.Lib.Pipeline.Value
import Idealize.ShloMosaic.Lib.ValueLayout
import Idealize.ShloMosaic.Lib.ValueIdx

namespace Idealize.ShloMosaic.HostColRow

open Idealize.ShloMosaic Idealize.ShloMosaic.ValueIdx

variable {M N : Nat}

/-- A column broadcast along the lanes, at (r, q): the column's entry of row r. -/
theorem bcast_col_apply {α : Type} (n : (⟨2, ![M, 1]⟩ : Shape).Idx → α)
    (h : (⟨2, ![M, 1]⟩ : Shape).BroadcastsInDim ⟨2, ![M, N]⟩ ![0, 1]) (i : (⟨2, ![M, N]⟩ : Shape).Idx) :
    broadcastInDim ⟨2, ![M, N]⟩ ![0, 1] h n i = n (ix2 (i 0) (0 : Fin 1)) := by
  refine broadcastInDim_apply _ h n i (ix2 (i 0) (0 : Fin 1)) fun a => ?_
  match a with
  | ⟨0, _⟩ =>
    show (i 0).val = if M = 1 then 0 else (i 0).val
    have h0 : (i 0).val < M := (i 0).isLt
    split
    · omega
    · rfl
  | ⟨1, _⟩ => rfl

/-- A row broadcast over the rows, at (r, q): the row's entry of lane q. -/
theorem bcast_row_apply {α : Type} (b : (⟨2, ![1, N]⟩ : Shape).Idx → α)
    (h : (⟨2, ![1, N]⟩ : Shape).BroadcastsInDim ⟨2, ![M, N]⟩ ![0, 1]) (i : (⟨2, ![M, N]⟩ : Shape).Idx) :
    broadcastInDim ⟨2, ![M, N]⟩ ![0, 1] h b i = b (ix2 (0 : Fin 1) (i 1)) := by
  refine broadcastInDim_apply _ h b i (ix2 (0 : Fin 1) (i 1)) fun a => ?_
  match a with
  | ⟨0, _⟩ => rfl
  | ⟨1, _⟩ =>
    show (i 1).val = if N = 1 then 0 else (i 1).val
    have h1 : (i 1).val < N := (i 1).isLt
    split
    · omega
    · rfl

/-- A vector cast to a column holds what the vector broadcast into the column along its axis holds. -/
theorem col_eq {α : Type} (x : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ x h = broadcastInDim ⟨2, ![M, 1]⟩ ![0] h' x := by
  funext i
  obtain ⟨p, u, rfl⟩ : ∃ (p : Fin M) (u : Fin 1), i = ix2 p u := ⟨i 0, i 1, eq_ix2 i⟩
  rw [Keepdims.shapeCast_a_a1_apply x h p u]
  refine (broadcastInDim_apply ![0] h' x _ (ix1 p) fun a => ?_).symm
  match a with
  | ⟨0, _⟩ =>
    show p.val = if M = 1 then 0 else p.val
    have h0 : p.val < M := p.isLt
    split
    · omega
    · rfl

/-- A vector cast to a row holds what the vector broadcast into the row along its axis holds. -/
theorem row_eq {α : Type} (x : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ x h = broadcastInDim ⟨2, ![1, N]⟩ ![1] h' x := by
  funext i
  obtain ⟨u, q, rfl⟩ : ∃ (u : Fin 1) (q : Fin N), i = ix2 u q := ⟨i 0, i 1, eq_ix2 i⟩
  rw [shapeCast_a_1a_apply x h u q]
  refine (broadcastInDim_apply ![1] h' x _ (ix1 q) fun a => ?_).symm
  match a with
  | ⟨0, _⟩ =>
    show q.val = if N = 1 then 0 else q.val
    have h1 : q.val < N := q.isLt
    split
    · omega
    · rfl

end Idealize.ShloMosaic.HostColRow
-- ==== Proof.RefSide.lean ====
/-
  The reference computes the network function.

  The reference's stages — one per host operation, each a function of the arguments — compose to the same function of
  the fifteen arguments as the network written layer by layer: the embedding, five times "1 · h + the sum over incoming
  edges, then a two-layer perceptron" (the first four ending in a maximum with zero), the sum per graph, and the three-layer
  perceptron. The one difference of spelling is a bias vector made a one-row matrix: by a cast of shape on one side, by a
  broadcast along the second axis on the other; both rows hold the vector. Everything else is the same operations on the
  same operands.
-/
import proofs.«180979_j42322607735316_1_alg».proof.Proof.Gen.ReferenceIdeal.Read
import proofs.«180979_j42322607735316_1_alg».proof.Proof.Net
import proofs.«180979_j42322607735316_1_alg».proof.Proof.LibHostColRow

set_option maxRecDepth 16384

noncomputable section

namespace Cert.ReferenceIdeal.RefNet

open Cert.ReferenceIdeal Cert.ReferenceIdeal.Gen Cert.ReferenceIdeal.Read Idealize.ShloMosaic Idealize.ShloMosaic.TcCoe
open Cert.KernelIdeal (Net.out Net.h0 Net.h5 Net.layerR Net.layerP Net.head Net.pool Net.agg Net.src Net.dst Net.wmat Net.brow Net.row128 Net.row512 Net.row1)

variable (x0 : (⟨S100000x75, .f32⟩ : BufTy).Contents (Elt Ideal)) (x1 : (⟨S2x400000, .i32⟩ : BufTy).Contents (Elt Ideal))
  (x2 : (⟨S100000, .i32⟩ : BufTy).Contents (Elt Ideal)) (x3 : (⟨S75x128, .f32⟩ : BufTy).Contents (Elt Ideal))
  (x4 : (⟨S128, .f32⟩ : BufTy).Contents (Elt Ideal)) (x5 : (⟨S5x128x128, .f32⟩ : BufTy).Contents (Elt Ideal))
  (x6 : (⟨S5x128, .f32⟩ : BufTy).Contents (Elt Ideal)) (x7 : (⟨S5x128x128, .f32⟩ : BufTy).Contents (Elt Ideal))
  (x8 : (⟨S5x128, .f32⟩ : BufTy).Contents (Elt Ideal)) (x9 : (⟨S128x512, .f32⟩ : BufTy).Contents (Elt Ideal))
  (x10 : (⟨S512, .f32⟩ : BufTy).Contents (Elt Ideal)) (x11 : (⟨S512x128, .f32⟩ : BufTy).Contents (Elt Ideal))
  (x12 : (⟨S128, .f32⟩ : BufTy).Contents (Elt Ideal)) (x13 : (⟨S128x1, .f32⟩ : BufTy).Contents (Elt Ideal))
  (x14 : (⟨S1, .f32⟩ : BufTy).Contents (Elt Ideal))

/-! ## A bias vector as one row: the cast and the broadcast agree -/

theorem row128_eq (v : (⟨S128, .f32⟩ : BufTy).Contents (Elt Ideal)) :
    Net.row128 v = broadcastInDim S1x128 ![1] bcast_S128_S1x128_1 v :=
  HostColRow.row_eq (N := 128) v _ _

theorem row512_eq (v : (⟨S512, .f32⟩ : BufTy).Contents (Elt Ideal)) :
    Net.row512 v = broadcastInDim S1x512 ![1] bcast_S512_S1x512_1 v :=
  HostColRow.row_eq (N := 512) v _ _

theorem row1_eq (v : (⟨S1, .f32⟩ : BufTy).Contents (Elt Ideal)) :
    Net.row1 v = broadcastInDim S1x1 ![1] bcast_S1_S1x1_1 v :=
  HostColRow.row_eq (N := 1) v _ _

theorem brow_eq (o2 : Fin 2 → ℕ) (hs2 : S5x128.Slices o2 S1x128) (x : (⟨S5x128, .f32⟩ : BufTy).Contents (Elt Ideal)) :
    Net.brow o2 hs2 x
      = broadcastInDim S1x128 ![1] bcast_S128_S1x128_1 (shapeCast S128 (extractStridedSlice S1x128 o2 x hs2) shapeCasts_S1x128_S128) :=
  HostColRow.row_eq (N := 128) _ _ _

/-! ## Stage by stage -/

/-- The embedding. -/
theorem r0 : Net.h0 x0 x3 x4 = val_main_v7 (F := Ideal) x0 x3 x4 := by
  unfold Net.h0
  rw [row128_eq]
  rfl

/-- Layer 1. -/
theorem r1 : Net.layerR ![0, 0, 0] ![0, 0] slices_S5x128x128_S1x128x128_0_0_0 slices_S5x128_S1x128_0_0 x1 x5 x6 x7 x8
      (val_main_v7 (F := Ideal) x0 x3 x4) = val_main_v38 (F := Ideal) x0 x1 x3 x4 x5 x6 x7 x8 := by
  unfold Net.layerR
  rw [brow_eq, brow_eq]
  rfl

/-- Layer 2. -/
theorem r2 : Net.layerR ![1, 0, 0] ![1, 0] slices_S5x128x128_S1x128x128_1_0_0 slices_S5x128_S1x128_1_0 x1 x5 x6 x7 x8
      (val_main_v38 (F := Ideal) x0 x1 x3 x4 x5 x6 x7 x8) = val_main_v69 (F := Ideal) x0 x1 x3 x4 x5 x6 x7 x8 := by
  unfold Net.layerR
  rw [brow_eq, brow_eq]
  rfl

/-- Layer 3. -/
theorem r3 : Net.layerR ![2, 0, 0] ![2, 0] slices_S5x128x128_S1x128x128_2_0_0 slices_S5x128_S1x128_2_0 x1 x5 x6 x7 x8
      (val_main_v69 (F := Ideal) x0 x1 x3 x4 x5 x6 x7 x8) = val_main_v100 (F := Ideal) x0 x1 x3 x4 x5 x6 x7 x8 := by
  unfold Net.layerR
  rw [brow_eq, brow_eq]
  rfl

/-- Layer 4. -/
theorem r4 : Net.layerR ![3, 0, 0] ![3, 0] slices_S5x128x128_S1x128x128_3_0_0 slices_S5x128_S1x128_3_0 x1 x5 x6 x7 x8
      (val_main_v100 (F := Ideal) x0 x1 x3 x4 x5 x6 x7 x8) = val_main_v131 (F := Ideal) x0 x1 x3 x4 x5 x6 x7 x8 := by
  unfold Net.layerR
  rw [brow_eq, brow_eq]
  rfl

/-- Layer 5, which ends without the maximum. -/
theorem r5 : Net.layerP ![4, 0, 0] ![4, 0] slices_S5x128x128_S1x128x128_4_0_0 slices_S5x128_S1x128_4_0 x1 x5 x6 x7 x8
      (val_main_v131 (F := Ideal) x0 x1 x3 x4 x5 x6 x7 x8) = val_main_v161 (F := Ideal) x0 x1 x3 x4 x5 x6 x7 x8 := by
  unfold Net.layerP
  rw [brow_eq, brow_eq]
  rfl

/-- The sum per graph and the head. -/
theorem r6 : Net.head (Net.pool x2 (val_main_v161 (F := Ideal) x0 x1 x3 x4 x5 x6 x7 x8)) x9 x10 x11 x12 x13 x14
      = val_main_v178 (F := Ideal) x0 x1 x2 x3 x4 x5 x6 x7 x8 x9 x10 x11 x12 x13 x14 := by
  unfold Net.head
  rw [row512_eq, row128_eq, row1_eq]
  rfl

/-- THE REFERENCE'S RESULT is the network function of the arguments. -/
theorem out_eq : Net.out x0 x1 x2 x3 x4 x5 x6 x7 x8 x9 x10 x11 x12 x13 x14 = val_main_v178 (F := Ideal) x0 x1 x2 x3 x4 x5 x6 x7 x8 x9 x10 x11 x12 x13 x14 := by
  unfold Net.out Net.h5
  rw [r0, r1, r2, r3, r4, r5, r6]

end Cert.ReferenceIdeal.RefNet

end
-- ==== Proof.lean ====
/-
  A graph isomorphism network — a node embedding, five message-passing layers, a sum per graph and a three-layer
  perceptron — written as seven TensorCore kernels among host gathers and scatter-adds, against the same network as plain
  host operations. Over the extended reals the two programs compute one function of their fifteen arguments.

  Every kernel works on blocks of rows: a grid point takes 4000 rows (1000 in the last kernel) of the row-indexed
  operands and the whole of the small weights and biases, and writes the same rows of the result. Each layer produces row R
  of its result from row R of those operands alone, so a block's row r is the whole layer's row 4000 t + r, and since the
  blocks tile the rows, each kernel leaves in its result array the layer applied to the whole arrays it found
  (Proof/Region0 … Region6, for any contents of the arrays at entry). A product of operands narrowed to a shorter float
  format into a zero accumulator is the host's product; no law of the extended reals beyond rewriting equal summands is
  used, so finiteness of the inputs is never needed.

  Between the kernels the host gathers the states at the edges' sources and adds them up at the targets, slices the
  stacked weights, and finally adds the states up per graph; none of these writes an argument or the edge lists, so every
  kernel finds them as launched (Proof/Keep). Composing the seven kernels through these host stretches (Proof/Chain)
  gives the result buffer as the network function of the arguments (Proof/Net), and the reference's operations compose
  to the same function (Proof/RefSide): the only difference of spelling, a bias vector cast to one row against one
  broadcast into a row, is no difference of value.
-/
import proofs.«180979_j42322607735316_1_alg».proof.Defs
import proofs.«180979_j42322607735316_1_alg».proof.Proof.Gen.Kernel
import proofs.«180979_j42322607735316_1_alg».proof.Proof.Gen.Kernel.Skeleton
import proofs.«180979_j42322607735316_1_alg».proof.Proof.Gen.Kernel.Launch
import proofs.«180979_j42322607735316_1_alg».proof.Proof.Gen.Kernel.Points
import proofs.«180979_j42322607735316_1_alg».proof.Proof.Gen.Kernel.Frame
import proofs.«180979_j42322607735316_1_alg».proof.Proof.Gen.KernelIdeal
import proofs.«180979_j42322607735316_1_alg».proof.Proof.Gen.KernelIdeal.Skeleton
import proofs.«180979_j42322607735316_1_alg».proof.Proof.Gen.KernelIdeal.Launch
import proofs.«180979_j42322607735316_1_alg».proof.Proof.Gen.KernelIdeal.Points
import proofs.«180979_j42322607735316_1_alg».proof.Proof.Gen.KernelIdeal.Frame
import proofs.«180979_j42322607735316_1_alg».proof.Proof.Gen.ReferenceIdeal
import proofs.«180979_j42322607735316_1_alg».proof.Proof.Gen.ReferenceIdeal.Run
import proofs.«180979_j42322607735316_1_alg».proof.Proof.Gen.ReferenceIdeal.Read
import proofs.«180979_j42322607735316_1_alg».proof.Proof.Gen.Pre_finite_inputs
import proofs.«180979_j42322607735316_1_alg».proof.Proof.KernelRun
import proofs.«180979_j42322607735316_1_alg».proof.Proof.Chain
import proofs.«180979_j42322607735316_1_alg».proof.Proof.RefSide
import Idealize.ShloMosaic.Adequacy
import Idealize.ShloMosaic.Init

noncomputable section

namespace Cert.Proof

open Idealize.ShloMosaic Idealize.ShloMosaic.TcCoe Idealize.SL.Sem

/-- The kernel's program runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel's program and its reading over the extended reals. -/
theorem preserves : Cert.preserves_Kernel_KernelIdeal := trivial

/-- Both programs end with the network function of the arguments in their result buffers. -/
theorem algebraic : Cert.algebraic_KernelIdeal_ReferenceIdeal := by
  intro m ρ m' ρ' _ hagree
  refine ⟨fun c => Cert.KernelIdeal.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.result m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12, a13, a14⟩ := hagree c
    rw [(h c).1, Cert.ReferenceIdeal.Read.val_main_v178_eq, a0, a1, a2, a3, a4, a5, a6, a7, a8, a9, a10, a11, a12, a13, a14]
    exact (Cert.ReferenceIdeal.RefNet.out_eq _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
